-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S2x128 .f32) (main_arg10 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S2x128 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S2x128 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x128 : Shape := ⟨2, ![1, 128]⟩
abbrev S1x2 : Shape := ⟨2, ![1, 2]⟩
abbrev S100000x2 : Shape := ⟨2, ![100000, 2]⟩
abbrev S10000x128 : Shape := ⟨2, ![10000, 128]⟩
abbrev S10000x2 : Shape := ⟨2, ![10000, 2]⟩
abbrev S10000 : Shape := ⟨1, ![10000]⟩
abbrev S10000x1 : Shape := ⟨2, ![10000, 1]⟩

abbrev nBuf : Space → Nat
  | .hbm => 18
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x128, .f32⟩
  | .hbm, ⟨10, _⟩ => ⟨S2, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x2, .f32⟩
  | .hbm, ⟨17, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2x128, .f32⟩
  | .local _ .vmem, ⟨11, _⟩ => ⟨S1x2, .f32⟩
  | .local _ .vmem, ⟨12, _⟩ => ⟨S10000x2, .f32⟩
  | .local _ .vmem, ⟨13, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10000x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S1x128 : S128.ShapeCasts S1x128
  shapeCasts_S2_S1x2 : S2.ShapeCasts S1x2
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2x128_S2x128_0_0 : ∀ a, (![0, 0] : Fin 2 → Nat) a + S2x128.size a ≤ S2x128.size a
  h_S2x128 : 0 < S2x128.numel
  broadcasts_S1x128_S2x128 : S1x128.Broadcasts S2x128
  reduces_S2x128_S2 : S2x128.Reduces [1] S2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S10000x128_S10000x128_0_0 : ∀ a, (![0, 0] : Fin 2 → Nat) a + S10000x128.size a ≤ S10000x128.size a
  h_S10000x128 : 0 < S10000x128.numel
  broadcasts_S1x128_S10000x128 : S1x128.Broadcasts S10000x128
  reduces_S10000x128_S10000 : S10000x128.Reduces [1] S10000
  shapeCasts_S10000_S10000x1 : S10000.ShapeCasts S10000x1
  broadcasts_S10000x1_S10000x2 : S10000x1.Broadcasts S10000x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S128x128_S128x128_S128x128_1_0_0_1_n_n_wf : DotDims.WF S128x128 S128x128 S128x128 [1] [0] [0] [1] [] []
  dot_S1x128_S128x128_S1x128_1_1_0_0_n_n_wf : DotDims.WF S1x128 S128x128 S1x128 [1] [1] [0] [0] [] []
  dot_S1x128_S2x128_S1x2_1_1_0_0_n_n_wf : DotDims.WF S1x128 S2x128 S1x2 [1] [1] [0] [0] [] []
  dot_S10000x128_S128x128_S10000x128_1_1_0_0_n_n_wf : DotDims.WF S10000x128 S128x128 S10000x128 [1] [1] [0] [0] [] []
  dot_S10000x128_S2x128_S10000x2_1_1_0_0_n_n_wf : DotDims.WF S10000x128 S2x128 S10000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x128.size a ≤ S2x128.size a
  hwx0_9 : ∀ i : grid0.Coords, EltTy.bits .f32 = 32 ∨ (Rect.block (s := S2x128) S2x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x2.size a ≤ S100000x2.size a
  hwx0_11 : ∀ i : grid0.Coords, EltTy.bits .f32 = 32 ∨ (Rect.block (s := S100000x2) S10000x2.size (cc0_transform_11 i) (hinb0_11 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S1x128_S2x128_S1x2_1_1_0_0_n_n : DotDims S1x128 S2x128 S1x2 where
  lhsContracting := [1]
  rhsContracting := [1]
  lhsNonContracting := [0]
  rhsNonContracting := [0]
  lhsBatch := []
  rhsBatch := []
  wf := dot_S1x128_S2x128_S1x2_1_1_0_0_n_n_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S10000x128_S2x128_S10000x2_1_1_0_0_n_n : DotDims S10000x128 S2x128 S10000x2 where
  lhsContracting := [1]
  rhsContracting := [1]
  lhsNonContracting := [0]
  rhsNonContracting := [0]
  lhsBatch := []
  rhsBatch := []
  wf := dot_S10000x128_S2x128_S10000x2_1_1_0_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S10000x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x128 : Shape := ⟨2, ![1, 128]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S128x2 : Shape := ⟨2, ![128, 2]⟩
abbrev S100000x2 : Shape := ⟨2, ![100000, 2]⟩
abbrev S1x2 : Shape := ⟨2, ![1, 2]⟩

abbrev nBuf : Space → Nat
  | .hbm => 208
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S2x128, .f32⟩
  | 10 => ⟨S2, .f32⟩
  | 11 => ⟨S128x128, .f32⟩
  | 12 => ⟨S100000x128, .f32⟩
  | 13 => ⟨S1x128, .f32⟩
  | 14 => ⟨S100000x128, .f32⟩
  | 15 => ⟨S100000x128, .f32⟩
  | 16 => ⟨S100000, .i32⟩
  | 17 => ⟨S100000, .i32⟩
  | 18 => ⟨S128x128, .f32⟩
  | 19 => ⟨S100000x128, .f32⟩
  | 20 => ⟨S_, .f32⟩
  | 21 => ⟨S100000, .f32⟩
  | 22 => ⟨S_, .f32⟩
  | 23 => ⟨S100000, .f32⟩
  | 24 => ⟨S100000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000, .f32⟩
  | 52 => ⟨S100000, .f32⟩
  | 53 => ⟨S100000x1, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S1, .i32⟩
  | 63 => ⟨S_, .i32⟩
  | 64 => ⟨S100000x1, .i32⟩
  | 65 => ⟨S100000x1, .i1⟩
  | 66 => ⟨S1x1, .i32⟩
  | 67 => ⟨S100000x1, .i32⟩
  | 68 => ⟨S100000x1, .i1⟩
  | 69 => ⟨S100000x1, .i1⟩
  | 70 => ⟨S_, .i1⟩
  | 71 => ⟨S100000, .i1⟩
  | 72 => ⟨S100000x128, .f32⟩
  | 73 => ⟨S100000x128, .i1⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x1, .i32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S128x128, .f32⟩
  | 90 => ⟨S100000x128, .f32⟩
  | 91 => ⟨S_, .f32⟩
  | 92 => ⟨S100000, .f32⟩
  | 93 => ⟨S_, .f32⟩
  | 94 => ⟨S100000, .f32⟩
  | 95 => ⟨S100000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000, .f32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000, .f32⟩
  | 123 => ⟨S100000, .f32⟩
  | 124 => ⟨S100000x1, .f32⟩
  | 125 => ⟨S_, .i32⟩
  | 126 => ⟨S100000, .i32⟩
  | 127 => ⟨S100000, .i1⟩
  | _ => ⟨S100000x128, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S1, .i32⟩
  | 6 => ⟨S_, .i32⟩
  | 7 => ⟨S100000x1, .i32⟩
  | 8 => ⟨S100000x1, .i1⟩
  | 9 => ⟨S1x1, .i32⟩
  | 10 => ⟨S100000x1, .i32⟩
  | 11 => ⟨S100000x1, .i1⟩
  | 12 => ⟨S100000x1, .i1⟩
  | 13 => ⟨S_, .i1⟩
  | 14 => ⟨S100000, .i1⟩
  | 15 => ⟨S100000x128, .f32⟩
  | 16 => ⟨S100000x128, .i1⟩
  | 17 => ⟨S_, .f32⟩
  | 18 => ⟨S100000x128, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x1, .i32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000, .i32⟩
  | 33 => ⟨S_, .f32⟩
  | 34 => ⟨S100000, .f32⟩
  | 35 => ⟨S_, .f32⟩
  | 36 => ⟨S100000, .f32⟩
  | 37 => ⟨S100000x1, .i32⟩
  | 38 => ⟨S100000, .f32⟩
  | 39 => ⟨S_, .f32⟩
  | 40 => ⟨S100000x128, .f32⟩
  | 41 => ⟨S100000x1, .i32⟩
  | 42 => ⟨S100000x128, .f32⟩
  | 43 => ⟨S100000x1, .f32⟩
  | 44 => ⟨S100000x128, .f32⟩
  | 45 => ⟨S100000x128, .f32⟩
  | 46 => ⟨S_, .f32⟩
  | 47 => ⟨S100000, .f32⟩
  | 48 => ⟨S100000x1, .f32⟩
  | 49 => ⟨S_, .f32⟩
  | 50 => ⟨S100000x1, .f32⟩
  | 51 => ⟨S100000x1, .f32⟩
  | 52 => ⟨S100000x128, .f32⟩
  | 53 => ⟨S100000x128, .f32⟩
  | 54 => ⟨S100000x128, .f32⟩
  | 55 => ⟨S_, .f32⟩
  | 56 => ⟨S100000, .f32⟩
  | 57 => ⟨S100000x1, .f32⟩
  | 58 => ⟨S_, .f32⟩
  | 59 => ⟨S100000x1, .f32⟩
  | 60 => ⟨S100000x1, .f32⟩
  | 61 => ⟨S100000x128, .f32⟩
  | 62 => ⟨S100000x128, .f32⟩
  | 63 => ⟨S_, .f32⟩
  | 64 => ⟨S100000x1, .f32⟩
  | 65 => ⟨S100000x1, .f32⟩
  | 66 => ⟨S100000x1, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S128x2, .f32⟩
  | 76 => ⟨S100000x2, .f32⟩
  | 77 => ⟨S1x2, .f32⟩
  | 78 => ⟨S100000x2, .f32⟩
  | 79 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_6 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_call2_cst : Ref sig .tc := ⟨.hbm, 86, rfl⟩
abbrev main_call2_v0 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_7 : Ref sig .tc := ⟨.hbm, 91, rfl⟩
abbrev main_v45 : Ref sig .tc := ⟨.hbm, 92, rfl⟩
abbrev main_cst_8 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_9 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_10 : Ref sig .tc := ⟨.hbm, 101, rfl⟩
abbrev main_call3_v0 : Ref sig .tc := ⟨.hbm, 102, rfl⟩
abbrev main_call3_v1 : Ref sig .tc := ⟨.hbm, 103, rfl⟩
abbrev main_v52 : Ref sig .tc := ⟨.hbm, 104, rfl⟩
abbrev main_c_11 : Ref sig .tc := ⟨.hbm, 105, rfl⟩
abbrev main_v53 : Ref sig .tc := ⟨.hbm, 106, rfl⟩
abbrev main_v54 : Ref sig .tc := ⟨.hbm, 107, rfl⟩
abbrev main_c_12 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_c_13 : Ref sig .tc := ⟨.hbm, 114, rfl⟩
abbrev main_v60 : Ref sig .tc := ⟨.hbm, 115, rfl⟩
abbrev main_v61 : Ref sig .tc := ⟨.hbm, 116, rfl⟩
abbrev main_c_14 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_cst : Ref sig .tc := ⟨.hbm, 145, rfl⟩
abbrev main_call4_v15 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_15 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_call5_cst : Ref sig .tc := ⟨.hbm, 157, rfl⟩
abbrev main_call5_v0 : Ref sig .tc := ⟨.hbm, 158, rfl⟩
abbrev main_v78 : Ref sig .tc := ⟨.hbm, 159, rfl⟩
abbrev main_v79 : Ref sig .tc := ⟨.hbm, 160, rfl⟩
abbrev main_cst_16 : Ref sig .tc := ⟨.hbm, 161, rfl⟩
abbrev main_v80 : Ref sig .tc := ⟨.hbm, 162, rfl⟩
abbrev main_cst_17 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_cst_18 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_19 : Ref sig .tc := ⟨.hbm, 174, rfl⟩
abbrev main_v90 : Ref sig .tc := ⟨.hbm, 175, rfl⟩
abbrev main_v91 : Ref sig .tc := ⟨.hbm, 176, rfl⟩
abbrev main_cst_20 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_21 : Ref sig .tc := ⟨.hbm, 183, rfl⟩
abbrev main_v97 : Ref sig .tc := ⟨.hbm, 184, rfl⟩
abbrev main_v98 : Ref sig .tc := ⟨.hbm, 185, rfl⟩
abbrev main_cst_22 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_cst_23 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  reducesTo_S100000x128_S100000_d1 : S100000x128.ReducesTo [1] S100000
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  scatter_S100000_S100000x1_S100000_n_0_0_1_wf : ScatterDims.WF S100000 S100000x1 S100000 [] [0] [0] 1
  gather_S100000_S100000x1_S100000_n_0_n_n_0_1_1_wf : GatherDims.WF S100000 S100000x1 S100000 [] [0] [] [0] [] 1 ![1]
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Products.lean ====
/-
  The kernel's five matrix products, each read at one entry over the extended reals: with a zero
  accumulator a product's entry is the plain sum, over the contracted coordinate, of the products of
  the two operands' entries.  Four of the five contract both operands on their last axis (the right
  operand is used row-wise, "A · Bᵀ"); the fold of the two weight matrices is the plain "A · B".
-/
import proofs.«120503_g6854767805213_cont_sun_m_581_17_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

theorem wfold_lhs0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
theorem wfold_lhs1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem wfold_rhs0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem wfold_rhs1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl
/-- A plain product of two square matrices: entry (p, q) is the sum over k of A (p, k) · B (k, q). -/
theorem weights_mul_weights (A : FVec Ideal S128x128 .f32) (B : FVec Ideal S128x128 .f32) (p : Fin 128) (q : Fin 128) :
    matmul dot_S128x128_S128x128_S128x128_1_0_0_1_n_n none A B (constant S128x128 .f32 0x00000000#32) (ix2 p q)
      = ∑ k : Fin 128, A (ix2 p k) * B (ix2 k q) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p q) ((contrEquiv1 dot_S128x128_S128x128_S128x128_1_0_0_1_n_n 128 rfl rfl).symm k) = ix2 p k := funext fun a => Fin.ext (by
    match a with
    | ⟨0, _⟩ => exact wfold_lhs0 _ _
    | ⟨1, _⟩ => exact (wfold_lhs1 _ _).trans hk)
  have er : dot_S128x128_S128x128_S128x128_1_0_0_1_n_n.rhsIdx (ix2 p q) ((contrEquiv1 dot_S128x128_S128x128_S128x128_1_0_0_1_n_n 128 rfl rfl).symm k) = ix2 k q := funext fun a => Fin.ext (by
    match a with
    | ⟨0, _⟩ => exact (wfold_rhs0 _ _).trans hk
    | ⟨1, _⟩ => exact wfold_rhs1 _ _)
  rw [el, er]

theorem bfold_lhs0 (i : S1x128.Idx) (q : dot_S1x128_S128x128_S1x128_1_1_0_0_n_n.contr.Idx) :
    (dot_S1x128_S128x128_S1x128_1_1_0_0_n_n.lhsIdx i q 0).val = (i 0).val := by
  unfold DotDims.lhsIdx
  rw [dif_neg (show ¬(0 : Fin S1x128.rank) ∈ dot_S1x128_S128x128_S1x128_1_1_0_0_n_n.lhsBatch by decide),
    dif_pos (show (0 : Fin S1x128.rank) ∈ dot_S1x128_S128x128_S1x128_1_1_0_0_n_n.lhsNonContracting by decide)]
  rfl
theorem bfold_lhs1 (i : S1x128.Idx) (q : dot_S1x128_S128x128_S1x128_1_1_0_0_n_n.contr.Idx) :
    (dot_S1x128_S128x128_S1x128_1_1_0_0_n_n.lhsIdx i q 1).val = (q ⟨0, by decide⟩).val :=
  dot_S1x128_S128x128_S1x128_1_1_0_0_n_n.lhsIdx_val_of_single rfl i q
theorem bfold_rhs0 (i : S1x128.Idx) (q : dot_S1x128_S128x128_S1x128_1_1_0_0_n_n.contr.Idx) :
    (dot_S1x128_S128x128_S1x128_1_1_0_0_n_n.rhsIdx i q 0).val = (i 1).val := by
  unfold DotDims.rhsIdx
  rw [dif_neg (show ¬(0 : Fin S128x128.rank) ∈ dot_S1x128_S128x128_S1x128_1_1_0_0_n_n.rhsBatch by decide),
    dif_pos (show (0 : Fin S128x128.rank) ∈ dot_S1x128_S128x128_S1x128_1_1_0_0_n_n.rhsNonContracting by decide)]
  rfl
theorem bfold_rhs1 (i : S1x128.Idx) (q : dot_S1x128_S128x128_S1x128_1_1_0_0_n_n.contr.Idx) :
    (dot_S1x128_S128x128_S1x128_1_1_0_0_n_n.rhsIdx i q 1).val = (q ⟨0, by decide⟩).val :=
  dot_S1x128_S128x128_S1x128_1_1_0_0_n_n.rhsIdx_val_of_single rfl i q
/-- A single row against the rows of a square matrix: entry (p, q) is the sum over k of v (p, k) · W (q, k). -/
theorem row_mul_rows (A : FVec Ideal S1x128 .f32) (B : FVec Ideal S128x128 .f32) (p : Fin 1) (q : Fin 128) :
    matmul dot_S1x128_S128x128_S1x128_1_1_0_0_n_n none A B (constant S1x128 .f32 0x00000000#32) (ix2 p q)
      = ∑ k : Fin 128, A (ix2 p k) * B (ix2 q k) := by
  simp only [matmul]
  rw [Ideal.matmul_constant_zero_apply, ← Equiv.sum_comp (contrEquiv1 dot_S1x128_S128x128_S1x128_1_1_0_0_n_n 128 rfl rfl).symm]
  refine Finset.sum_congr rfl fun k _ => ?_
  have hk := contrEquiv1_symm_val dot_S1x128_S128x128_S1x128_1_1_0_0_n_n 128 rfl rfl k
  have el : dot_S1x128_S128x128_S1x128_1_1_0_0_n_n.lhsIdx (ix2 p q) ((contrEquiv1 dot_S1x128_S128x128_S1x128_1_1_0_0_n_n 128 rfl rfl).symm k) = ix2 p k := funext fun a => Fin.ext (by
    match a with
    | ⟨0, _⟩ => exact bfold_lhs0 _ _
    | ⟨1, _⟩ => exact (bfold_lhs1 _ _).trans hk)
  have er : dot_S1x128_S128x128_S1x128_1_1_0_0_n_n.rhsIdx (ix2 p q) ((contrEquiv1 dot_S1x128_S128x128_S1x128_1_1_0_0_n_n 128 rfl rfl).symm k) = ix2 q k := funext fun a => Fin.ext (by
    match a with
    | ⟨0, _⟩ => exact bfold_rhs0 _ _
    | ⟨1, _⟩ => exact (bfold_rhs1 _ _).trans hk)
  rw [el, er]

theorem shift_lhs0 (i : S1x2.Idx) (q : dot_S1x128_S2x128_S1x2_1_1_0_0_n_n.contr.Idx) :
    (dot_S1x128_S2x128_S1x2_1_1_0_0_n_n.lhsIdx i q 0).val = (i 0).val := by
  unfold DotDims.lhsIdx
  rw [dif_neg (show ¬(0 : Fin S1x128.rank) ∈ dot_S1x128_S2x128_S1x2_1_1_0_0_n_n.lhsBatch by decide),
    dif_pos (show (0 : Fin S1x128.rank) ∈ dot_S1x128_S2x128_S1x2_1_1_0_0_n_n.lhsNonContracting by decide)]
  rfl
theorem shift_lhs1 (i : S1x2.Idx) (q : dot_S1x128_S2x128_S1x2_1_1_0_0_n_n.contr.Idx) :
    (dot_S1x128_S2x128_S1x2_1_1_0_0_n_n.lhsIdx i q 1).val = (q ⟨0, by decide⟩).val :=
  dot_S1x128_S2x128_S1x2_1_1_0_0_n_n.lhsIdx_val_of_single rfl i q
theorem shift_rhs0 (i : S1x2.Idx) (q : dot_S1x128_S2x128_S1x2_1_1_0_0_n_n.contr.Idx) :
    (dot_S1x128_S2x128_S1x2_1_1_0_0_n_n.rhsIdx i q 0).val = (i 1).val := by
  unfold DotDims.rhsIdx
  rw [dif_neg (show ¬(0 : Fin S2x128.rank) ∈ dot_S1x128_S2x128_S1x2_1_1_0_0_n_n.rhsBatch by decide),
    dif_pos (show (0 : Fin S2x128.rank) ∈ dot_S1x128_S2x128_S1x2_1_1_0_0_n_n.rhsNonContracting by decide)]
  rfl
theorem shift_rhs1 (i : S1x2.Idx) (q : dot_S1x128_S2x128_S1x2_1_1_0_0_n_n.contr.Idx) :
    (dot_S1x128_S2x128_S1x2_1_1_0_0_n_n.rhsIdx i q 1).val = (q ⟨0, by decide⟩).val :=
  dot_S1x128_S2x128_S1x2_1_1_0_0_n_n.rhsIdx_val_of_single rfl i q
/-- A single row against the two rows of the output projection: entry (p, q) is the sum over k of v (p, k) · W (q, k). -/
theorem row_mul_two_rows (A : FVec Ideal S1x128 .f32) (B : FVec Ideal S2x128 .f32) (p : Fin 1) (q : Fin 2) :
    matmul dot_S1x128_S2x128_S1x2_1_1_0_0_n_n none A B (constant S1x2 .f32 0x00000000#32) (ix2 p q)
      = ∑ k : Fin 128, A (ix2 p k) * B (ix2 q k) := by
  simp only [matmul]
  rw [Ideal.matmul_constant_zero_apply, ← Equiv.sum_comp (contrEquiv1 dot_S1x128_S2x128_S1x2_1_1_0_0_n_n 128 rfl rfl).symm]
  refine Finset.sum_congr rfl fun k _ => ?_
  have hk := contrEquiv1_symm_val dot_S1x128_S2x128_S1x2_1_1_0_0_n_n 128 rfl rfl k
  have el : dot_S1x128_S2x128_S1x2_1_1_0_0_n_n.lhsIdx (ix2 p q) ((contrEquiv1 dot_S1x128_S2x128_S1x2_1_1_0_0_n_n 128 rfl rfl).symm k) = ix2 p k := funext fun a => Fin.ext (by
    match a with
    | ⟨0, _⟩ => exact shift_lhs0 _ _
    | ⟨1, _⟩ => exact (shift_lhs1 _ _).trans hk)
  have er : dot_S1x128_S2x128_S1x2_1_1_0_0_n_n.rhsIdx (ix2 p q) ((contrEquiv1 dot_S1x128_S2x128_S1x2_1_1_0_0_n_n 128 rfl rfl).symm k) = ix2 q k := funext fun a => Fin.ext (by
    match a with
    | ⟨0, _⟩ => exact shift_rhs0 _ _
    | ⟨1, _⟩ => exact (shift_rhs1 _ _).trans hk)
  rw [el, er]

theorem hid_lhs0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
theorem hid_lhs1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem hid_rhs0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl
theorem hid_rhs1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q
/-- A block of input rows against the rows of a square matrix: entry (p, q) is the sum over k of x (p, k) · W (q, k). -/
theorem block_mul_rows (A : FVec Ideal S10000x128 .f32) (B : FVec Ideal S128x128 .f32) (p : Fin 10000) (q : Fin 128) :
    matmul dot_S10000x128_S128x128_S10000x128_1_1_0_0_n_n none A B (constant S10000x128 .f32 0x00000000#32) (ix2 p q)
      = ∑ k : Fin 128, A (ix2 p k) * B (ix2 q k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k := funext fun a => Fin.ext (by
    match a with
    | ⟨0, _⟩ => exact hid_lhs0 _ _
    | ⟨1, _⟩ => exact (hid_lhs1 _ _).trans hk)
  have er : dot_S10000x128_S128x128_S10000x128_1_1_0_0_n_n.rhsIdx (ix2 p q) ((contrEquiv1 dot_S10000x128_S128x128_S10000x128_1_1_0_0_n_n 128 rfl rfl).symm k) = ix2 q k := funext fun a => Fin.ext (by
    match a with
    | ⟨0, _⟩ => exact hid_rhs0 _ _
    | ⟨1, _⟩ => exact (hid_rhs1 _ _).trans hk)
  rw [el, er]

theorem proj_lhs0 (i : S10000x2.Idx) (q : dot_S10000x128_S2x128_S10000x2_1_1_0_0_n_n.contr.Idx) :
    (dot_S10000x128_S2x128_S10000x2_1_1_0_0_n_n.lhsIdx i q 0).val = (i 0).val := by
  unfold DotDims.lhsIdx
  rw [dif_neg (show ¬(0 : Fin S10000x128.rank) ∈ dot_S10000x128_S2x128_S10000x2_1_1_0_0_n_n.lhsBatch by decide),
    dif_pos (show (0 : Fin S10000x128.rank) ∈ dot_S10000x128_S2x128_S10000x2_1_1_0_0_n_n.lhsNonContracting by decide)]
  rfl
theorem proj_lhs1 (i : S10000x2.Idx) (q : dot_S10000x128_S2x128_S10000x2_1_1_0_0_n_n.contr.Idx) :
    (dot_S10000x128_S2x128_S10000x2_1_1_0_0_n_n.lhsIdx i q 1).val = (q ⟨0, by decide⟩).val :=
  dot_S10000x128_S2x128_S10000x2_1_1_0_0_n_n.lhsIdx_val_of_single rfl i q
theorem proj_rhs0 (i : S10000x2.Idx) (q : dot_S10000x128_S2x128_S10000x2_1_1_0_0_n_n.contr.Idx) :
    (dot_S10000x128_S2x128_S10000x2_1_1_0_0_n_n.rhsIdx i q 0).val = (i 1).val := by
  unfold DotDims.rhsIdx
  rw [dif_neg (show ¬(0 : Fin S2x128.rank) ∈ dot_S10000x128_S2x128_S10000x2_1_1_0_0_n_n.rhsBatch by decide),
    dif_pos (show (0 : Fin S2x128.rank) ∈ dot_S10000x128_S2x128_S10000x2_1_1_0_0_n_n.rhsNonContracting by decide)]
  rfl
theorem proj_rhs1 (i : S10000x2.Idx) (q : dot_S10000x128_S2x128_S10000x2_1_1_0_0_n_n.contr.Idx) :
    (dot_S10000x128_S2x128_S10000x2_1_1_0_0_n_n.rhsIdx i q 1).val = (q ⟨0, by decide⟩).val :=
  dot_S10000x128_S2x128_S10000x2_1_1_0_0_n_n.rhsIdx_val_of_single rfl i q
/-- A block of hidden rows against the two rows of the output projection: entry (p, q) is the sum over k of h (p, k) · W (q, k). -/
theorem block_mul_two_rows (A : FVec Ideal S10000x128 .f32) (B : FVec Ideal S2x128 .f32) (p : Fin 10000) (q : Fin 2) :
    matmul dot_S10000x128_S2x128_S10000x2_1_1_0_0_n_n none A B (constant S10000x2 .f32 0x00000000#32) (ix2 p q)
      = ∑ k : Fin 128, A (ix2 p k) * B (ix2 q k) := by
  simp only [matmul]
  rw [Ideal.matmul_constant_zero_apply, ← Equiv.sum_comp (contrEquiv1 dot_S10000x128_S2x128_S10000x2_1_1_0_0_n_n 128 rfl rfl).symm]
  refine Finset.sum_congr rfl fun k _ => ?_
  have hk := contrEquiv1_symm_val dot_S10000x128_S2x128_S10000x2_1_1_0_0_n_n 128 rfl rfl k
  have el : dot_S10000x128_S2x128_S10000x2_1_1_0_0_n_n.lhsIdx (ix2 p q) ((contrEquiv1 dot_S10000x128_S2x128_S10000x2_1_1_0_0_n_n 128 rfl rfl).symm k) = ix2 p k := funext fun a => Fin.ext (by
    match a with
    | ⟨0, _⟩ => exact proj_lhs0 _ _
    | ⟨1, _⟩ => exact (proj_lhs1 _ _).trans hk)
  have er : dot_S10000x128_S2x128_S10000x2_1_1_0_0_n_n.rhsIdx (ix2 p q) ((contrEquiv1 dot_S10000x128_S2x128_S10000x2_1_1_0_0_n_n 128 rfl rfl).symm k) = ix2 q k := funext fun a => Fin.ext (by
    match a with
    | ⟨0, _⟩ => exact proj_rhs0 _ _
    | ⟨1, _⟩ => exact (proj_rhs1 _ _).trans hk)
  rw [el, er]

end Cert.KernelIdeal.Products

end
-- ==== Proof.NormHead.lean ====
/-
  The mathematics both programs compute, one row of the input at a time, over the extended reals.

  A row `xr` of 128 features passes through an affine map, two affine-then-clamp-at-zero layers, and a
  normalising head: the 128 hidden values are centred at their mean, scaled by the reciprocal square root of
  their variance plus a small constant, multiplied by a gain, shifted, and projected to 2 outputs.

  `refRow` spells this as the reference does: the three maps applied in turn, the mean and the variance as
  quotients by the width `d`.  `kerRow` spells it as the kernel does: the first two maps folded into one
  (weights `Wg1 · Win`, shift `bin · Wg1ᵀ + bg1`), and the head through the row sums `s1 = ∑ h` and
  `s2 = ∑ h²`, using `d·s2 − s1² = d² · variance`, so that the reciprocal square root is taken of
  `d·s2 − (s1² − C)` with `C = d²·ε`, and the gain is pre-multiplied by `d`.
-/
import Idealize.ShloMosaic.PureOps.Ideal

noncomputable section

namespace Cert.NormHead

open Idealize.ShloMosaic

/-- An affine map of a row: `(∑ i, h i · W k i) + b k`. -/
def affine (W : Fin 128 → Fin 128 → EReal) (b : Fin 128 → EReal) (h : Fin 128 → EReal) (k : Fin 128) : EReal :=
  (∑ i, h i * W k i) + b k

/-- An affine map followed by the clamp at zero. -/
def layer (W : Fin 128 → Fin 128 → EReal) (b : Fin 128 → EReal) (h : Fin 128 → EReal) (j : Fin 128) : EReal :=
  max (affine W b h j) 0

/-- The folded weights of the first two maps: `(Wg1 · Win) j i = ∑ k, Wg1 j k · Win k i`. -/
def foldW (Wg1 Win : Fin 128 → Fin 128 → EReal) (j i : Fin 128) : EReal :=
  ∑ k, Wg1 j k * Win k i

/-- The folded shift of the first two maps: `(∑ k, bin k · Wg1 j k) + bg1 j`. -/
def foldB (Wg1 : Fin 128 → Fin 128 → EReal) (bin bg1 : Fin 128 → EReal) (j : Fin 128) : EReal :=
  (∑ k, bin k * Wg1 j k) + bg1 j

/-- The normalising head as the reference spells it, on hidden values `h`. -/
def refHead (d ε : EReal) (gam bet : Fin 128 → EReal) (Wout : Fin 2 → Fin 128 → EReal) (bout : Fin 2 → EReal)
    (h : Fin 128 → EReal) (c : Fin 2) : EReal :=
  let mu : EReal := Ideal.div (∑ j, h j) d
  let var : EReal := Ideal.div (∑ j, (h j - mu) * (h j - mu)) d
  let r : EReal := Ideal.rsqrt (var + ε)
  (∑ j, (((h j - mu) * r) * gam j + bet j) * Wout c j) + bout c

/-- The normalising head as the kernel spells it, on hidden values `h`. -/
def kerHead (d C : EReal) (gam bet : Fin 128 → EReal) (Wout : Fin 2 → Fin 128 → EReal) (bout : Fin 2 → EReal)
    (h : Fin 128 → EReal) (c : Fin 2) : EReal :=
  let s1 : EReal := ∑ j, h j
  let s2 : EReal := ∑ j, h j * h j
  ((∑ j, h j * (Wout c j * (d * gam j))) - s1 * (∑ j, Wout c j * gam j)) * Ideal.rsqrt (d * s2 - (s1 * s1 - C))
    + ((∑ j, bet j * Wout c j) + bout c)

/-- One row of the reference. -/
def refRow (d ε : EReal) (Win Wg1 Wg2 : Fin 128 → Fin 128 → EReal) (bin bg1 bg2 gam bet : Fin 128 → EReal)
    (Wout : Fin 2 → Fin 128 → EReal) (bout : Fin 2 → EReal) (xr : Fin 128 → EReal) : Fin 2 → EReal :=
  refHead d ε gam bet Wout bout (layer Wg2 bg2 (layer Wg1 bg1 (affine Win bin xr)))

/-- One row of the kernel. -/
def kerRow (d C : EReal) (Win Wg1 Wg2 : Fin 128 → Fin 128 → EReal) (bin bg1 bg2 gam bet : Fin 128 → EReal)
    (Wout : Fin 2 → Fin 128 → EReal) (bout : Fin 2 → EReal) (xr : Fin 128 → EReal) : Fin 2 → EReal :=
  kerHead d C gam bet Wout bout (layer Wg2 bg2 (layer (foldW Wg1 Win) (foldB Wg1 bin bg1) xr))

end Cert.NormHead

end
-- ==== Proof.Payload.lean ====
/-
  The kernel body's arithmetic read at one output entry.

  The body first folds the weights (the product of the two weight matrices, the folded shift, the gain
  pre-multiplied by the width, the gain-weighted row sums of the projection, the projected shift), then
  pushes a block of input rows through two affine-then-clamp layers, takes each hidden row's sum and sum
  of squares, and assembles the output.  Every step is read at an index: a matrix product with a zero
  accumulator is a sum of products, a row broadcast reads the row, a column broadcast reads the column,
  a lane reduction is the sum over the lane.  Put together, entry (p, c) of the block is `kerRow` of row
  `p` of the input block.
-/
import proofs.«120503_g6854767805213_cont_sun_m_581_17_alg».proof.Proof.Gen.KernelIdeal.Skeleton
import proofs.«120503_g6854767805213_cont_sun_m_581_17_alg».proof.Proof.Products
import proofs.«120503_g6854767805213_cont_sun_m_581_17_alg».proof.Proof.NormHead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.KernelIdeal.Products Cert.NormHead
open Idealize.ShloMosaic Idealize.ShloMosaic.ValueIdx Idealize.ShloMosaic.Pipeline

/-! ## Layout steps read at an index -/

/-- A vector set as a column: entry (p, u) is entry p, whatever the unit coordinate. -/
theorem col_of_vec_apply {a : ℕ} {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column repeated along the rows: entry (p, c) is the column's entry p. -/
theorem col_bcast_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a block's row. -/
theorem row_sum_apply (H : FVec Ideal S10000x128 .f32) (hacc : (0x00000000#32 : BitVec 32) = 0x00000000#32) (p : Fin 10000) :
    multiReduction (F := Ideal) .add [1] S10000 H 0x00000000#32 reduces_S10000x128_S10000 (.inl rfl) hacc (ix1 p) = ∑ k : Fin 128, H (ix2 p k) := by
  refine (Ideal.multiReduction_add_single H 0x00000000#32 reduces_S10000x128_S10000 (.inl rfl) hacc (ix1 p)).trans ?_
  refine Finset.sum_congr rfl fun k _ => congrArg H ?_
  funext a; apply Fin.ext
  match a with
  | ⟨0, _⟩ => rfl
  | ⟨1, _⟩ => rfl

/-- The sum over the 128 lanes of one of the projection's two rows. -/
theorem two_row_sum_apply (H : FVec Ideal S2x128 .f32) (hacc : (0x00000000#32 : BitVec 32) = 0x00000000#32) (c : Fin 2) :
    multiReduction (F := Ideal) .add [1] S2 H 0x00000000#32 reduces_S2x128_S2 (.inl rfl) hacc (ix1 c) = ∑ k : Fin 128, H (ix2 c k) := by
  refine (Ideal.multiReduction_add_single H 0x00000000#32 reduces_S2x128_S2 (.inl rfl) hacc (ix1 c)).trans ?_
  refine Finset.sum_congr rfl fun k _ => congrArg H ?_
  funext a; apply Fin.ext
  match a with
  | ⟨0, _⟩ => rfl
  | ⟨1, _⟩ => rfl

/-! ## The folded weights -/

/-- The product of the two weight matrices. -/
theorem foldW_at (x3 x1 : FVec Ideal S128x128 .f32) (j i : Fin 128) :
    k0_pay2 (F := Ideal) x3 x1 (ix2 j i) = foldW (fun a b => x3 (ix2 a b)) (fun a b => x1 (ix2 a b)) j i :=
  weights_mul_weights x3 x1 j i

/-- The folded shift. -/
theorem foldB_at (x2 : FVec Ideal S1x128 .f32) (x3 : FVec Ideal S128x128 .f32) (x4 : FVec Ideal S1x128 .f32) (j : Fin 128) :
    k0_pay3 (F := Ideal) x2 x3 x4 (ix2 (0 : Fin 1) j) = foldB (fun a b => x3 (ix2 a b)) (fun k => x2 (ix2 (0 : Fin 1) k)) (fun k => x4 (ix2 (0 : Fin 1) k)) j := by
  show matmul (F := Ideal) dot_S1x128_S128x128_S1x128_1_1_0_0_n_n none (shapeCast S1x128 x2 shapeCasts_S1x128_S1x128) x3 (constant (F := Ideal) S1x128 .f32 0x00000000#32) (ix2 (0 : Fin 1) j)
      + shapeCast S1x128 x4 shapeCasts_S1x128_S1x128 (ix2 (0 : Fin 1) j) = _
  rw [shapeCast_self, shapeCast_self, row_mul_rows]
  rfl

/-- The projection with the gain pre-multiplied by the width. -/
theorem gainW_at (x9 : FVec Ideal S2x128 .f32) (x7 : FVec Ideal S1x128 .f32) (c : Fin 2) (j : Fin 128) :
    k0_pay4 (F := Ideal) x9 x7 (ix2 c j) = x9 (ix2 c j) * (Ideal.ofBits .f32 0x43000000#32 * x7 (ix2 (0 : Fin 1) j)) := by
  show x9 (ix2 c j) * broadcastTo S2x128 (mulf (F := Ideal) (broadcast S1x128 (Scalar.ofBits (F := Ideal) .f32 0x43000000#32)) (shapeCast S1x128 x7 shapeCasts_S1x128_S1x128)) broadcasts_S1x128_S2x128 (ix2 c j) = _
  rw [broadcastTo_1b_ab_apply, shapeCast_self]
  rfl

/-- The gain-weighted sums of the projection's rows. -/
theorem gainSum_at (x9 : FVec Ideal S2x128 .f32) (x7 : FVec Ideal S1x128 .f32) (c : Fin 2) :
    k0_pay5 (F := Ideal) x9 x7 (ix2 (0 : Fin 1) c) = ∑ j : Fin 128, x9 (ix2 c j) * x7 (ix2 (0 : Fin 1) j) := by
  show shapeCast S1x2 (multiReduction (F := Ideal) .add [1] S2 (mulf (F := Ideal) x9 (broadcastTo S2x128 (shapeCast S1x128 x7 shapeCasts_S1x128_S1x128) broadcasts_S1x128_S2x128)) 0x00000000#32 reduces_S2x128_S2 (.inl rfl) rfl) shapeCasts_S2_S1x2 (ix2 (0 : Fin 1) c) = _
  rw [shapeCast_a_1a_apply, two_row_sum_apply]
  refine Finset.sum_congr rfl fun j _ => ?_
  show x9 (ix2 c j) * broadcastTo S2x128 (shapeCast S1x128 x7 shapeCasts_S1x128_S1x128) broadcasts_S1x128_S2x128 (ix2 c j) = _
  rw [broadcastTo_1b_ab_apply, shapeCast_self]

/-- The projected shift. -/
theorem shiftP_at (x8 : FVec Ideal S1x128 .f32) (x9 : FVec Ideal S2x128 .f32) (c : Fin 2) :
    k0_pay6 (F := Ideal) x8 x9 (ix2 (0 : Fin 1) c) = ∑ j : Fin 128, x8 (ix2 (0 : Fin 1) j) * x9 (ix2 c j) := by
  show matmul (F := Ideal) dot_S1x128_S2x128_S1x2_1_1_0_0_n_n none (shapeCast S1x128 x8 shapeCasts_S1x128_S1x128) x9 (constant (F := Ideal) S1x2 .f32 0x00000000#32) (ix2 (0 : Fin 1) c) = _
  rw [shapeCast_self, row_mul_two_rows]

/-- The output shift passes through unchanged. -/
theorem outShift_eq (x10 : FVec Ideal S1x2 .f32) : k0_pay7 (F := Ideal) x10 = x10 := shapeCast_self x10 _

/-! ## The two layers on a block of rows -/

/-- One affine-then-clamp layer on a block of rows, read at an entry. -/
theorem layer_at (A : FVec Ideal S10000x128 .f32) (W : FVec Ideal S128x128 .f32) (b : FVec Ideal S1x128 .f32) (p : Fin 10000) (q : Fin 128) :
    maximumf (F := Ideal) (addf (F := Ideal) (matmul (F := Ideal) dot_S10000x128_S128x128_S10000x128_1_1_0_0_n_n none A W (constant (F := Ideal) S10000x128 .f32 0x00000000#32))
        (broadcastTo S10000x128 b broadcasts_S1x128_S10000x128)) (broadcast S10000x128 (Scalar.ofBits (F := Ideal) .f32 0x00000000#32)) (ix2 p q)
      = layer (fun a c => W (ix2 a c)) (fun k => b (ix2 (0 : Fin 1) k)) (fun i => A (ix2 p i)) q := by
  show max (matmul (F := Ideal) dot_S10000x128_S128x128_S10000x128_1_1_0_0_n_n none A W (constant (F := Ideal) S10000x128 .f32 0x00000000#32) (ix2 p q)
      + broadcastTo S10000x128 b broadcasts_S1x128_S10000x128 (ix2 p q)) (Ideal.ofBits .f32 0x00000000#32) = _
  rw [block_mul_rows, broadcastTo_1b_ab_apply, Ideal.ofBits_zero_f32]
  rfl

/-! ## The head, as a function of the hidden rows -/

/-- The body's last lines over a block `H` of hidden rows: the row sums, the reciprocal square root, the
    projection, and the assembly. -/
def normTail (H : FVec Ideal S10000x128 .f32) (v16 : FVec Ideal S2x128 .f32) (v23 v27 v29 : FVec Ideal S1x2 .f32) : FVec Ideal S10000x2 .f32 :=
  have v30 : FVec Ideal S1x2 .f32 := addf v27 v29
  have v45 : FVec Ideal S10000 .f32 := multiReduction .add [1] S10000 H 0x00000000#32 reduces_S10000x128_S10000 (.inl rfl) rfl
  have v46 : FVec Ideal S10000x1 .f32 := shapeCast S10000x1 v45 shapeCasts_S10000_S10000x1
  have v47 : FVec Ideal S10000x128 .f32 := mulf H H
  have v48 : FVec Ideal S10000 .f32 := multiReduction .add [1] S10000 v47 0x00000000#32 reduces_S10000x128_S10000 (.inl rfl) rfl
  have v49 : FVec Ideal S10000x1 .f32 := shapeCast S10000x1 v48 shapeCasts_S10000_S10000x1
  have cst_39 : Ideal .f32 := Scalar.ofBits .f32 0x43000000#32
  have v50 : FVec Ideal S10000x1 .f32 := broadcast S10000x1 cst_39
  have v51 : FVec Ideal S10000x1 .f32 := mulf v50 v49
  have v52 : FVec Ideal S10000x1 .f32 := mulf v46 v46
  have cst_40 : Ideal .f32 := Scalar.ofBits .f32 0x3E27C5AC#32
  have v53 : FVec Ideal S10000x1 .f32 := broadcast S10000x1 cst_40
  have v54 : FVec Ideal S10000x1 .f32 := subf v52 v53
  have v55 : FVec Ideal S10000x1 .f32 := subf v51 v54
  have v56 : FVec Ideal S10000x1 .f32 := rsqrt v55
  have cst_41 : FVec Ideal S10000x2 .f32 := constant S10000x2 .f32 0x00000000#32
  have v57 : FVec Ideal S10000x2 .f32 := matmul dot_S10000x128_S2x128_S10000x2_1_1_0_0_n_n none H v16 cst_41
  have v58 : FVec Ideal S10000x2 .f32 := broadcastTo S10000x2 v46 broadcasts_S10000x1_S10000x2
  have v59 : FVec Ideal S10000x2 .f32 := broadcastTo S10000x2 v23 broadcasts_S1x2_S10000x2
  have v60 : FVec Ideal S10000x2 .f32 := mulf v58 v59
  have v61 : FVec Ideal S10000x2 .f32 := subf v57 v60
  have v62 : FVec Ideal S10000x2 .f32 := broadcastTo S10000x2 v56 broadcasts_S10000x1_S10000x2
  have v63 : FVec Ideal S10000x2 .f32 := mulf v61 v62
  have v64 : FVec Ideal S10000x2 .f32 := broadcastTo S10000x2 v30 broadcasts_S1x2_S10000x2
  have v65 : FVec Ideal S10000x2 .f32 := addf v63 v64
  v65

/-- Entry (p, c) of the head is `kerHead` of hidden row p, with the folded quantities read where they sit. -/
theorem normTail_at (H : FVec Ideal S10000x128 .f32) (v16 : FVec Ideal S2x128 .f32) (v23 v27 v29 : FVec Ideal S1x2 .f32) (p : Fin 10000) (c : Fin 2) :
    normTail H v16 v23 v27 v29 (ix2 p c)
      = ((∑ j : Fin 128, H (ix2 p j) * v16 (ix2 c j)) - (∑ j : Fin 128, H (ix2 p j)) * v23 (ix2 (0 : Fin 1) c))
          * Ideal.rsqrt (Ideal.ofBits .f32 0x43000000#32 * (∑ j : Fin 128, H (ix2 p j) * H (ix2 p j))
              - ((∑ j : Fin 128, H (ix2 p j)) * (∑ j : Fin 128, H (ix2 p j)) - Ideal.ofBits .f32 0x3E27C5AC#32))
        + (v27 (ix2 (0 : Fin 1) c) + v29 (ix2 (0 : Fin 1) c)) := by
  have hs1 : ∀ u : Fin 1, shapeCast S10000x1 (multiReduction (F := Ideal) .add [1] S10000 H 0x00000000#32 reduces_S10000x128_S10000 (.inl rfl) rfl) shapeCasts_S10000_S10000x1 (ix2 p u)
      = ∑ j : Fin 128, H (ix2 p j) := fun u => by rw [col_of_vec_apply, row_sum_apply]
  have hs2 : ∀ u : Fin 1, shapeCast S10000x1 (multiReduction (F := Ideal) .add [1] S10000 (mulf (F := Ideal) H H) 0x00000000#32 reduces_S10000x128_S10000 (.inl rfl) rfl) shapeCasts_S10000_S10000x1 (ix2 p u)
      = ∑ j : Fin 128, H (ix2 p j) * H (ix2 p j) := fun u => by rw [col_of_vec_apply, row_sum_apply]; rfl
  unfold normTail
  show (matmul (F := Ideal) dot_S10000x128_S2x128_S10000x2_1_1_0_0_n_n none H v16 (constant (F := Ideal) S10000x2 .f32 0x00000000#32) (ix2 p c)
        - broadcastTo S10000x2 (shapeCast S10000x1 (multiReduction (F := Ideal) .add [1] S10000 H 0x00000000#32 reduces_S10000x128_S10000 (.inl rfl) rfl) shapeCasts_S10000_S10000x1) broadcasts_S10000x1_S10000x2 (ix2 p c)
          * broadcastTo S10000x2 v23 broadcasts_S1x2_S10000x2 (ix2 p c))
      * broadcastTo S10000x2 (rsqrt (F := Ideal) (subf (F := Ideal) (mulf (F := Ideal) (broadcast S10000x1 (Scalar.ofBits (F := Ideal) .f32 0x43000000#32)) (shapeCast S10000x1 (multiReduction (F := Ideal) .add [1] S10000 (mulf (F := Ideal) H H) 0x00000000#32 reduces_S10000x128_S10000 (.inl rfl) rfl) shapeCasts_S10000_S10000x1))
          (subf (F := Ideal) (mulf (F := Ideal) (shapeCast S10000x1 (multiReduction (F := Ideal) .add [1] S10000 H 0x00000000#32 reduces_S10000x128_S10000 (.inl rfl) rfl) shapeCasts_S10000_S10000x1)
                  (shapeCast S10000x1 (multiReduction (F := Ideal) .add [1] S10000 H 0x00000000#32 reduces_S10000x128_S10000 (.inl rfl) rfl) shapeCasts_S10000_S10000x1))
                (broadcast S10000x1 (Scalar.ofBits (F := Ideal) .f32 0x3E27C5AC#32))))) broadcasts_S10000x1_S10000x2 (ix2 p c)
      + broadcastTo S10000x2 (addf (F := Ideal) v27 v29) broadcasts_S1x2_S10000x2 (ix2 p c) = _
  rw [block_mul_two_rows, col_bcast_apply, col_bcast_apply, broadcastTo_1b_ab_apply, broadcastTo_1b_ab_apply, hs1]
  show _ * Ideal.rsqrt (Ideal.ofBits .f32 0x43000000#32 * shapeCast S10000x1 (multiReduction (F := Ideal) .add [1] S10000 (mulf (F := Ideal) H H) 0x00000000#32 reduces_S10000x128_S10000 (.inl rfl) rfl) shapeCasts_S10000_S10000x1 (ix2 p (0 : Fin 1))
      - (shapeCast S10000x1 (multiReduction (F := Ideal) .add [1] S10000 H 0x00000000#32 reduces_S10000x128_S10000 (.inl rfl) rfl) shapeCasts_S10000_S10000x1 (ix2 p (0 : Fin 1))
          * shapeCast S10000x1 (multiReduction (F := Ideal) .add [1] S10000 H 0x00000000#32 reduces_S10000x128_S10000 (.inl rfl) rfl) shapeCasts_S10000_S10000x1 (ix2 p (0 : Fin 1))
          - Ideal.ofBits .f32 0x3E27C5AC#32)) + _ = _
  rw [hs1, hs2]
  rfl

/-! ## The hidden rows, and the body put together -/

/-- The body's middle lines: a block of input rows through the two affine-then-clamp layers. -/
def hidden (v2 : FVec Ideal S128x128 .f32) (v9 : FVec Ideal S1x128 .f32) (v31 : FVec Ideal S10000x128 .f32) (v37 : FVec Ideal S128x128 .f32)
    (v39 : FVec Ideal S1x128 .f32) : FVec Ideal S10000x128 .f32 :=
  have cst_29 : FVec Ideal S10000x128 .f32 := constant S10000x128 .f32 0x00000000#32
  have v32 : FVec Ideal S10000x128 .f32 := matmul dot_S10000x128_S128x128_S10000x128_1_1_0_0_n_n none v31 v2 cst_29
  have v33 : FVec Ideal S10000x128 .f32 := broadcastTo S10000x128 v9 broadcasts_S1x128_S10000x128
  have v34 : FVec Ideal S10000x128 .f32 := addf v32 v33
  have cst_30 : Ideal .f32 := Scalar.ofBits .f32 0x00000000#32
  have v35 : FVec Ideal S10000x128 .f32 := broadcast S10000x128 cst_30
  have v36 : FVec Ideal S10000x128 .f32 := maximumf v34 v35
  have cst_33 : FVec Ideal S10000x128 .f32 := constant S10000x128 .f32 0x00000000#32
  have v38 : FVec Ideal S10000x128 .f32 := matmul dot_S10000x128_S128x128_S10000x128_1_1_0_0_n_n none v36 v37 cst_33
  have v40 : FVec Ideal S1x128 .f32 := shapeCast S1x128 v39 shapeCasts_S1x128_S1x128
  have v41 : FVec Ideal S10000x128 .f32 := broadcastTo S10000x128 v40 broadcasts_S1x128_S10000x128
  have v42 : FVec Ideal S10000x128 .f32 := addf v38 v41
  have cst_36 : Ideal .f32 := Scalar.ofBits .f32 0x00000000#32
  have v43 : FVec Ideal S10000x128 .f32 := broadcast S10000x128 cst_36
  have v44 : FVec Ideal S10000x128 .f32 := maximumf v42 v43
  v44

/-- The payload is the head applied to the hidden rows. -/
theorem pay1_split (v2 : FVec Ideal S128x128 .f32) (v9 : FVec Ideal S1x128 .f32) (v16 : FVec Ideal S2x128 .f32) (v23 v27 v29 : FVec Ideal S1x2 .f32)
    (v31 : FVec Ideal S10000x128 .f32) (v37 : FVec Ideal S128x128 .f32) (v39 : FVec Ideal S1x128 .f32) :
    k0_pay1 (F := Ideal) v2 v9 v16 v23 v27 v29 v31 v37 v39 = normTail (hidden v2 v9 v31 v37 v39) v16 v23 v27 v29 := rfl

/-- Entry (p, q) of the hidden rows: the second layer of the first layer of input row p. -/
theorem hidden_at (v2 : FVec Ideal S128x128 .f32) (v9 : FVec Ideal S1x128 .f32) (v31 : FVec Ideal S10000x128 .f32) (v37 : FVec Ideal S128x128 .f32)
    (v39 : FVec Ideal S1x128 .f32) (p : Fin 10000) (q : Fin 128) :
    hidden v2 v9 v31 v37 v39 (ix2 p q)
      = layer (fun a c => v37 (ix2 a c)) (fun k => v39 (ix2 (0 : Fin 1) k))
          (layer (fun a c => v2 (ix2 a c)) (fun k => v9 (ix2 (0 : Fin 1) k)) (fun i => v31 (ix2 p i))) q := by
  unfold hidden
  refine (layer_at _ v37 (shapeCast S1x128 v39 shapeCasts_S1x128_S1x128) p q).trans ?_
  rw [shapeCast_self]
  refine congrArg (fun h => layer (fun a c => v37 (ix2 a c)) (fun k => v39 (ix2 (0 : Fin 1) k)) h q) (funext fun i => ?_)
  exact layer_at v31 v2 v9 p i

/-- Entry (p, c) of the body's result over the loaded blocks is `kerRow` of input row p. -/
theorem body_at (x0 : FVec Ideal S10000x128 .f32) (x1 x3 x5 : FVec Ideal S128x128 .f32) (x2 x4 x6 x7 x8 : FVec Ideal S1x128 .f32)
    (x9 : FVec Ideal S2x128 .f32) (x10 : FVec Ideal S1x2 .f32) (p : Fin 10000) (c : Fin 2) :
    k0_pay1 (F := Ideal) (k0_pay2 (F := Ideal) x3 x1) (k0_pay3 (F := Ideal) x2 x3 x4) (k0_pay4 (F := Ideal) x9 x7) (k0_pay5 (F := Ideal) x9 x7)
        (k0_pay6 (F := Ideal) x8 x9) (k0_pay7 (F := Ideal) x10) x0 x5 x6 (ix2 p c)
      = kerRow (Ideal.ofBits .f32 0x43000000#32) (Ideal.ofBits .f32 0x3E27C5AC#32)
          (fun a b => x1 (ix2 a b)) (fun a b => x3 (ix2 a b)) (fun a b => x5 (ix2 a b))
          (fun k => x2 (ix2 (0 : Fin 1) k)) (fun k => x4 (ix2 (0 : Fin 1) k)) (fun k => x6 (ix2 (0 : Fin 1) k))
          (fun k => x7 (ix2 (0 : Fin 1) k)) (fun k => x8 (ix2 (0 : Fin 1) k))
          (fun a b => x9 (ix2 a b)) (fun k => x10 (ix2 (0 : Fin 1) k)) (fun i => x0 (ix2 p i)) c := by
  rw [pay1_split, normTail_at]
  simp only [hidden_at, foldW_at, foldB_at, gainW_at, gainSum_at, shiftP_at, outShift_eq]
  rfl

end Cert.KernelIdeal.Payload

end
-- ==== Proof.Blocks.lean ====
/-
  The kernel's windows over the ten grid points.  Point t stages rows 10000·t … 10000·t + 9999 of the
  input and writes back the same rows of the result; every other operand is staged whole at every point,
  and the bias-like operands reach the kernel as 1 × n reshapes of the arguments.  `kerOut` is the result
  array the kernel should end with: row by row, `kerRow` of the input's row.
-/
import proofs.«120503_g6854767805213_cont_sun_m_581_17_alg».proof.Proof.Gen.KernelIdeal.Value
import proofs.«120503_g6854767805213_cont_sun_m_581_17_alg».proof.Proof.Payload
import Idealize.ShloMosaic.Lib.StableHlo.Run
import Idealize.ShloMosaic.Lib.ValueLayout

noncomputable section

namespace Cert.KernelIdeal.Blocks

open Cert.KernelIdeal Cert.KernelIdeal.Gen Cert.KernelIdeal.Payload Cert.NormHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The kernel's index maps over the ten grid points: the input's and the result's windows move together
    along the rows and sit at column block 0; every other window sits at block (0, 0). -/
theorem idx_facts : ∀ t : Fin cfg0.N, win0_0.index t (0 : Fin 2) = win0_11.index t (0 : Fin 2)
    ∧ win0_0.index t (1 : Fin 2) = 0
    ∧ win0_11.index t (1 : Fin 2) = 0
    ∧ win0_11.index t (0 : Fin 2) ≤ 9
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Every row block 0 … 9 is some point's. -/
theorem idx_onto : ∀ q0 : Fin 10, ∃ t : Fin cfg0.N, win0_11.index t (0 : Fin 2) = q0.val :=
  (by decide +kernel : ∀ q0 : Fin 10, ∃ t : Fin grid0.N, win0_11.index t (0 : Fin 2) = q0.val)

/-- Window 1 stages its whole array at every point: a block entry is the array's entry. -/
theorem read1 (c : Dev nD) (t : Fin cfg0.N) (y : S128x128.Idx) : iblk m c 1 t y = V m c main_arg1 y := by
  obtain ⟨f0, f1, f2, f3, f4, f5, f6, f7, f8, f9, f10, f11, f12, f13, f14, f15, f16, f17, f18, f19, f20, f21, f22, f23⟩ := idx_facts t
  show V m c main_arg1 (((cfg0.win 1).blk t).view.emb y) = V m c main_arg1 y
  refine congrArg (V m c main_arg1) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2 stages its whole array at every point: a block entry is the array's entry. -/
theorem read2 (c : Dev nD) (t : Fin cfg0.N) (y : S1x128.Idx) : iblk m c 2 t y = V m c main_v0 y := by
  obtain ⟨f0, f1, f2, f3, f4, f5, f6, f7, f8, f9, f10, f11, f12, f13, f14, f15, f16, f17, f18, f19, f20, f21, f22, f23⟩ := idx_facts t
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3 stages its whole array at every point: a block entry is the array's entry. -/
theorem read3 (c : Dev nD) (t : Fin cfg0.N) (y : S128x128.Idx) : iblk m c 3 t y = V m c main_arg3 y := by
  obtain ⟨f0, f1, f2, f3, f4, f5, f6, f7, f8, f9, f10, f11, f12, f13, f14, f15, f16, f17, f18, f19, f20, f21, f22, f23⟩ := idx_facts t
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stages its whole array at every point: a block entry is the array's entry. -/
theorem read4 (c : Dev nD) (t : Fin cfg0.N) (y : S1x128.Idx) : iblk m c 4 t y = V m c main_v1 y := by
  obtain ⟨f0, f1, f2, f3, f4, f5, f6, f7, f8, f9, f10, f11, f12, f13, f14, f15, f16, f17, f18, f19, f20, f21, f22, f23⟩ := idx_facts t
  show V m c main_v1 (((cfg0.win 4).blk t).view.emb y) = V m c main_v1 y
  refine congrArg (V m c main_v1) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 stages its whole array at every point: a block entry is the array's entry. -/
theorem read5 (c : Dev nD) (t : Fin cfg0.N) (y : S128x128.Idx) : iblk m c 5 t y = V m c main_arg5 y := by
  obtain ⟨f0, f1, f2, f3, f4, f5, f6, f7, f8, f9, f10, f11, f12, f13, f14, f15, f16, f17, f18, f19, f20, f21, f22, f23⟩ := idx_facts t
  show V m c main_arg5 (((cfg0.win 5).blk t).view.emb y) = V m c main_arg5 y
  refine congrArg (V m c main_arg5) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 stages its whole array at every point: a block entry is the array's entry. -/
theorem read6 (c : Dev nD) (t : Fin cfg0.N) (y : S1x128.Idx) : iblk m c 6 t y = V m c main_v2 y := by
  obtain ⟨f0, f1, f2, f3, f4, f5, f6, f7, f8, f9, f10, f11, f12, f13, f14, f15, f16, f17, f18, f19, f20, f21, f22, f23⟩ := idx_facts t
  show V m c main_v2 (((cfg0.win 6).blk t).view.emb y) = V m c main_v2 y
  refine congrArg (V m c main_v2) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 stages its whole array at every point: a block entry is the array's entry. -/
theorem read7 (c : Dev nD) (t : Fin cfg0.N) (y : S1x128.Idx) : iblk m c 7 t y = V m c main_v3 y := by
  obtain ⟨f0, f1, f2, f3, f4, f5, f6, f7, f8, f9, f10, f11, f12, f13, f14, f15, f16, f17, f18, f19, f20, f21, f22, f23⟩ := idx_facts t
  show V m c main_v3 (((cfg0.win 7).blk t).view.emb y) = V m c main_v3 y
  refine congrArg (V m c main_v3) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8 stages its whole array at every point: a block entry is the array's entry. -/
theorem read8 (c : Dev nD) (t : Fin cfg0.N) (y : S1x128.Idx) : iblk m c 8 t y = V m c main_v4 y := by
  obtain ⟨f0, f1, f2, f3, f4, f5, f6, f7, f8, f9, f10, f11, f12, f13, f14, f15, f16, f17, f18, f19, f20, f21, f22, f23⟩ := idx_facts t
  show V m c main_v4 (((cfg0.win 8).blk t).view.emb y) = V m c main_v4 y
  refine congrArg (V m c main_v4) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9 stages its whole array at every point: a block entry is the array's entry. -/
theorem read9 (c : Dev nD) (t : Fin cfg0.N) (y : S2x128.Idx) : iblk m c 9 t y = V m c main_arg9 y := by
  obtain ⟨f0, f1, f2, f3, f4, f5, f6, f7, f8, f9, f10, f11, f12, f13, f14, f15, f16, f17, f18, f19, f20, f21, f22, f23⟩ := idx_facts t
  show V m c main_arg9 (((cfg0.win 9).blk t).view.emb y) = V m c main_arg9 y
  refine congrArg (V m c main_arg9) (funext fun a => Fin.ext ?_)
  match a with
  | ⟨0, _⟩ => show win0_9.index t (0 : Fin 2) * 2 + 1 * (y 0).val = (y 0).val; omega
  | ⟨1, _⟩ => show win0_9.index t (1 : Fin 2) * 128 + 1 * (y 1).val = (y 1).val; omega

/-- Window 10 stages its whole array at every point: a block entry is the array's entry. -/
theorem read10 (c : Dev nD) (t : Fin cfg0.N) (y : S1x2.Idx) : iblk m c 10 t y = V m c main_v5 y := by
  obtain ⟨f0, f1, f2, f3, f4, f5, f6, f7, f8, f9, f10, f11, f12, f13, f14, f15, f16, f17, f18, f19, f20, f21, f22, f23⟩ := idx_facts t
  show V m c main_v5 (((cfg0.win 10).blk t).view.emb y) = V m c main_v5 y
  refine congrArg (V m c main_v5) (funext fun a => Fin.ext ?_)
  match a with
  | ⟨0, _⟩ => show win0_10.index t (0 : Fin 2) * 1 + 1 * (y 0).val = (y 0).val; omega
  | ⟨1, _⟩ => show win0_10.index t (1 : Fin 2) * 2 + 1 * (y 1).val = (y 1).val; omega

/-- Row p of point t's block is row 10000 · (the block's index) + p of the array. -/
def rowOf (t : Fin cfg0.N) (p : Fin 10000) : Fin 100000 :=
  ⟨win0_11.index t (0 : Fin 2) * 10000 + p.val, by
    have h := (idx_facts t).2.2.2.1; have := p.isLt; omega⟩

/-- The input's block at point t holds the array's rows `rowOf t ·`. -/
theorem read0 (c : Dev nD) (t : Fin cfg0.N) (p : Fin 10000) (k : Fin 128) :
    iblk m c 0 t (ix2 p k) = V m c main_arg0 (ix2 (rowOf t p) k) := by
  obtain ⟨f0, f1, f2, f3, f4, f5, f6, f7, f8, f9, f10, f11, f12, f13, f14, f15, f16, f17, f18, f19, f20, f21, f22, f23⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 10000 + 1 * p.val = win0_11.index t (0 : Fin 2) * 10000 + p.val; omega
  | ⟨1, _⟩ => show win0_0.index t (1 : Fin 2) * 128 + 1 * k.val = k.val; omega

/-- The result's block at point t sits at the same rows. -/
theorem emb11 (t : Fin cfg0.N) (p : Fin 10000) (q : Fin 2) :
    ((cfg0.win 11).blk t).view.emb (ix2 p q) = ix2 (rowOf t p) q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_11.index t (0 : Fin 2) * 10000 + 1 * p.val = win0_11.index t (0 : Fin 2) * 10000 + p.val; omega
  | ⟨1, _⟩ => show win0_11.index t (1 : Fin 2) * 2 + 1 * q.val = q.val; omega

/-- The kernel's operand `main_v0` is argument 2 set as one row. -/
theorem V_main_v0 (c : Dev nD) : (V m c main_v0 : S1x128.Idx → EReal) = shapeCast S1x128 (m ((c : Thread nD τ).loc main_arg2)) shapeCasts_S128_S1x128 := by
  dsimp only [Gen.V, Gen.hostOps0]; after_results; rfl
theorem V_main_v0_at (c : Dev nD) (k : Fin 128) : V m c main_v0 (ix2 (0 : Fin 1) k) = m ((c : Thread nD τ).loc main_arg2) (ix1 k) := by
  rw [V_main_v0]; exact shapeCast_a_1a_apply _ _ 0 k

/-- The kernel's operand `main_v1` is argument 4 set as one row. -/
theorem V_main_v1 (c : Dev nD) : (V m c main_v1 : S1x128.Idx → EReal) = shapeCast S1x128 (m ((c : Thread nD τ).loc main_arg4)) shapeCasts_S128_S1x128 := by
  dsimp only [Gen.V, Gen.hostOps0]; after_results; rfl
theorem V_main_v1_at (c : Dev nD) (k : Fin 128) : V m c main_v1 (ix2 (0 : Fin 1) k) = m ((c : Thread nD τ).loc main_arg4) (ix1 k) := by
  rw [V_main_v1]; exact shapeCast_a_1a_apply _ _ 0 k

/-- The kernel's operand `main_v2` is argument 6 set as one row. -/
theorem V_main_v2 (c : Dev nD) : (V m c main_v2 : S1x128.Idx → EReal) = shapeCast S1x128 (m ((c : Thread nD τ).loc main_arg6)) shapeCasts_S128_S1x128 := by
  dsimp only [Gen.V, Gen.hostOps0]; after_results; rfl
theorem V_main_v2_at (c : Dev nD) (k : Fin 128) : V m c main_v2 (ix2 (0 : Fin 1) k) = m ((c : Thread nD τ).loc main_arg6) (ix1 k) := by
  rw [V_main_v2]; exact shapeCast_a_1a_apply _ _ 0 k

/-- The kernel's operand `main_v3` is argument 7 set as one row. -/
theorem V_main_v3 (c : Dev nD) : (V m c main_v3 : S1x128.Idx → EReal) = shapeCast S1x128 (m ((c : Thread nD τ).loc main_arg7)) shapeCasts_S128_S1x128 := by
  dsimp only [Gen.V, Gen.hostOps0]; after_results; rfl
theorem V_main_v3_at (c : Dev nD) (k : Fin 128) : V m c main_v3 (ix2 (0 : Fin 1) k) = m ((c : Thread nD τ).loc main_arg7) (ix1 k) := by
  rw [V_main_v3]; exact shapeCast_a_1a_apply _ _ 0 k

/-- The kernel's operand `main_v4` is argument 8 set as one row. -/
theorem V_main_v4 (c : Dev nD) : (V m c main_v4 : S1x128.Idx → EReal) = shapeCast S1x128 (m ((c : Thread nD τ).loc main_arg8)) shapeCasts_S128_S1x128 := by
  dsimp only [Gen.V, Gen.hostOps0]; after_results; rfl
theorem V_main_v4_at (c : Dev nD) (k : Fin 128) : V m c main_v4 (ix2 (0 : Fin 1) k) = m ((c : Thread nD τ).loc main_arg8) (ix1 k) := by
  rw [V_main_v4]; exact shapeCast_a_1a_apply _ _ 0 k

/-- The kernel's operand `main_v5` is argument 10 set as one row. -/
theorem V_main_v5 (c : Dev nD) : (V m c main_v5 : S1x2.Idx → EReal) = shapeCast S1x2 (m ((c : Thread nD τ).loc main_arg10)) shapeCasts_S2_S1x2 := by
  dsimp only [Gen.V, Gen.hostOps0]; after_results; rfl
theorem V_main_v5_at (c : Dev nD) (k : Fin 2) : V m c main_v5 (ix2 (0 : Fin 1) k) = m ((c : Thread nD τ).loc main_arg10) (ix1 k) := by
  rw [V_main_v5]; exact shapeCast_a_1a_apply _ _ 0 k

/-- The whole result array as one function of the eleven argument arrays: row by row, `kerRow`. -/
def kerOut (a0 : FVec Ideal S100000x128 .f32) (a1 : FVec Ideal S128x128 .f32) (a2 : FVec Ideal S128 .f32) (a3 : FVec Ideal S128x128 .f32) (a4 : FVec Ideal S128 .f32) (a5 : FVec Ideal S128x128 .f32) (a6 a7 a8 : FVec Ideal S128 .f32) (a9 : FVec Ideal S2x128 .f32) (a10 : FVec Ideal S2 .f32) : FVec Ideal S100000x2 .f32 :=
  fun i => kerRow (Ideal.ofBits .f32 0x43000000#32) (Ideal.ofBits .f32 0x3E27C5AC#32)
    (fun a b => a1 (ix2 a b)) (fun a b => a3 (ix2 a b)) (fun a b => a5 (ix2 a b))
    (fun k => a2 (ix1 k)) (fun k => a4 (ix1 k)) (fun k => a6 (ix1 k)) (fun k => a7 (ix1 k)) (fun k => a8 (ix1 k))
    (fun a b => a9 (ix2 a b)) (fun k => a10 (ix1 k)) (fun k => a0 (ix2 (i 0) k)) (i 1)

end Cert.KernelIdeal.Blocks

end
-- ==== Proof.Rows.lean ====
/-
  From blocks to the array: what grid point t writes back is block t of `kerOut` of the argument arrays,
  the ten blocks cover the result, so the result array ends holding `kerOut`.
-/
import proofs.«120503_g6854767805213_cont_sun_m_581_17_alg».proof.Proof.Blocks

noncomputable section

namespace Cert.KernelIdeal.Rows

open Cert.KernelIdeal Cert.KernelIdeal.Gen Cert.KernelIdeal.Payload Cert.KernelIdeal.Blocks Cert.NormHead
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)
/-- What grid point t writes back is block t of `kerOut` of the argument arrays. -/
theorem flushed_eq (c : Dev nD) (t : Fin cfg0.N) :
    (dats m 0 c).flushed 11 t = ((cfg0.win 11).blk t).view.read (Elt Ideal) (kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed11]
  unfold out0_11
  rw [View.canon_unit_zero hz]
  simp only [View.ld_unit_zero (S := S128x128) hz, View.ld_unit_zero (S := S1x128) hz, View.ld_unit_zero (S := S2x128) hz,
    View.ld_unit_zero (S := S1x2) hz, View.ld_unit_zero (S := S10000x128) hz]
  funext j
  obtain ⟨p, q, rfl⟩ : ∃ (p : Fin 10000) (q : Fin 2), j = ix2 p q := ⟨j 0, j 1, eq_ix2 j⟩
  refine (body_at (iblk m c 0 t) (iblk m c 1 t) (iblk m c 3 t) (iblk m c 5 t) (iblk m c 2 t) (iblk m c 4 t) (iblk m c 6 t) (iblk m c 7 t)
    (iblk m c 8 t) (iblk m c 9 t) (iblk m c 10 t) p q).trans ?_
  show _ = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix2 p q))
  rw [emb11]
  unfold kerOut
  have e0 : (fun i => iblk m c 0 t (ix2 p i)) = fun k => m ((c : Thread nD τ).loc main_arg0) (ix2 (rowOf t p) k) :=
    funext fun k => (read0 m c t p k).trans (congrFun (V_main_arg0 m c) _)
  have e1 : (fun a b => iblk m c 1 t (ix2 a b)) = fun a b => m ((c : Thread nD τ).loc main_arg1) (ix2 a b) :=
    funext fun a => funext fun b => (read1 m c t _).trans (congrFun (V_main_arg1 m c) _)
  have e3 : (fun a b => iblk m c 3 t (ix2 a b)) = fun a b => m ((c : Thread nD τ).loc main_arg3) (ix2 a b) :=
    funext fun a => funext fun b => (read3 m c t _).trans (congrFun (V_main_arg3 m c) _)
  have e5 : (fun a b => iblk m c 5 t (ix2 a b)) = fun a b => m ((c : Thread nD τ).loc main_arg5) (ix2 a b) :=
    funext fun a => funext fun b => (read5 m c t _).trans (congrFun (V_main_arg5 m c) _)
  have e9 : (fun a b => iblk m c 9 t (ix2 a b)) = fun a b => m ((c : Thread nD τ).loc main_arg9) (ix2 a b) :=
    funext fun a => funext fun b => (read9 m c t _).trans (congrFun (V_main_arg9 m c) _)
  have e2 : (fun k => iblk m c 2 t (ix2 (0 : Fin 1) k)) = fun k => m ((c : Thread nD τ).loc main_arg2) (ix1 k) :=
    funext fun k => (read2 m c t _).trans (V_main_v0_at m c k)
  have e4 : (fun k => iblk m c 4 t (ix2 (0 : Fin 1) k)) = fun k => m ((c : Thread nD τ).loc main_arg4) (ix1 k) :=
    funext fun k => (read4 m c t _).trans (V_main_v1_at m c k)
  have e6 : (fun k => iblk m c 6 t (ix2 (0 : Fin 1) k)) = fun k => m ((c : Thread nD τ).loc main_arg6) (ix1 k) :=
    funext fun k => (read6 m c t _).trans (V_main_v2_at m c k)
  have e7 : (fun k => iblk m c 7 t (ix2 (0 : Fin 1) k)) = fun k => m ((c : Thread nD τ).loc main_arg7) (ix1 k) :=
    funext fun k => (read7 m c t _).trans (V_main_v3_at m c k)
  have e8 : (fun k => iblk m c 8 t (ix2 (0 : Fin 1) k)) = fun k => m ((c : Thread nD τ).loc main_arg8) (ix1 k) :=
    funext fun k => (read8 m c t _).trans (V_main_v4_at m c k)
  have e10 : (fun k => iblk m c 10 t (ix2 (0 : Fin 1) k)) = fun k => m ((c : Thread nD τ).loc main_arg10) (ix1 k) :=
    funext fun k => (read10 m c t _).trans (V_main_v5_at m c k)
  rw [e0, e1, e2, e3, e4, e5, e6, e7, e8, e9, e10]

/-- An index of the result is in point t's block iff each coordinate is in the block's range on its axis. -/
theorem mem_blk (t : Fin cfg0.N) (i : S100000x2.Idx) :
    i ∈ ((cfg0.win 11).blk t).view.set ↔ ∀ a : Fin 2, win0_11.index t a * S10000x2.size a ≤ (i a).val ∧ (i a).val < win0_11.index t a * S10000x2.size a + S10000x2.size a := by
  show i ∈ ((View.whole main_v6).slice (win0_11.rect t)).set ↔ _
  rw [View.set_slice_whole, Rect.mem_set_unit]
  exact Iff.rfl

/-- The ten blocks cover the result: row r is in the block of point r / 10000. -/
theorem cover (i : S100000x2.Idx) : ∃ t : Fin cfg0.N, (cfg0.win 11).flush t = true ∧ i ∈ ((cfg0.win 11).blk t).view.set := by
  have hi0 : (i 0).val < 100000 := (i 0).isLt
  have hi1 : (i 1).val < 2 := (i 1).isLt
  obtain ⟨t, ht⟩ := idx_onto ⟨(i 0).val / 10000, by omega⟩
  have q0 : win0_11.index t (0 : Fin 2) = (i 0).val / 10000 := ht
  have q1 : win0_11.index t (1 : Fin 2) = 0 := (idx_facts t).2.2.1
  refine ⟨t, flush0_11 t, ?_⟩
  rw [mem_blk]
  intro a
  match a with
  | ⟨0, _⟩ => show win0_11.index t (0 : Fin 2) * 10000 ≤ (i 0).val ∧ (i 0).val < win0_11.index t (0 : Fin 2) * 10000 + 10000; omega
  | ⟨1, _⟩ => show win0_11.index t (1 : Fin 2) * 2 ≤ (i 1).val ∧ (i 1).val < win0_11.index t (1 : Fin 2) * 2 + 2; omega

/-- The result array after the run is `kerOut` of the argument arrays. -/
theorem final (c : Dev nD) : (dats m 0 c).arrAt 11 cfg0.N = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed_eq m c t) cover

/-- The kernel's run, read: the result at `kerOut` of the arguments, the arguments unchanged. -/
theorem run : θ_run defs (onTc (τ := τ) (main (F := Ideal))) ⟨m, fun _ => 0, ρ⟩ fun r => ∀ c : Dev nD,
      r.2.mem ((c : Thread nD τ).loc main_v6) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Rows

end
-- ==== Proof.RefRun.lean ====
/-
  The reference program's run.  @main is a straight line of host operations: its own statements, and at each call of
  an outlined function that function's statements over the call's own buffers (the second-level call inside the
  row-lookup function included).  Listed in program order the line has 197 operations, in three consecutive windows
  (86, 86 and 25) that follow the three consecutive parts @main is defined in.  Running the line on every device terminates with
  each buffer at the fold of the operations' results over the launch contents.
-/
import proofs.«120503_g6854767805213_cont_sun_m_581_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 60, the calls inlined: 86 operations. -/
abbrev ops0 : List (HloOp τ sig (Elt F)) :=
  [ unary main_arg1 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    nullary main_v5 (iotaInDim S100000 32 0),
    nullary main_v6 (iotaInDim S100000 32 0),
    unary main_arg3 main_v7 ((transpose S128x128 [1, 0] · transposes_S128x128_S128x128_1_0) : (⟨S128x128, .f32⟩ : BufTy).Contents (Elt F) → (⟨S128x128, .f32⟩ : BufTy).Contents (Elt F)),
    binary main_v4 main_v7 main_v8 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v9 (broadcastInDim S100000 ![] bcast_S_S100000 : (⟨S_, .f32⟩ : BufTy).Contents (Elt F) → (⟨S100000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v6 main_v11 (broadcastInDim S100000x1 ![0] bcast_S100000_S100000x1_0 : (⟨S100000, .i32⟩ : BufTy).Contents (Elt F) → (⟨S100000x1, .i32⟩ : BufTy).Contents (Elt F)),
    ternary main_v10 main_v11 main_v9 main_v12 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of main_cst_2 : TRef sig ⟨S_, .f32⟩) main_call0.v0 id,
    TRef.unary main_call0.v0 main_call0.v1 (broadcastInDim S100000 ![] bcast_S_S100000),
    TRef.ternary (TRef.of main_v14 : TRef sig ⟨S100000, .i1⟩) (TRef.of main_v15 : TRef sig ⟨S100000, .f32⟩) main_call0.v1 main_call0.v2 select,
    nullary main_c (constantI S_ 32 0#32),
    unary main_c main_v17 (broadcastInDim S100000 ![] bcast_S_S100000 : (⟨S_, .i32⟩ : BufTy).Contents (Elt F) → (⟨S100000, .i32⟩ : BufTy).Contents (Elt F)),
    binary main_v5 main_v17 main_v18 (cmpi .slt : (⟨S100000, .i32⟩ : BufTy).Contents (Elt F) → (⟨S100000, .i32⟩ : BufTy).Contents (Elt F) → (⟨S100000, .i1⟩ : BufTy).Contents (Elt F)),
    nullary main_c_3 (constantI S_ 32 100000#32),
    unary main_c_3 main_v19 (broadcastInDim S100000 ![] bcast_S_S100000 : (⟨S_, .i32⟩ : BufTy).Contents (Elt F) → (⟨S100000, .i32⟩ : BufTy).Contents (Elt F)),
    binary main_v5 main_v19 main_v20 (addi : (⟨S100000, .i32⟩ : BufTy).Contents (Elt F) → (⟨S100000, .i32⟩ : BufTy).Contents (Elt F) → (⟨S100000, .i32⟩ : BufTy).Contents (Elt F)),
    ternary main_v18 main_v20 main_v5 main_v21 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v21 main_v22 (broadcastInDim S100000x1 ![0] bcast_S100000_S100000x1_0 : (⟨S100000, .i32⟩ : BufTy).Contents (Elt F) → (⟨S100000x1, .i32⟩ : BufTy).Contents (Elt F)),
    binary main_v16 main_v22 main_v23 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    nullary main_c_4 (constantI S_ 32 0#32),
    unary main_c_4 main_v24 (broadcastInDim S100000 ![] bcast_S_S100000 : (⟨S_, .i32⟩ : BufTy).Contents (Elt F) → (⟨S100000, .i32⟩ : BufTy).Contents (Elt F)),
    binary main_v6 main_v24 main_v25 (cmpi .slt : (⟨S100000, .i32⟩ : BufTy).Contents (Elt F) → (⟨S100000, .i32⟩ : BufTy).Contents (Elt F) → (⟨S100000, .i1⟩ : BufTy).Contents (Elt F)),
    nullary main_c_5 (constantI S_ 32 100000#32),
    unary main_c_5 main_v26 (broadcastInDim S100000 ![] bcast_S_S100000 : (⟨S_, .i32⟩ : BufTy).Contents (Elt F) → (⟨S100000, .i32⟩ : BufTy).Contents (Elt F)),
    binary main_v6 main_v26 main_v27 (addi : (⟨S100000, .i32⟩ : BufTy).Contents (Elt F) → (⟨S100000, .i32⟩ : BufTy).Contents (Elt F) → (⟨S100000, .i32⟩ : BufTy).Contents (Elt F)),
    ternary main_v25 main_v27 main_v6 main_v28 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v28 main_v29 (broadcastInDim S100000x1 ![0] bcast_S100000_S100000x1_0 : (⟨S100000, .i32⟩ : BufTy).Contents (Elt F) → (⟨S100000x1, .i32⟩ : BufTy).Contents (Elt F)),
    binary main_v16 main_v29 main_v30 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    binary main_v23 main_v30 main_v31 (mulf : (⟨S100000, .f32⟩ : BufTy).Contents (Elt F) → (⟨S100000, .f32⟩ : BufTy).Contents (Elt F) → (⟨S100000, .f32⟩ : BufTy).Contents (Elt F)),
    unary main_v31 main_v32 (broadcastInDim S100000x1 ![0] bcast_S100000_S100000x1_0 : (⟨S100000, .f32⟩ : BufTy).Contents (Elt F) → (⟨S100000x1, .f32⟩ : BufTy).Contents (Elt F)),
    TRef.nullary main_call1.c (constantI S_ 32 0#32),
    TRef.unary main_call1.c main_call1.v0 (broadcastInDim S100000 ![] bcast_S_S100000),
    TRef.binary (TRef.of main_v5 : TRef sig ⟨S100000, .i32⟩) main_call1.v0 main_call1.v1 (cmpi .slt),
    TRef.nullary main_call1.c_0 (constantI S_ 32 100000#32),
    TRef.unary main_call1.c_0 main_call1.v2 (broadcastInDim S100000 ![] bcast_S_S100000),
    TRef.binary (TRef.of main_v5 : TRef sig ⟨S100000, .i32⟩) main_call1.v2 main_call1.v3 addi,
    TRef.ternary main_call1.v1 main_call1.v3 (TRef.of main_v5 : TRef sig ⟨S100000, .i32⟩) main_call1.call0.v0 select,
    TRef.unary main_call1.call0.v0 main_call1.v5 (broadcastInDim S100000x1 ![0] bcast_S100000_S100000x1_0),
    TRef.nullary main_call1.c_1 (constantI S1 32 99999#32),
    TRef.nullary main_call1.c_2 (constantI S_ 32 0#32),
    TRef.unary main_call1.c_2 main_call1.v6 (broadcastInDim S100000x1 ![] bcast_S_S100000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S100000x1 ![0, 1] bcast_S1x1_S100000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S100000x1_S100000_d1 h_S_),
    TRef.binary (TRef.of main_v8 : TRef sig ⟨S100000x128, .f32⟩) main_call1.v5 main_call1.v13 (fun x i => Host.gather gather_S100000x128_S100000x1_S100000x128_1_0_n_n_0_1_1128 x i),
    TRef.unary main_call1.v12 main_call1.v14 (broadcastInDim S100000x128 ![0] bcast_S100000_S100000x128_0),
    TRef.nullary main_call1.cst (constant S_ .f32 0x7FC00000#32),
    TRef.unary main_call1.cst main_call1.v15 (broadcastInDim S100000x128 ![] bcast_S_S100000x128),
    TRef.ternary main_call1.v14 main_call1.v13 main_call1.v15 main_call1.v16 select,
    unary main_v32 main_v34 (broadcastInDim S100000x128 ![0, 1] bcast_S100000x1_S100000x128_0_1 : (⟨S100000x1, .f32⟩ : BufTy).Contents (Elt F) → (⟨S100000x128, .f32⟩ : BufTy).Contents (Elt F)),
    binary main_v34 main_v33 main_v35 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    unary main_cst_6 main_v36 (broadcastInDim S100000x128 ![] bcast_S_S100000x128 : (⟨S_, .f32⟩ : BufTy).Contents (Elt F) → (⟨S100000x128, .f32⟩ : BufTy).Contents (Elt F)),
    unary main_v6 main_v37 (broadcastInDim S100000x1 ![0] bcast_S100000_S100000x1_0 : (⟨S100000, .i32⟩ : BufTy).Contents (Elt F) → (⟨S100000x1, .i32⟩ : BufTy).Contents (Elt F)),
    ternary main_v36 main_v37 main_v35 main_v38 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    unary main_arg4 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (TRef.of main_v41 : TRef sig ⟨S100000x128, .f32⟩) main_call2.v0 main_call2.v1 maximumf,
    unary main_arg5 main_v43 ((transpose S128x128 [1, 0] · transposes_S128x128_S128x128_1_0) : (⟨S128x128, .f32⟩ : BufTy).Contents (Elt F) → (⟨S128x128, .f32⟩ : BufTy).Contents (Elt F)),
    binary main_v42 main_v43 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_7 (constant S_ .f32 0x3F800000#32),
    unary main_cst_7 main_v45 (broadcastInDim S100000 ![] bcast_S_S100000 : (⟨S_, .f32⟩ : BufTy).Contents (Elt F) → (⟨S100000, .f32⟩ : BufTy).Contents (Elt F)),
    nullary main_cst_8 (constant S_ .f32 0x00000000#32),
    unary main_cst_8 main_v46 (broadcastInDim S100000 ![] bcast_S_S100000 : (⟨S_, .f32⟩ : BufTy).Contents (Elt F) → (⟨S100000, .f32⟩ : BufTy).Contents (Elt F)),
    unary main_v6 main_v47 (broadcastInDim S100000x1 ![0] bcast_S100000_S100000x1_0 : (⟨S100000, .i32⟩ : BufTy).Contents (Elt F) → (⟨S100000x1, .i32⟩ : BufTy).Contents (Elt F)),
    ternary main_v46 main_v47 main_v45 main_v48 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)) ]

set_option maxRecDepth 8192 in
set_option maxHeartbeats 1600000 in
/-- The window is that line: the outlined functions unfolded at their calls and the calls' records at their fields,
    both sides are one chain of steps once sequencing is reassociated. -/
theorem main_part0_eq (c : Dev nD) : main_part0 (F := F) c = seq ops0 := by
  simp only [main_part0, fn_where.body, fn_where_0.body, fn_take.body, fn_relu.body, seq, bind_assoc, pure_bind] <;> rfl

theorem ops0_sub : (ops0 : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., binary_bufs_sub .., nullary_bufs_sub .., unary_bufs_sub .., nullary_bufs_sub .., unary_bufs_sub ..,
    unary_bufs_sub .., ternary_bufs_sub ..⟩

/-- Every operation of the window determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- @main's statements 61 … 120, the calls inlined: 86 operations. -/
abbrev ops1 : List (HloOp τ sig (Elt F)) :=
  [ nullary main_cst_9 (constant S_ .f32 0x00000000#32),
    unary main_cst_9 main_v49 (broadcastInDim S100000 ![] bcast_S_S100000 : (⟨S_, .f32⟩ : BufTy).Contents (Elt F) → (⟨S100000, .f32⟩ : BufTy).Contents (Elt F)),
    binary main_v48 main_v49 main_v50 (cmpf .ogt : (⟨S100000, .f32⟩ : BufTy).Contents (Elt F) → (⟨S100000, .f32⟩ : BufTy).Contents (Elt F) → (⟨S100000, .i1⟩ : BufTy).Contents (Elt F)),
    unary main_v48 main_v51 (Host.rsqrt : (⟨S100000, .f32⟩ : BufTy).Contents (Elt F) → (⟨S100000, .f32⟩ : BufTy).Contents (Elt F)),
    nullary main_cst_10 (constant S_ .f32 0x00000000#32),
    TRef.unary (TRef.of main_cst_10 : TRef sig ⟨S_, .f32⟩) main_call3.v0 id,
    TRef.unary main_call3.v0 main_call3.v1 (broadcastInDim S100000 ![] bcast_S_S100000),
    TRef.ternary (TRef.of main_v50 : TRef sig ⟨S100000, .i1⟩) (TRef.of main_v51 : TRef sig ⟨S100000, .f32⟩) main_call3.v1 main_call3.v2 select,
    nullary main_c_11 (constantI S_ 32 0#32),
    unary main_c_11 main_v53 (broadcastInDim S100000 ![] bcast_S_S100000 : (⟨S_, .i32⟩ : BufTy).Contents (Elt F) → (⟨S100000, .i32⟩ : BufTy).Contents (Elt F)),
    binary main_v5 main_v53 main_v54 (cmpi .slt : (⟨S100000, .i32⟩ : BufTy).Contents (Elt F) → (⟨S100000, .i32⟩ : BufTy).Contents (Elt F) → (⟨S100000, .i1⟩ : BufTy).Contents (Elt F)),
    nullary main_c_12 (constantI S_ 32 100000#32),
    unary main_c_12 main_v55 (broadcastInDim S100000 ![] bcast_S_S100000 : (⟨S_, .i32⟩ : BufTy).Contents (Elt F) → (⟨S100000, .i32⟩ : BufTy).Contents (Elt F)),
    binary main_v5 main_v55 main_v56 (addi : (⟨S100000, .i32⟩ : BufTy).Contents (Elt F) → (⟨S100000, .i32⟩ : BufTy).Contents (Elt F) → (⟨S100000, .i32⟩ : BufTy).Contents (Elt F)),
    ternary main_v54 main_v56 main_v5 main_v57 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v57 main_v58 (broadcastInDim S100000x1 ![0] bcast_S100000_S100000x1_0 : (⟨S100000, .i32⟩ : BufTy).Contents (Elt F) → (⟨S100000x1, .i32⟩ : BufTy).Contents (Elt F)),
    binary main_v52 main_v58 main_v59 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    nullary main_c_13 (constantI S_ 32 0#32),
    unary main_c_13 main_v60 (broadcastInDim S100000 ![] bcast_S_S100000 : (⟨S_, .i32⟩ : BufTy).Contents (Elt F) → (⟨S100000, .i32⟩ : BufTy).Contents (Elt F)),
    binary main_v6 main_v60 main_v61 (cmpi .slt : (⟨S100000, .i32⟩ : BufTy).Contents (Elt F) → (⟨S100000, .i32⟩ : BufTy).Contents (Elt F) → (⟨S100000, .i1⟩ : BufTy).Contents (Elt F)),
    nullary main_c_14 (constantI S_ 32 100000#32),
    unary main_c_14 main_v62 (broadcastInDim S100000 ![] bcast_S_S100000 : (⟨S_, .i32⟩ : BufTy).Contents (Elt F) → (⟨S100000, .i32⟩ : BufTy).Contents (Elt F)),
    binary main_v6 main_v62 main_v63 (addi : (⟨S100000, .i32⟩ : BufTy).Contents (Elt F) → (⟨S100000, .i32⟩ : BufTy).Contents (Elt F) → (⟨S100000, .i32⟩ : BufTy).Contents (Elt F)),
    ternary main_v61 main_v63 main_v6 main_v64 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v64 main_v65 (broadcastInDim S100000x1 ![0] bcast_S100000_S100000x1_0 : (⟨S100000, .i32⟩ : BufTy).Contents (Elt F) → (⟨S100000x1, .i32⟩ : BufTy).Contents (Elt F)),
    binary main_v52 main_v65 main_v66 ((fun x i => Host.gather gather_S100000_S100000x1_S100000_n_0_n_n_0_1_1 x i) : (⟨S100000, .f32⟩ : BufTy).Contents (Elt F) → (⟨S100000x1, .i32⟩ : BufTy).Contents (Elt F) → (⟨S100000, .f32⟩ : BufTy).Contents (Elt F)),
    binary main_v59 main_v66 main_v67 (mulf : (⟨S100000, .f32⟩ : BufTy).Contents (Elt F) → (⟨S100000, .f32⟩ : BufTy).Contents (Elt F) → (⟨S100000, .f32⟩ : BufTy).Contents (Elt F)),
    unary main_v67 main_v68 (broadcastInDim S100000x1 ![0] bcast_S100000_S100000x1_0 : (⟨S100000, .f32⟩ : BufTy).Contents (Elt F) → (⟨S100000x1, .f32⟩ : BufTy).Contents (Elt F)),
    TRef.nullary main_call4.c (constantI S_ 32 0#32),
    TRef.unary main_call4.c main_call4.v0 (broadcastInDim S100000 ![] bcast_S_S100000),
    TRef.binary (TRef.of main_v5 : TRef sig ⟨S100000, .i32⟩) main_call4.v0 main_call4.v1 (cmpi .slt),
    TRef.nullary main_call4.c_0 (constantI S_ 32 100000#32),
    TRef.unary main_call4.c_0 main_call4.v2 (broadcastInDim S100000 ![] bcast_S_S100000),
    TRef.binary (TRef.of main_v5 : TRef sig ⟨S100000, .i32⟩) main_call4.v2 main_call4.v3 addi,
    TRef.ternary main_call4.v1 main_call4.v3 (TRef.of main_v5 : TRef sig ⟨S100000, .i32⟩) main_call4.call0.v0 select,
    TRef.unary main_call4.call0.v0 main_call4.v5 (broadcastInDim S100000x1 ![0] bcast_S100000_S100000x1_0),
    TRef.nullary main_call4.c_1 (constantI S1 32 99999#32),
    TRef.nullary main_call4.c_2 (constantI S_ 32 0#32),
    TRef.unary main_call4.c_2 main_call4.v6 (broadcastInDim S100000x1 ![] bcast_S_S100000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S100000x1 ![0, 1] bcast_S1x1_S100000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S100000x1_S100000_d1 h_S_),
    TRef.binary (TRef.of main_v44 : TRef sig ⟨S100000x128, .f32⟩) main_call4.v5 main_call4.v13 (fun x i => Host.gather gather_S100000x128_S100000x1_S100000x128_1_0_n_n_0_1_1128 x i),
    TRef.unary main_call4.v12 main_call4.v14 (broadcastInDim S100000x128 ![0] bcast_S100000_S100000x128_0),
    TRef.nullary main_call4.cst (constant S_ .f32 0x7FC00000#32),
    TRef.unary main_call4.cst main_call4.v15 (broadcastInDim S100000x128 ![] bcast_S_S100000x128),
    TRef.ternary main_call4.v14 main_call4.v13 main_call4.v15 main_call4.v16 select,
    unary main_v68 main_v70 (broadcastInDim S100000x128 ![0, 1] bcast_S100000x1_S100000x128_0_1 : (⟨S100000x1, .f32⟩ : BufTy).Contents (Elt F) → (⟨S100000x128, .f32⟩ : BufTy).Contents (Elt F)),
    binary main_v70 main_v69 main_v71 (mulf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32),
    unary main_cst_15 main_v72 (broadcastInDim S100000x128 ![] bcast_S_S100000x128 : (⟨S_, .f32⟩ : BufTy).Contents (Elt F) → (⟨S100000x128, .f32⟩ : BufTy).Contents (Elt F)),
    unary main_v6 main_v73 (broadcastInDim S100000x1 ![0] bcast_S100000_S100000x1_0 : (⟨S100000, .i32⟩ : BufTy).Contents (Elt F) → (⟨S100000x1, .i32⟩ : BufTy).Contents (Elt F)),
    ternary main_v72 main_v73 main_v71 main_v74 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    unary main_arg6 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (TRef.of main_v77 : TRef sig ⟨S100000x128, .f32⟩) main_call5.v0 main_call5.v1 maximumf,
    nullary main_v79 (iotaInDim S100000 32 0),
    nullary main_cst_16 (constant S_ .f32 0x3F800000#32),
    unary main_cst_16 main_v80 (broadcastInDim S100000 ![] bcast_S_S100000 : (⟨S_, .f32⟩ : BufTy).Contents (Elt F) → (⟨S100000, .f32⟩ : BufTy).Contents (Elt F)),
    nullary main_cst_17 (constant S_ .f32 0x00000000#32),
    unary main_cst_17 main_v81 (broadcastInDim S100000 ![] bcast_S_S100000 : (⟨S_, .f32⟩ : BufTy).Contents (Elt F) → (⟨S100000, .f32⟩ : BufTy).Contents (Elt F)),
    unary main_v79 main_v82 (broadcastInDim S100000x1 ![0] bcast_S100000_S100000x1_0 : (⟨S100000, .i32⟩ : BufTy).Contents (Elt F) → (⟨S100000x1, .i32⟩ : BufTy).Contents (Elt F)),
    ternary main_v81 main_v82 main_v80 main_v83 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_18 (constant S_ .f32 0x00000000#32),
    unary main_cst_18 main_v84 (broadcastInDim S100000x128 ![] bcast_S_S100000x128 : (⟨S_, .f32⟩ : BufTy).Contents (Elt F) → (⟨S100000x128, .f32⟩ : BufTy).Contents (Elt F)),
    unary main_v79 main_v85 (broadcastInDim S100000x1 ![0] bcast_S100000_S100000x1_0 : (⟨S100000, .i32⟩ : BufTy).Contents (Elt F) → (⟨S100000x1, .i32⟩ : BufTy).Contents (Elt F)),
    ternary main_v84 main_v85 main_v78 main_v86 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    unary main_v83 main_v87 (broadcastInDim S100000x1 ![0] bcast_S100000_S100000x1_0 : (⟨S100000, .f32⟩ : BufTy).Contents (Elt F) → (⟨S100000x1, .f32⟩ : BufTy).Contents (Elt F)),
    unary main_v87 main_v88 (broadcastInDim S100000x128 ![0, 1] bcast_S100000x1_S100000x128_0_1 : (⟨S100000x1, .f32⟩ : BufTy).Contents (Elt F) → (⟨S100000x128, .f32⟩ : BufTy).Contents (Elt F)),
    binary main_v86 main_v88 main_v89 (Host.divf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v89 main_cst_19 main_v90 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v90 main_v91 (broadcastInDim S100000x1 ![0] bcast_S100000_S100000x1_0 : (⟨S100000, .f32⟩ : BufTy).Contents (Elt F) → (⟨S100000x1, .f32⟩ : BufTy).Contents (Elt F)),
    nullary main_cst_20 (constant S_ .f32 0x43000000#32),
    unary main_cst_20 main_v92 (broadcastInDim S100000x1 ![] bcast_S_S100000x1 : (⟨S_, .f32⟩ : BufTy).Contents (Elt F) → (⟨S100000x1, .f32⟩ : BufTy).Contents (Elt F)),
    binary main_v91 main_v92 main_v93 (Host.divf : (⟨S100000x1, .f32⟩ : BufTy).Contents (Elt F) → (⟨S100000x1, .f32⟩ : BufTy).Contents (Elt F) → (⟨S100000x1, .f32⟩ : BufTy).Contents (Elt F)),
    unary main_v93 main_v94 (broadcastInDim S100000x128 ![0, 1] bcast_S100000x1_S100000x128_0_1 : (⟨S100000x1, .f32⟩ : BufTy).Contents (Elt F) → (⟨S100000x128, .f32⟩ : BufTy).Contents (Elt F)),
    binary main_v89 main_v94 main_v95 (subf : (⟨S100000x128, .f32⟩ : BufTy).Contents (Elt F) → (⟨S100000x128, .f32⟩ : BufTy).Contents (Elt F) → (⟨S100000x128, .f32⟩ : BufTy).Contents (Elt F)),
    binary main_v95 main_v95 main_v96 (mulf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 1600000 in
/-- The window is that line: the outlined functions unfolded at their calls and the calls' records at their fields,
    both sides are one chain of steps once sequencing is reassociated. -/
theorem main_part1_eq (c : Dev nD) : main_part1 (F := F) c = seq ops1 := by
  simp only [main_part1, fn_where.body, fn_where_0.body, fn_take.body, fn_relu.body, seq, bind_assoc, pure_bind] <;> rfl

theorem ops1_sub : (ops1 : List (HloOp τ sig (Elt F))).Forall fun op => op.bufs ⊆ tcRefs τ sig :=
  ⟨nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., nullary_bufs_sub .., nullary_bufs_sub .., unary_bufs_sub ..,
    nullary_bufs_sub .., unary_bufs_sub .., unary_bufs_sub .., ternary_bufs_sub .., nullary_bufs_sub .., unary_bufs_sub ..,
    unary_bufs_sub .., ternary_bufs_sub .., unary_bufs_sub .., unary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub ..⟩

/-- Every operation of the window determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- @main's statements 121 … 145: 25 operations. -/
abbrev ops2 : List (HloOp τ sig (Elt F)) :=
  [ nullary main_cst_21 (constant S_ .f32 0x00000000#32),
    binary main_v96 main_cst_21 main_v97 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v97 main_v98 (broadcastInDim S100000x1 ![0] bcast_S100000_S100000x1_0 : (⟨S100000, .f32⟩ : BufTy).Contents (Elt F) → (⟨S100000x1, .f32⟩ : BufTy).Contents (Elt F)),
    nullary main_cst_22 (constant S_ .f32 0x43000000#32),
    unary main_cst_22 main_v99 (broadcastInDim S100000x1 ![] bcast_S_S100000x1 : (⟨S_, .f32⟩ : BufTy).Contents (Elt F) → (⟨S100000x1, .f32⟩ : BufTy).Contents (Elt F)),
    binary main_v98 main_v99 main_v100 (Host.divf : (⟨S100000x1, .f32⟩ : BufTy).Contents (Elt F) → (⟨S100000x1, .f32⟩ : BufTy).Contents (Elt F) → (⟨S100000x1, .f32⟩ : BufTy).Contents (Elt F)),
    unary main_v93 main_v101 (broadcastInDim S100000x128 ![0, 1] bcast_S100000x1_S100000x128_0_1 : (⟨S100000x1, .f32⟩ : BufTy).Contents (Elt F) → (⟨S100000x128, .f32⟩ : BufTy).Contents (Elt F)),
    binary main_v89 main_v101 main_v102 (subf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v103 (broadcastInDim S100000x1 ![] bcast_S_S100000x1 : (⟨S_, .f32⟩ : BufTy).Contents (Elt F) → (⟨S100000x1, .f32⟩ : BufTy).Contents (Elt F)),
    binary main_v100 main_v103 main_v104 (addf : (⟨S100000x1, .f32⟩ : BufTy).Contents (Elt F) → (⟨S100000x1, .f32⟩ : BufTy).Contents (Elt F) → (⟨S100000x1, .f32⟩ : BufTy).Contents (Elt F)),
    unary main_v104 main_v105 (Host.rsqrt : (⟨S100000x1, .f32⟩ : BufTy).Contents (Elt F) → (⟨S100000x1, .f32⟩ : BufTy).Contents (Elt F)),
    unary main_v105 main_v106 (broadcastInDim S100000x128 ![0, 1] bcast_S100000x1_S100000x128_0_1 : (⟨S100000x1, .f32⟩ : BufTy).Contents (Elt F) → (⟨S100000x128, .f32⟩ : BufTy).Contents (Elt F)),
    binary main_v102 main_v106 main_v107 (mulf : (⟨S100000x128, .f32⟩ : BufTy).Contents (Elt F) → (⟨S100000x128, .f32⟩ : BufTy).Contents (Elt F) → (⟨S100000x128, .f32⟩ : BufTy).Contents (Elt F)),
    unary main_arg7 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (mulf : (⟨S100000x128, .f32⟩ : BufTy).Contents (Elt F) → (⟨S100000x128, .f32⟩ : BufTy).Contents (Elt F) → (⟨S100000x128, .f32⟩ : BufTy).Contents (Elt F)),
    unary main_arg8 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v110 main_v112 main_v113 (addf : (⟨S100000x128, .f32⟩ : BufTy).Contents (Elt F) → (⟨S100000x128, .f32⟩ : BufTy).Contents (Elt F) → (⟨S100000x128, .f32⟩ : BufTy).Contents (Elt F)),
    unary main_arg9 main_v114 ((transpose S128x2 [1, 0] · transposes_S2x128_S128x2_1_0) : (⟨S2x128, .f32⟩ : BufTy).Contents (Elt F) → (⟨S128x2, .f32⟩ : BufTy).Contents (Elt F)),
    binary main_v113 main_v114 main_v115 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg10 main_v116 (broadcastInDim S1x2 ![1] bcast_S2_S1x2_1 : (⟨S2, .f32⟩ : BufTy).Contents (Elt F) → (⟨S1x2, .f32⟩ : BufTy).Contents (Elt F)),
    unary main_v116 main_v117 (broadcastInDim S100000x2 ![0, 1] bcast_S1x2_S100000x2_0_1 : (⟨S1x2, .f32⟩ : BufTy).Contents (Elt F) → (⟨S100000x2, .f32⟩ : BufTy).Contents (Elt F)),
    binary main_v115 main_v117 main_v118 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 1600000 in
/-- The window is that line: the outlined functions unfolded at their calls and the calls' records at their fields,
    both sides are one chain of steps once sequencing is reassociated. -/
theorem main_part2_eq (c : Dev nD) : main_part2 (F := F) c = seq ops2 := by
  simp only [main_part2, fn_where.body, fn_where_0.body, fn_take.body, fn_relu.body, seq, bind_assoc, pure_bind] <;> rfl

theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub ..⟩

/-- Every operation of the window determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

/-- @main's 197 operations, in order. -/
abbrev ops : List (HloOp τ sig (Elt F)) := ops0 ++ (ops1 ++ ops2)

/-- @main runs its three windows in turn, and a line run after another is their concatenation run as one. -/
theorem main_eq (c : Dev nD) : main (F := F) c = seq ops := by
  show main (F := F) c = seq (ops0 ++ (ops1 ++ ops2))
  rw [seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, ops2_sub⟩⟩

/-- Every operation of the line determines its result. -/
theorem ops_fresh : ∀ op ∈ (ops : List (HloOp τ sig (Elt F))), op.fresh = ∅ :=
  List.forall_iff_forall_mem.mp (List.forall_append.mpr ⟨ops0_fresh, List.forall_append.mpr ⟨ops1_fresh, ops2_fresh⟩⟩)

/-- The fold over a concatenation is the fold over the second line from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/-
  The reference program's result as named stages.  Each definition is one value of the program written with the
  program's own operators over the values before it, so the chain of definitions is the fold of the program's
  operations; `result_eq` reads the output buffer after the run as the last stage of the arguments' launch contents,
  and `argK_eq` says the run leaves the arguments as they were.
-/
import proofs.«120503_g6854767805213_cont_sun_m_581_17_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The row numbers with the negative ones wrapped around by the length: `i + 100000` where `i < 0`, else `i`. -/
def wrapIdx (i : (⟨S100000, .i32⟩ : BufTy).Contents (Elt F)) : (⟨S100000, .i32⟩ : BufTy).Contents (Elt F) :=
  select (cmpi .slt i (broadcastInDim S100000 ![] bcast_S_S100000 (constantI S_ 32 0#32))) (addi i (broadcastInDim S100000 ![] bcast_S_S100000 (constantI S_ 32 100000#32))) i

/-- The row-lookup function's result on a table `a` and row numbers `idx`: the rows of `a` at the wrapped numbers
    where those lie in `0 … 99999`, the not-a-number constant elsewhere. -/
def takeBody (a : (⟨S100000x128, .f32⟩ : BufTy).Contents (Elt F)) (idx : (⟨S100000, .i32⟩ : BufTy).Contents (Elt F)) : (⟨S100000x128, .f32⟩ : BufTy).Contents (Elt F) :=
  select (broadcastInDim S100000x128 ![0] bcast_S100000_S100000x128_0 (Host.reduce IntOp.andi (andi (cmpi .sge (broadcastInDim S100000x1 ![0] bcast_S100000_S100000x1_0 (wrapIdx idx)) (broadcastInDim S100000x1 ![] bcast_S_S100000x1 (constantI S_ 32 0#32))) (cmpi .sle (broadcastInDim S100000x1 ![0] bcast_S100000_S100000x1_0 (wrapIdx idx)) (broadcastInDim S100000x1 ![0, 1] bcast_S1x1_S100000x1_0_1 (broadcastInDim S1x1 ![1] bcast_S1_S1x1_1 (constantI S1 32 99999#32))))) (constantI S_ 1 1#1) reducesTo_S100000x1_S100000_d1 h_S_)) (Host.gather gather_S100000x128_S100000x1_S100000x128_1_0_n_n_0_1_1128 a (broadcastInDim S100000x1 ![0] bcast_S100000_S100000x1_0 (wrapIdx idx))) (broadcastInDim S100000x128 ![] bcast_S_S100000x128 (constant S_ .f32 0x7FC00000#32))

/-- The first affine map of every row: `x · Winᵀ + bin`. -/
def res_v4 (x : (⟨S100000x128, .f32⟩ : BufTy).Contents (Elt F)) (Win : (⟨S128x128, .f32⟩ : BufTy).Contents (Elt F)) (bin : (⟨S128, .f32⟩ : BufTy).Contents (Elt F)) : (⟨S100000x128, .f32⟩ : BufTy).Contents (Elt F) :=
  addf (Host.dotGeneral dot_S100000x128_S128x128_S100000x128_1_0_0_1_n_n none x (transpose S128x128 [1, 0] Win transposes_S128x128_S128x128_1_0)) (broadcastInDim S100000x128 ![0, 1] bcast_S1x128_S100000x128_0_1 (broadcastInDim S1x128 ![1] bcast_S128_S1x128_1 bin))

/-- The row numbers `0, 1, …, 99999` (the program computes this vector three times; the three are this one term). -/
def res_v5 : (⟨S100000, .i32⟩ : BufTy).Contents (Elt F) :=
  iotaInDim S100000 32 0

/-- The first layer's product `h · Wg1ᵀ`. -/
def res_v8 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) : (⟨S100000x128, .f32⟩ : BufTy).Contents (Elt F) :=
  Host.dotGeneral dot_S100000x128_S128x128_S100000x128_1_0_0_1_n_n none (res_v4 x Win bin) (transpose S128x128 [1, 0] Wg1 transposes_S128x128_S128x128_1_0)

/-- The first layer's degree vector: ones added at the row numbers into zeros. -/
def res_v12 : (⟨S100000, .f32⟩ : BufTy).Contents (Elt F) :=
  Host.scatterAdd scatter_S100000_S100000x1_S100000_n_0_0_1 (broadcastInDim S100000 ![] bcast_S_S100000 (constant S_ .f32 0x00000000#32)) (broadcastInDim S100000x1 ![0] bcast_S100000_S100000x1_0 (res_v5 (F := F))) (broadcastInDim S100000 ![] bcast_S_S100000 (constant S_ .f32 0x3F800000#32))

/-- The first layer's reciprocal square root of the degree where it is positive, zero elsewhere. -/
def res_v16 : (⟨S100000, .f32⟩ : BufTy).Contents (Elt F) :=
  select (cmpf .ogt (res_v12 (F := F)) (broadcastInDim S100000 ![] bcast_S_S100000 (constant S_ .f32 0x00000000#32))) (Host.rsqrt (res_v12 (F := F))) (broadcastInDim S100000 ![] bcast_S_S100000 (id (constant S_ .f32 0x00000000#32)))

/-- The row numbers with negative ones wrapped around by the length (first layer, first use). -/
def res_v21 : (⟨S100000, .i32⟩ : BufTy).Contents (Elt F) :=
  wrapIdx (res_v5 (F := F))

/-- The row numbers with negative ones wrapped around by the length (first layer, second use). -/
def res_v28 : (⟨S100000, .i32⟩ : BufTy).Contents (Elt F) :=
  wrapIdx (res_v5 (F := F))

/-- The first layer's edge weights: the product of the two looked-up degree factors. -/
def res_v31 : (⟨S100000, .f32⟩ : BufTy).Contents (Elt F) :=
  mulf (Host.gather gather_S100000_S100000x1_S100000_n_0_n_n_0_1_1 (res_v16 (F := F)) (broadcastInDim S100000x1 ![0] bcast_S100000_S100000x1_0 (res_v21 (F := F)))) (Host.gather gather_S100000_S100000x1_S100000_n_0_n_n_0_1_1 (res_v16 (F := F)) (broadcastInDim S100000x1 ![0] bcast_S100000_S100000x1_0 (res_v28 (F := F))))

/-- The first layer's rows looked up at the row numbers. -/
def res_v33 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) : (⟨S100000x128, .f32⟩ : BufTy).Contents (Elt F) :=
  takeBody (res_v8 x Win bin Wg1) (res_v5 (F := F))

/-- The first layer's weighted rows added at the row numbers into zeros. -/
def res_v38 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) : (⟨S100000x128, .f32⟩ : BufTy).Contents (Elt F) :=
  Host.scatterAdd scatter_S100000x128_S100000x1_S100000x128_1_0_0_1 (broadcastInDim S100000x128 ![] bcast_S_S100000x128 (constant S_ .f32 0x00000000#32)) (broadcastInDim S100000x1 ![0] bcast_S100000_S100000x1_0 (res_v5 (F := F))) (mulf (broadcastInDim S100000x128 ![0, 1] bcast_S100000x1_S100000x128_0_1 (broadcastInDim S100000x1 ![0] bcast_S100000_S100000x1_0 (res_v31 (F := F)))) (res_v33 x Win bin Wg1))

/-- The first layer's output: shift added, clamped at zero. -/
def res_v42 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) : (⟨S100000x128, .f32⟩ : BufTy).Contents (Elt F) :=
  maximumf (addf (res_v38 x Win bin Wg1) (broadcastInDim S100000x128 ![0, 1] bcast_S1x128_S100000x128_0_1 (broadcastInDim S1x128 ![1] bcast_S128_S1x128_1 bg1))) (broadcastInDim S100000x128 ![] bcast_S_S100000x128 (constant S_ .f32 0x00000000#32))

/-- The second layer's product `h · Wg2ᵀ`. -/
def res_v44 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) : (⟨S100000x128, .f32⟩ : BufTy).Contents (Elt F) :=
  Host.dotGeneral dot_S100000x128_S128x128_S100000x128_1_0_0_1_n_n none (res_v42 x Win bin Wg1 bg1) (transpose S128x128 [1, 0] Wg2 transposes_S128x128_S128x128_1_0)

/-- The second layer's degree vector. -/
def res_v48 : (⟨S100000, .f32⟩ : BufTy).Contents (Elt F) :=
  Host.scatterAdd scatter_S100000_S100000x1_S100000_n_0_0_1 (broadcastInDim S100000 ![] bcast_S_S100000 (constant S_ .f32 0x00000000#32)) (broadcastInDim S100000x1 ![0] bcast_S100000_S100000x1_0 (res_v5 (F := F))) (broadcastInDim S100000 ![] bcast_S_S100000 (constant S_ .f32 0x3F800000#32))

/-- The second layer's reciprocal square root of the degree where it is positive, zero elsewhere. -/
def res_v52 : (⟨S100000, .f32⟩ : BufTy).Contents (Elt F) :=
  select (cmpf .ogt (res_v48 (F := F)) (broadcastInDim S100000 ![] bcast_S_S100000 (constant S_ .f32 0x00000000#32))) (Host.rsqrt (res_v48 (F := F))) (broadcastInDim S100000 ![] bcast_S_S100000 (id (constant S_ .f32 0x00000000#32)))

/-- The wrapped row numbers (second layer, first use). -/
def res_v57 : (⟨S100000, .i32⟩ : BufTy).Contents (Elt F) :=
  wrapIdx (res_v5 (F := F))

/-- The wrapped row numbers (second layer, second use). -/
def res_v64 : (⟨S100000, .i32⟩ : BufTy).Contents (Elt F) :=
  wrapIdx (res_v5 (F := F))

/-- The second layer's edge weights. -/
def res_v67 : (⟨S100000, .f32⟩ : BufTy).Contents (Elt F) :=
  mulf (Host.gather gather_S100000_S100000x1_S100000_n_0_n_n_0_1_1 (res_v52 (F := F)) (broadcastInDim S100000x1 ![0] bcast_S100000_S100000x1_0 (res_v57 (F := F)))) (Host.gather gather_S100000_S100000x1_S100000_n_0_n_n_0_1_1 (res_v52 (F := F)) (broadcastInDim S100000x1 ![0] bcast_S100000_S100000x1_0 (res_v64 (F := F))))

/-- The second layer's rows looked up at the row numbers. -/
def res_v69 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) : (⟨S100000x128, .f32⟩ : BufTy).Contents (Elt F) :=
  takeBody (res_v44 x Win bin Wg1 bg1 Wg2) (res_v5 (F := F))

/-- The second layer's weighted rows added at the row numbers into zeros. -/
def res_v74 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) : (⟨S100000x128, .f32⟩ : BufTy).Contents (Elt F) :=
  Host.scatterAdd scatter_S100000x128_S100000x1_S100000x128_1_0_0_1 (broadcastInDim S100000x128 ![] bcast_S_S100000x128 (constant S_ .f32 0x00000000#32)) (broadcastInDim S100000x1 ![0] bcast_S100000_S100000x1_0 (res_v5 (F := F))) (mulf (broadcastInDim S100000x128 ![0, 1] bcast_S100000x1_S100000x128_0_1 (broadcastInDim S100000x1 ![0] bcast_S100000_S100000x1_0 (res_v67 (F := F)))) (res_v69 x Win bin Wg1 bg1 Wg2))

/-- The second layer's output: shift added, clamped at zero. -/
def res_v78 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) : (⟨S100000x128, .f32⟩ : BufTy).Contents (Elt F) :=
  maximumf (addf (res_v74 x Win bin Wg1 bg1 Wg2) (broadcastInDim S100000x128 ![0, 1] bcast_S1x128_S100000x128_0_1 (broadcastInDim S1x128 ![1] bcast_S128_S1x128_1 bg2))) (broadcastInDim S100000x128 ![] bcast_S_S100000x128 (constant S_ .f32 0x00000000#32))

/-- The head's count vector: ones added at the row numbers into zeros. -/
def res_v83 : (⟨S100000, .f32⟩ : BufTy).Contents (Elt F) :=
  Host.scatterAdd scatter_S100000_S100000x1_S100000_n_0_0_1 (broadcastInDim S100000 ![] bcast_S_S100000 (constant S_ .f32 0x00000000#32)) (broadcastInDim S100000x1 ![0] bcast_S100000_S100000x1_0 (res_v5 (F := F))) (broadcastInDim S100000 ![] bcast_S_S100000 (constant S_ .f32 0x3F800000#32))

/-- The head's rows added at the row numbers into zeros. -/
def res_v86 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) : (⟨S100000x128, .f32⟩ : BufTy).Contents (Elt F) :=
  Host.scatterAdd scatter_S100000x128_S100000x1_S100000x128_1_0_0_1 (broadcastInDim S100000x128 ![] bcast_S_S100000x128 (constant S_ .f32 0x00000000#32)) (broadcastInDim S100000x1 ![0] bcast_S100000_S100000x1_0 (res_v5 (F := F))) (res_v78 x Win bin Wg1 bg1 Wg2 bg2)

/-- The head's input: those sums divided by the counts. -/
def res_v89 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) : (⟨S100000x128, .f32⟩ : BufTy).Contents (Elt F) :=
  Host.divf (res_v86 x Win bin Wg1 bg1 Wg2 bg2) (broadcastInDim S100000x128 ![0, 1] bcast_S100000x1_S100000x128_0_1 (broadcastInDim S100000x1 ![0] bcast_S100000_S100000x1_0 (res_v83 (F := F))))

/-- The mean of each row: its sum divided by the width. -/
def res_v93 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) : (⟨S100000x1, .f32⟩ : BufTy).Contents (Elt F) :=
  Host.divf (broadcastInDim S100000x1 ![0] bcast_S100000_S100000x1_0 (Host.reduceAdd (res_v89 x Win bin Wg1 bg1 Wg2 bg2) (constant S_ .f32 0x00000000#32) reducesTo_S100000x128_S100000_d1 h_S_)) (broadcastInDim S100000x1 ![] bcast_S_S100000x1 (constant S_ .f32 0x43000000#32))

/-- The variance of each row: the sum of squared deviations divided by the width. -/
def res_v100 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) : (⟨S100000x1, .f32⟩ : BufTy).Contents (Elt F) :=
  Host.divf (broadcastInDim S100000x1 ![0] bcast_S100000_S100000x1_0 (Host.reduceAdd (mulf (subf (res_v89 x Win bin Wg1 bg1 Wg2 bg2) (broadcastInDim S100000x128 ![0, 1] bcast_S100000x1_S100000x128_0_1 (res_v93 x Win bin Wg1 bg1 Wg2 bg2))) (subf (res_v89 x Win bin Wg1 bg1 Wg2 bg2) (broadcastInDim S100000x128 ![0, 1] bcast_S100000x1_S100000x128_0_1 (res_v93 x Win bin Wg1 bg1 Wg2 bg2)))) (constant S_ .f32 0x00000000#32) reducesTo_S100000x128_S100000_d1 h_S_)) (broadcastInDim S100000x1 ![] bcast_S_S100000x1 (constant S_ .f32 0x43000000#32))

/-- The reciprocal square root of the variance plus the small constant. -/
def res_v105 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) : (⟨S100000x1, .f32⟩ : BufTy).Contents (Elt F) :=
  Host.rsqrt (addf (res_v100 x Win bin Wg1 bg1 Wg2 bg2) (broadcastInDim S100000x1 ![] bcast_S_S100000x1 (constant S_ .f32 0x3727C5AC#32)))

/-- The normalised rows: deviation times that factor, times the gain, plus the shift. -/
def res_v113 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) (gam : (⟨S128, .f32⟩ : BufTy).Contents (Elt F)) (bet : (⟨S128, .f32⟩ : BufTy).Contents (Elt F)) : (⟨S100000x128, .f32⟩ : BufTy).Contents (Elt F) :=
  addf (mulf (mulf (subf (res_v89 x Win bin Wg1 bg1 Wg2 bg2) (broadcastInDim S100000x128 ![0, 1] bcast_S100000x1_S100000x128_0_1 (res_v93 x Win bin Wg1 bg1 Wg2 bg2))) (broadcastInDim S100000x128 ![0, 1] bcast_S100000x1_S100000x128_0_1 (res_v105 x Win bin Wg1 bg1 Wg2 bg2))) (broadcastInDim S100000x128 ![0, 1] bcast_S1x128_S100000x128_0_1 (broadcastInDim S1x128 ![1] bcast_S128_S1x128_1 gam))) (broadcastInDim S100000x128 ![0, 1] bcast_S1x128_S100000x128_0_1 (broadcastInDim S1x128 ![1] bcast_S128_S1x128_1 bet))

/-- The output: the normalised rows projected, plus the output shift. -/
def res_v118 (x : (⟨S100000x128, .f32⟩ : BufTy).Contents (Elt F)) (Win : (⟨S128x128, .f32⟩ : BufTy).Contents (Elt F)) (bin : (⟨S128, .f32⟩ : BufTy).Contents (Elt F)) (Wg1 : (⟨S128x128, .f32⟩ : BufTy).Contents (Elt F)) (bg1 : (⟨S128, .f32⟩ : BufTy).Contents (Elt F)) (Wg2 : (⟨S128x128, .f32⟩ : BufTy).Contents (Elt F)) (bg2 : (⟨S128, .f32⟩ : BufTy).Contents (Elt F)) (gam : (⟨S128, .f32⟩ : BufTy).Contents (Elt F)) (bet : (⟨S128, .f32⟩ : BufTy).Contents (Elt F)) (Wout : (⟨S2x128, .f32⟩ : BufTy).Contents (Elt F)) (bout : (⟨S2, .f32⟩ : BufTy).Contents (Elt F)) : (⟨S100000x2, .f32⟩ : BufTy).Contents (Elt F) :=
  addf (Host.dotGeneral dot_S100000x128_S128x2_S100000x2_1_0_0_1_n_n none (res_v113 x Win bin Wg1 bg1 Wg2 bg2 gam bet) (transpose S128x2 [1, 0] Wout transposes_S2x128_S128x2_1_0)) (broadcastInDim S100000x2 ![0, 1] bcast_S1x2_S100000x2_0_1 (broadcastInDim S1x2 ![1] bcast_S2_S1x2_1 bout))

/-! ## The run's result -/

attribute [local irreducible] Host.gather Host.scatterAdd Host.reduce Host.reduceAdd in
set_option maxRecDepth 16384 in
set_option maxHeartbeats 8000000 in
/-- After the run the output buffer holds the last stage of the arguments' contents before it: the fold of the 197
    operations at that buffer, each operation's result read at its own buffer as its function of its operands'
    contents and at any other buffer as what was there, is the chain of stage definitions unfolded.  The lookups, the
    indexed sums and the reductions enter the equation only as whole terms. -/
theorem result_eq (V : Valuation τ sig (Elt F)) :
    after ops V (main_v118 : DevRef τ sig) = res_v118 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp (disch := decide) only [ops, ops0, ops1, ops2, List.cons_append, List.nil_append, after_cons, after_nil, nullary_result', unary_result', binary_result', ternary_result', nullary_result_ne', unary_result_ne', binary_result_ne', ternary_result_ne']
  rfl

/-! ## The run writes no argument

Each window's operations write the references of one list; a reference outside the three lists holds after the run
what it held before. -/

/-- An operation writing the one reference `y` of a list writes within that list. -/
theorem writes_sub_of_mem {W : List (Ref sig .tc)} {y : Ref sig .tc} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

/-- The references window 0's operations write, in order. -/
abbrev ops0_W : List (Ref sig .tc) :=
  [ main_v0, main_v1, main_v2, main_v3, main_v4, main_v5, main_v6, main_v7,
    main_v8, main_cst, main_v9, main_cst_0, main_v10, main_v11, main_v12, main_cst_1,
    main_v13, main_v14, main_v15, main_cst_2, main_call0_v0, main_call0_v1, main_v16, main_c,
    main_v17, main_v18, main_c_3, main_v19, main_v20, main_v21, main_v22, main_v23,
    main_c_4, main_v24, main_v25, main_c_5, main_v26, main_v27, main_v28, main_v29,
    main_v30, main_v31, main_v32, main_call1_c, main_call1_v0, main_call1_v1, main_call1_c_0, main_call1_v2,
    main_call1_v3, main_call1_v4, main_call1_v5, main_call1_c_1, main_call1_c_2, main_call1_v6, main_call1_v7, main_call1_v8,
    main_call1_v9, main_call1_v10, main_call1_v11, main_call1_c_3, main_call1_v12, main_call1_v13, main_call1_v14, main_call1_cst,
    main_call1_v15, main_v33, main_v34, main_v35, main_cst_6, main_v36, main_v37, main_v38,
    main_v39, main_v40, main_v41, main_call2_cst, main_call2_v0, main_v42, main_v43, main_v44,
    main_cst_7, main_v45, main_cst_8, main_v46, main_v47, main_v48 ]

theorem ops0_writes : (ops0 : List (HloOp τ sig (Elt F))).Forall fun op => op.writes ⊆ (ops0_W.map (Proc.devRef (τ := τ) .tc)).toFinset :=
  ⟨writes_sub_of_mem (y := main_v0) (by decide), writes_sub_of_mem (y := main_v1) (by decide), writes_sub_of_mem (y := main_v2) (by decide),
    writes_sub_of_mem (y := main_v3) (by decide), writes_sub_of_mem (y := main_v4) (by decide), writes_sub_of_mem (y := main_v5) (by decide),
    writes_sub_of_mem (y := main_v6) (by decide), writes_sub_of_mem (y := main_v7) (by decide), writes_sub_of_mem (y := main_v8) (by decide),
    writes_sub_of_mem (y := main_cst) (by decide), writes_sub_of_mem (y := main_v9) (by decide), writes_sub_of_mem (y := main_cst_0) (by decide),
    writes_sub_of_mem (y := main_v10) (by decide), writes_sub_of_mem (y := main_v11) (by decide), writes_sub_of_mem (y := main_v12) (by decide),
    writes_sub_of_mem (y := main_cst_1) (by decide), writes_sub_of_mem (y := main_v13) (by decide), writes_sub_of_mem (y := main_v14) (by decide),
    writes_sub_of_mem (y := main_v15) (by decide), writes_sub_of_mem (y := main_cst_2) (by decide), writes_sub_of_mem (y := main_call0_v0) (by decide),
    writes_sub_of_mem (y := main_call0_v1) (by decide), writes_sub_of_mem (y := main_v16) (by decide), writes_sub_of_mem (y := main_c) (by decide),
    writes_sub_of_mem (y := main_v17) (by decide), writes_sub_of_mem (y := main_v18) (by decide), writes_sub_of_mem (y := main_c_3) (by decide),
    writes_sub_of_mem (y := main_v19) (by decide), writes_sub_of_mem (y := main_v20) (by decide), writes_sub_of_mem (y := main_v21) (by decide),
    writes_sub_of_mem (y := main_v22) (by decide), writes_sub_of_mem (y := main_v23) (by decide), writes_sub_of_mem (y := main_c_4) (by decide),
    writes_sub_of_mem (y := main_v24) (by decide), writes_sub_of_mem (y := main_v25) (by decide), writes_sub_of_mem (y := main_c_5) (by decide),
    writes_sub_of_mem (y := main_v26) (by decide), writes_sub_of_mem (y := main_v27) (by decide), writes_sub_of_mem (y := main_v28) (by decide),
    writes_sub_of_mem (y := main_v29) (by decide), writes_sub_of_mem (y := main_v30) (by decide), writes_sub_of_mem (y := main_v31) (by decide),
    writes_sub_of_mem (y := main_v32) (by decide), writes_sub_of_mem (y := main_call1_c) (by decide), writes_sub_of_mem (y := main_call1_v0) (by decide),
    writes_sub_of_mem (y := main_call1_v1) (by decide), writes_sub_of_mem (y := main_call1_c_0) (by decide), writes_sub_of_mem (y := main_call1_v2) (by decide),
    writes_sub_of_mem (y := main_call1_v3) (by decide), writes_sub_of_mem (y := main_call1_v4) (by decide), writes_sub_of_mem (y := main_call1_v5) (by decide),
    writes_sub_of_mem (y := main_call1_c_1) (by decide), writes_sub_of_mem (y := main_call1_c_2) (by decide), writes_sub_of_mem (y := main_call1_v6) (by decide),
    writes_sub_of_mem (y := main_call1_v7) (by decide), writes_sub_of_mem (y := main_call1_v8) (by decide), writes_sub_of_mem (y := main_call1_v9) (by decide),
    writes_sub_of_mem (y := main_call1_v10) (by decide), writes_sub_of_mem (y := main_call1_v11) (by decide), writes_sub_of_mem (y := main_call1_c_3) (by decide),
    writes_sub_of_mem (y := main_call1_v12) (by decide), writes_sub_of_mem (y := main_call1_v13) (by decide), writes_sub_of_mem (y := main_call1_v14) (by decide),
    writes_sub_of_mem (y := main_call1_cst) (by decide), writes_sub_of_mem (y := main_call1_v15) (by decide), writes_sub_of_mem (y := main_v33) (by decide),
    writes_sub_of_mem (y := main_v34) (by decide), writes_sub_of_mem (y := main_v35) (by decide), writes_sub_of_mem (y := main_cst_6) (by decide),
    writes_sub_of_mem (y := main_v36) (by decide), writes_sub_of_mem (y := main_v37) (by decide), writes_sub_of_mem (y := main_v38) (by decide),
    writes_sub_of_mem (y := main_v39) (by decide), writes_sub_of_mem (y := main_v40) (by decide), writes_sub_of_mem (y := main_v41) (by decide),
    writes_sub_of_mem (y := main_call2_cst) (by decide), writes_sub_of_mem (y := main_call2_v0) (by decide), writes_sub_of_mem (y := main_v42) (by decide),
    writes_sub_of_mem (y := main_v43) (by decide), writes_sub_of_mem (y := main_v44) (by decide), writes_sub_of_mem (y := main_cst_7) (by decide),
    writes_sub_of_mem (y := main_v45) (by decide), writes_sub_of_mem (y := main_cst_8) (by decide), writes_sub_of_mem (y := main_v46) (by decide),
    writes_sub_of_mem (y := main_v47) (by decide), writes_sub_of_mem (y := main_v48) (by decide)⟩

/-- The references window 1's operations write, in order. -/
abbrev ops1_W : List (Ref sig .tc) :=
  [ main_cst_9, main_v49, main_v50, main_v51, main_cst_10, main_call3_v0, main_call3_v1, main_v52,
    main_c_11, main_v53, main_v54, main_c_12, main_v55, main_v56, main_v57, main_v58,
    main_v59, main_c_13, main_v60, main_v61, main_c_14, main_v62, main_v63, main_v64,
    main_v65, main_v66, main_v67, main_v68, main_call4_c, main_call4_v0, main_call4_v1, main_call4_c_0,
    main_call4_v2, main_call4_v3, main_call4_v4, main_call4_v5, main_call4_c_1, main_call4_c_2, main_call4_v6, main_call4_v7,
    main_call4_v8, main_call4_v9, main_call4_v10, main_call4_v11, main_call4_c_3, main_call4_v12, main_call4_v13, main_call4_v14,
    main_call4_cst, main_call4_v15, main_v69, main_v70, main_v71, main_cst_15, main_v72, main_v73,
    main_v74, main_v75, main_v76, main_v77, main_call5_cst, main_call5_v0, main_v78, main_v79,
    main_cst_16, main_v80, main_cst_17, main_v81, main_v82, main_v83, main_cst_18, main_v84,
    main_v85, main_v86, main_v87, main_v88, main_v89, main_cst_19, main_v90, main_v91,
    main_cst_20, main_v92, main_v93, main_v94, main_v95, main_v96 ]

theorem ops1_writes : (ops1 : List (HloOp τ sig (Elt F))).Forall fun op => op.writes ⊆ (ops1_W.map (Proc.devRef (τ := τ) .tc)).toFinset :=
  ⟨writes_sub_of_mem (y := main_cst_9) (by decide), writes_sub_of_mem (y := main_v49) (by decide), writes_sub_of_mem (y := main_v50) (by decide),
    writes_sub_of_mem (y := main_v51) (by decide), writes_sub_of_mem (y := main_cst_10) (by decide), writes_sub_of_mem (y := main_call3_v0) (by decide),
    writes_sub_of_mem (y := main_call3_v1) (by decide), writes_sub_of_mem (y := main_v52) (by decide), writes_sub_of_mem (y := main_c_11) (by decide),
    writes_sub_of_mem (y := main_v53) (by decide), writes_sub_of_mem (y := main_v54) (by decide), writes_sub_of_mem (y := main_c_12) (by decide),
    writes_sub_of_mem (y := main_v55) (by decide), writes_sub_of_mem (y := main_v56) (by decide), writes_sub_of_mem (y := main_v57) (by decide),
    writes_sub_of_mem (y := main_v58) (by decide), writes_sub_of_mem (y := main_v59) (by decide), writes_sub_of_mem (y := main_c_13) (by decide),
    writes_sub_of_mem (y := main_v60) (by decide), writes_sub_of_mem (y := main_v61) (by decide), writes_sub_of_mem (y := main_c_14) (by decide),
    writes_sub_of_mem (y := main_v62) (by decide), writes_sub_of_mem (y := main_v63) (by decide), writes_sub_of_mem (y := main_v64) (by decide),
    writes_sub_of_mem (y := main_v65) (by decide), writes_sub_of_mem (y := main_v66) (by decide), writes_sub_of_mem (y := main_v67) (by decide),
    writes_sub_of_mem (y := main_v68) (by decide), writes_sub_of_mem (y := main_call4_c) (by decide), writes_sub_of_mem (y := main_call4_v0) (by decide),
    writes_sub_of_mem (y := main_call4_v1) (by decide), writes_sub_of_mem (y := main_call4_c_0) (by decide), writes_sub_of_mem (y := main_call4_v2) (by decide),
    writes_sub_of_mem (y := main_call4_v3) (by decide), writes_sub_of_mem (y := main_call4_v4) (by decide), writes_sub_of_mem (y := main_call4_v5) (by decide),
    writes_sub_of_mem (y := main_call4_c_1) (by decide), writes_sub_of_mem (y := main_call4_c_2) (by decide), writes_sub_of_mem (y := main_call4_v6) (by decide),
    writes_sub_of_mem (y := main_call4_v7) (by decide), writes_sub_of_mem (y := main_call4_v8) (by decide), writes_sub_of_mem (y := main_call4_v9) (by decide),
    writes_sub_of_mem (y := main_call4_v10) (by decide), writes_sub_of_mem (y := main_call4_v11) (by decide), writes_sub_of_mem (y := main_call4_c_3) (by decide),
    writes_sub_of_mem (y := main_call4_v12) (by decide), writes_sub_of_mem (y := main_call4_v13) (by decide), writes_sub_of_mem (y := main_call4_v14) (by decide),
    writes_sub_of_mem (y := main_call4_cst) (by decide), writes_sub_of_mem (y := main_call4_v15) (by decide), writes_sub_of_mem (y := main_v69) (by decide),
    writes_sub_of_mem (y := main_v70) (by decide), writes_sub_of_mem (y := main_v71) (by decide), writes_sub_of_mem (y := main_cst_15) (by decide),
    writes_sub_of_mem (y := main_v72) (by decide), writes_sub_of_mem (y := main_v73) (by decide), writes_sub_of_mem (y := main_v74) (by decide),
    writes_sub_of_mem (y := main_v75) (by decide), writes_sub_of_mem (y := main_v76) (by decide), writes_sub_of_mem (y := main_v77) (by decide),
    writes_sub_of_mem (y := main_call5_cst) (by decide), writes_sub_of_mem (y := main_call5_v0) (by decide), writes_sub_of_mem (y := main_v78) (by decide),
    writes_sub_of_mem (y := main_v79) (by decide), writes_sub_of_mem (y := main_cst_16) (by decide), writes_sub_of_mem (y := main_v80) (by decide),
    writes_sub_of_mem (y := main_cst_17) (by decide), writes_sub_of_mem (y := main_v81) (by decide), writes_sub_of_mem (y := main_v82) (by decide),
    writes_sub_of_mem (y := main_v83) (by decide), writes_sub_of_mem (y := main_cst_18) (by decide), writes_sub_of_mem (y := main_v84) (by decide),
    writes_sub_of_mem (y := main_v85) (by decide), writes_sub_of_mem (y := main_v86) (by decide), writes_sub_of_mem (y := main_v87) (by decide),
    writes_sub_of_mem (y := main_v88) (by decide), writes_sub_of_mem (y := main_v89) (by decide), writes_sub_of_mem (y := main_cst_19) (by decide),
    writes_sub_of_mem (y := main_v90) (by decide), writes_sub_of_mem (y := main_v91) (by decide), writes_sub_of_mem (y := main_cst_20) (by decide),
    writes_sub_of_mem (y := main_v92) (by decide), writes_sub_of_mem (y := main_v93) (by decide), writes_sub_of_mem (y := main_v94) (by decide),
    writes_sub_of_mem (y := main_v95) (by decide), writes_sub_of_mem (y := main_v96) (by decide)⟩

/-- The references window 2's operations write, in order. -/
abbrev ops2_W : List (Ref sig .tc) :=
  [ main_cst_21, main_v97, main_v98, main_cst_22, main_v99, main_v100, main_v101, main_v102,
    main_cst_23, main_v103, main_v104, main_v105, main_v106, main_v107, main_v108, main_v109,
    main_v110, main_v111, main_v112, main_v113, main_v114, main_v115, main_v116, main_v117,
    main_v118 ]

theorem ops2_writes : (ops2 : List (HloOp τ sig (Elt F))).Forall fun op => op.writes ⊆ (ops2_W.map (Proc.devRef (τ := τ) .tc)).toFinset :=
  ⟨writes_sub_of_mem (y := main_cst_21) (by decide), writes_sub_of_mem (y := main_v97) (by decide), writes_sub_of_mem (y := main_v98) (by decide),
    writes_sub_of_mem (y := main_cst_22) (by decide), writes_sub_of_mem (y := main_v99) (by decide), writes_sub_of_mem (y := main_v100) (by decide),
    writes_sub_of_mem (y := main_v101) (by decide), writes_sub_of_mem (y := main_v102) (by decide), writes_sub_of_mem (y := main_cst_23) (by decide),
    writes_sub_of_mem (y := main_v103) (by decide), writes_sub_of_mem (y := main_v104) (by decide), writes_sub_of_mem (y := main_v105) (by decide),
    writes_sub_of_mem (y := main_v106) (by decide), writes_sub_of_mem (y := main_v107) (by decide), writes_sub_of_mem (y := main_v108) (by decide),
    writes_sub_of_mem (y := main_v109) (by decide), writes_sub_of_mem (y := main_v110) (by decide), writes_sub_of_mem (y := main_v111) (by decide),
    writes_sub_of_mem (y := main_v112) (by decide), writes_sub_of_mem (y := main_v113) (by decide), writes_sub_of_mem (y := main_v114) (by decide),
    writes_sub_of_mem (y := main_v115) (by decide), writes_sub_of_mem (y := main_v116) (by decide), writes_sub_of_mem (y := main_v117) (by decide),
    writes_sub_of_mem (y := main_v118) (by decide)⟩

/-- A reference none of the 197 operations writes holds after the run what it held before. -/
theorem after_ops_of_not_written (V : Valuation τ sig (Elt F)) (r : Ref sig .tc)
    (h0 : r ∉ ops0_W) (h1 : r ∉ ops1_W) (h2 : r ∉ ops2_W) :
    after ops V (Proc.devRef .tc r) = V (Proc.devRef .tc r) := by
  show after (ops0 ++ (ops1 ++ ops2)) V (Proc.devRef .tc r) = V (Proc.devRef .tc r)
  rw [after_append, after_append, after_of_writes_sub ops2 _ ops2_writes h2, after_of_writes_sub ops1 _ ops1_writes h1,
    after_of_writes_sub ops0 _ ops0_writes h0]

theorem arg0_eq (V : Valuation τ sig (Elt F)) :
    after ops V (main_arg0 : DevRef τ sig) = V (main_arg0 : DevRef τ sig) :=
  after_ops_of_not_written V main_arg0 (by decide) (by decide) (by decide)

theorem arg1_eq (V : Valuation τ sig (Elt F)) :
    after ops V (main_arg1 : DevRef τ sig) = V (main_arg1 : DevRef τ sig) :=
  after_ops_of_not_written V main_arg1 (by decide) (by decide) (by decide)

theorem arg2_eq (V : Valuation τ sig (Elt F)) :
    after ops V (main_arg2 : DevRef τ sig) = V (main_arg2 : DevRef τ sig) :=
  after_ops_of_not_written V main_arg2 (by decide) (by decide) (by decide)

theorem arg3_eq (V : Valuation τ sig (Elt F)) :
    after ops V (main_arg3 : DevRef τ sig) = V (main_arg3 : DevRef τ sig) :=
  after_ops_of_not_written V main_arg3 (by decide) (by decide) (by decide)

theorem arg4_eq (V : Valuation τ sig (Elt F)) :
    after ops V (main_arg4 : DevRef τ sig) = V (main_arg4 : DevRef τ sig) :=
  after_ops_of_not_written V main_arg4 (by decide) (by decide) (by decide)

theorem arg5_eq (V : Valuation τ sig (Elt F)) :
    after ops V (main_arg5 : DevRef τ sig) = V (main_arg5 : DevRef τ sig) :=
  after_ops_of_not_written V main_arg5 (by decide) (by decide) (by decide)

theorem arg6_eq (V : Valuation τ sig (Elt F)) :
    after ops V (main_arg6 : DevRef τ sig) = V (main_arg6 : DevRef τ sig) :=
  after_ops_of_not_written V main_arg6 (by decide) (by decide) (by decide)

theorem arg7_eq (V : Valuation τ sig (Elt F)) :
    after ops V (main_arg7 : DevRef τ sig) = V (main_arg7 : DevRef τ sig) :=
  after_ops_of_not_written V main_arg7 (by decide) (by decide) (by decide)

theorem arg8_eq (V : Valuation τ sig (Elt F)) :
    after ops V (main_arg8 : DevRef τ sig) = V (main_arg8 : DevRef τ sig) :=
  after_ops_of_not_written V main_arg8 (by decide) (by decide) (by decide)

theorem arg9_eq (V : Valuation τ sig (Elt F)) :
    after ops V (main_arg9 : DevRef τ sig) = V (main_arg9 : DevRef τ sig) :=
  after_ops_of_not_written V main_arg9 (by decide) (by decide) (by decide)

theorem arg10_eq (V : Valuation τ sig (Elt F)) :
    after ops V (main_arg10 : DevRef τ sig) = V (main_arg10 : DevRef τ sig) :=
  after_ops_of_not_written V main_arg10 (by decide) (by decide) (by decide)

end Cert.ReferenceIdeal.RefRun

end
-- ==== Proof.HostIdentity.lean ====
/-
  The reference's graph operations at identity indices, over the extended reals.

  Every index vector of the reference is the identity `0, 1, …, n − 1` (`n = 100000`), carried as a column of
  signed 32-bit words. At such indices a scatter-add lands update `j` on element `j` and nowhere else, so it is
  the elementwise sum; a gather reads element `j` at `j`, so it is the identity; no index is negative or past
  `n − 1`, so a wrap-around of negative indices changes nothing and a bounds mask is everywhere true.
-/
import proofs.«120503_g6854767805213_cont_sun_m_581_17_alg».proof.ReferenceIdeal
import Idealize.ShloMosaic.Lib.ValueIdx
import Idealize.ShloMosaic.Lib.IdealHost
import Idealize.ShloMosaic.Lib.ReduceAll

noncomputable section

namespace Cert.ReferenceIdeal.HostIdentity

open Cert.ReferenceIdeal Idealize.ShloMosaic

variable [Facts₀]
open Facts₀

/-- The identity indices `0, 1, …, n − 1` as a column of words. -/
abbrev iotaCol : IVec S100000x1 32 :=
  broadcastInDim S100000x1 ![0] bcast_S100000_S100000x1_0 (iotaInDim S100000 32 0)

/-- The column reads its row number. -/
theorem iotaCol_apply (k : S100000x1.Idx) : iotaCol k = BitVec.ofNat 32 (k 0).val := by
  rfl

/-- A number below `n` is its own signed reading as a 32-bit word: `n < 2³¹`. -/
theorem toInt_ofNat_lt (n : Nat) (h : n < 100000) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  rw [if_pos (by omega)]

/-- Update `j` of a vector starts at element `j`. -/
theorem start_vec (j : S100000.Idx) (a : Fin 1) :
    scatter_S100000_S100000x1_S100000_n_0_0_1.start j iotaCol a = ((j 0).val : Int) := by
  obtain rfl : a = 0 := Subsingleton.elim _ _
  unfold ScatterDims.start
  rw [dif_pos (show (0 : Fin 1) ∈ scatter_S100000_S100000x1_S100000_n_0_0_1.scatterDimsToOperandDims from List.mem_singleton.mpr rfl)]
  rw [iotaCol_apply]
  have h : (scatter_S100000_S100000x1_S100000_n_0_0_1.siIdx j ⟨List.idxOf (0 : Fin 1) scatter_S100000_S100000x1_S100000_n_0_0_1.scatterDimsToOperandDims,
      List.idxOf_lt_length_iff.2 (List.mem_singleton.mpr rfl)⟩ 0).val = (j 0).val := rfl
  rw [h]
  exact toInt_ofNat_lt _ (j 0).isLt

/-- A vector's update has no window: its only axis is the inserted one. -/
theorem window_vec (j : S100000.Idx) (a : Fin 1) :
    scatter_S100000_S100000x1_S100000_n_0_0_1.window j a = 0 := by
  obtain rfl : a = 0 := Subsingleton.elim _ _
  unfold ScatterDims.window
  rw [dif_neg]
  show (0 : Fin 1) ∉ Shape.kept S100000 [0]
  decide

/-- Update `j` of a vector lands on element `j`. -/
theorem res_vec (j : S100000.Idx) :
    scatter_S100000_S100000x1_S100000_n_0_0_1.resultIdx? j iotaCol = some j := by
  unfold ScatterDims.resultIdx?
  have hh : ∀ a : Fin 1, 0 ≤ scatter_S100000_S100000x1_S100000_n_0_0_1.start j iotaCol a + (scatter_S100000_S100000x1_S100000_n_0_0_1.window j a : Int)
      ∧ scatter_S100000_S100000x1_S100000_n_0_0_1.start j iotaCol a + (scatter_S100000_S100000x1_S100000_n_0_0_1.window j a : Int) < (S100000.size a : Int) := by
    intro a
    rw [start_vec, window_vec]
    obtain rfl : a = 0 := Subsingleton.elim _ _
    constructor
    · omega
    · show ((j 0).val : Int) + ((0 : Nat) : Int) < ((100000 : Nat) : Int)
      have : (j 0).val < 100000 := (j 0).isLt
      omega
  rw [dif_pos hh]
  congr 1
  funext a
  refine Fin.ext ?_
  show (scatter_S100000_S100000x1_S100000_n_0_0_1.start j iotaCol a + (scatter_S100000_S100000x1_S100000_n_0_0_1.window j a : Int)).toNat = (j a).val
  rw [start_vec, window_vec]
  obtain rfl : a = 0 := Subsingleton.elim _ _
  simp

/-- A scatter-add of a vector at the identity indices adds the updates elementwise. -/
theorem scatter_add_vec (x u : FVec Ideal S100000 .f32) :
    Host.scatterAdd scatter_S100000_S100000x1_S100000_n_0_0_1 x
      (broadcastInDim S100000x1 ![0] bcast_S100000_S100000x1_0 (iotaInDim S100000 32 0)) u = addf x u := by
  funext i
  show Ideal.hostScatterAdd scatter_S100000_S100000x1_S100000_n_0_0_1 x iotaCol u i = x i + u i
  unfold Ideal.hostScatterAdd
  simp only [res_vec, Option.some.injEq]
  rw [Finset.filter_eq' Finset.univ i, if_pos (Finset.mem_univ i), Finset.sum_singleton]

/-- Update row `j 0` starts at row `j 0`. -/
theorem start_rows0 (j : S100000x128.Idx) :
    scatter_S100000x128_S100000x1_S100000x128_1_0_0_1.start j iotaCol 0 = ((j 0).val : Int) := by
  unfold ScatterDims.start
  rw [dif_pos (show (0 : Fin 2) ∈ scatter_S100000x128_S100000x1_S100000x128_1_0_0_1.scatterDimsToOperandDims from List.mem_singleton.mpr rfl)]
  rw [iotaCol_apply]
  have h : (scatter_S100000x128_S100000x1_S100000x128_1_0_0_1.siIdx j ⟨List.idxOf (0 : Fin 2) scatter_S100000x128_S100000x1_S100000x128_1_0_0_1.scatterDimsToOperandDims,
      List.idxOf_lt_length_iff.2 (List.mem_singleton.mpr rfl)⟩ 0).val = (j 0).val := rfl
  rw [h]
  exact toInt_ofNat_lt _ (j 0).isLt

/-- The column axis is not indexed: its start is zero. -/
theorem start_rows1 (j : S100000x128.Idx) :
    scatter_S100000x128_S100000x1_S100000x128_1_0_0_1.start j iotaCol 1 = 0 := by
  unfold ScatterDims.start
  rw [dif_neg]
  show (1 : Fin 2) ∉ [(0 : Fin 2)]
  decide

/-- The row axis is inserted: no window coordinate on it. -/
theorem window_rows0 (j : S100000x128.Idx) :
    scatter_S100000x128_S100000x1_S100000x128_1_0_0_1.window j 0 = 0 := by
  unfold ScatterDims.window
  rw [dif_neg]
  show (0 : Fin 2) ∉ Shape.kept S100000x128 [0]
  decide

/-- The window coordinate on the column axis is the update's column. -/
theorem window_rows1 (j : S100000x128.Idx) :
    scatter_S100000x128_S100000x1_S100000x128_1_0_0_1.window j 1 = (j 1).val := by
  unfold ScatterDims.window
  have hm : (1 : Fin 2) ∈ scatter_S100000x128_S100000x1_S100000x128_1_0_0_1.sKept := by
    show (1 : Fin 2) ∈ Shape.kept S100000x128 [0]
    decide
  rw [dif_pos hm]
  rfl

/-- Update element `j` lands on element `j`. -/
theorem res_rows (j : S100000x128.Idx) :
    scatter_S100000x128_S100000x1_S100000x128_1_0_0_1.resultIdx? j iotaCol = some j := by
  unfold ScatterDims.resultIdx?
  have h0 : (j 0).val < 100000 := (j 0).isLt
  have h1 : (j 1).val < 128 := (j 1).isLt
  have hh : ∀ a : Fin 2, 0 ≤ scatter_S100000x128_S100000x1_S100000x128_1_0_0_1.start j iotaCol a + (scatter_S100000x128_S100000x1_S100000x128_1_0_0_1.window j a : Int)
      ∧ scatter_S100000x128_S100000x1_S100000x128_1_0_0_1.start j iotaCol a + (scatter_S100000x128_S100000x1_S100000x128_1_0_0_1.window j a : Int) < (S100000x128.size a : Int) := by
    intro a
    match a with
    | ⟨0, _⟩ =>
      show 0 ≤ scatter_S100000x128_S100000x1_S100000x128_1_0_0_1.start j iotaCol 0 + (scatter_S100000x128_S100000x1_S100000x128_1_0_0_1.window j 0 : Int)
        ∧ scatter_S100000x128_S100000x1_S100000x128_1_0_0_1.start j iotaCol 0 + (scatter_S100000x128_S100000x1_S100000x128_1_0_0_1.window j 0 : Int) < ((100000 : Nat) : Int)
      rw [start_rows0, window_rows0]; omega
    | ⟨1, _⟩ =>
      show 0 ≤ scatter_S100000x128_S100000x1_S100000x128_1_0_0_1.start j iotaCol 1 + (scatter_S100000x128_S100000x1_S100000x128_1_0_0_1.window j 1 : Int)
        ∧ scatter_S100000x128_S100000x1_S100000x128_1_0_0_1.start j iotaCol 1 + (scatter_S100000x128_S100000x1_S100000x128_1_0_0_1.window j 1 : Int) < ((128 : Nat) : Int)
      rw [start_rows1, window_rows1]; omega
  rw [dif_pos hh]
  congr 1
  funext a
  refine Fin.ext ?_
  match a with
  | ⟨0, _⟩ =>
    show (scatter_S100000x128_S100000x1_S100000x128_1_0_0_1.start j iotaCol 0 + (scatter_S100000x128_S100000x1_S100000x128_1_0_0_1.window j 0 : Int)).toNat = (j 0).val
    rw [start_rows0, window_rows0]; simp
  | ⟨1, _⟩ =>
    show (scatter_S100000x128_S100000x1_S100000x128_1_0_0_1.start j iotaCol 1 + (scatter_S100000x128_S100000x1_S100000x128_1_0_0_1.window j 1 : Int)).toNat = (j 1).val
    rw [start_rows1, window_rows1]; simp

/-- A scatter-add of rows at the identity row indices adds the updates elementwise. -/
theorem scatter_add_rows (x u : FVec Ideal S100000x128 .f32) :
    Host.scatterAdd scatter_S100000x128_S100000x1_S100000x128_1_0_0_1 x
      (broadcastInDim S100000x1 ![0] bcast_S100000_S100000x1_0 (iotaInDim S100000 32 0)) u = addf x u := by
  funext i
  show Ideal.hostScatterAdd scatter_S100000x128_S100000x1_S100000x128_1_0_0_1 x iotaCol u i = x i + u i
  unfold Ideal.hostScatterAdd
  simp only [res_rows, Option.some.injEq]
  rw [Finset.filter_eq' Finset.univ i, if_pos (Finset.mem_univ i), Finset.sum_singleton]

/-- A gather of a vector at the identity indices is the vector. -/
theorem gather_vec (x : FVec Ideal S100000 .f32) :
    Host.gather gather_S100000_S100000x1_S100000_n_0_n_n_0_1_1 x
      (broadcastInDim S100000x1 ![0] bcast_S100000_S100000x1_0 (iotaInDim S100000 32 0)) = x := by
  funext j
  unfold Host.gather
  congr 1
  funext a
  obtain rfl : a = 0 := Subsingleton.elim _ _
  refine Fin.ext ?_
  show gather_S100000_S100000x1_S100000_n_0_n_n_0_1_1.start j iotaCol 0
      + gather_S100000_S100000x1_S100000_n_0_n_n_0_1_1.batchCoord j 0
      + gather_S100000_S100000x1_S100000_n_0_n_n_0_1_1.offCoord j 0 = (j 0).val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S100000x1_S100000_n_0_n_n_0_1_1.startIndexMap from List.mem_singleton.mpr rfl)]
  rw [iotaCol_apply]
  have h : (gather_S100000_S100000x1_S100000_n_0_n_n_0_1_1.siIdx j ⟨List.idxOf (0 : Fin 1) gather_S100000_S100000x1_S100000_n_0_n_n_0_1_1.startIndexMap,
      List.idxOf_lt_length_iff.2 (List.mem_singleton.mpr rfl)⟩ 0).val = (j 0).val := rfl
  rw [h, toInt_ofNat_lt _ (j 0).isLt]
  have h0 : (j 0).val < 100000 := (j 0).isLt
  show min ((j 0).val : Int).toNat (100000 - 1) = (j 0).val
  simp only [Int.toNat_natCast]
  omega

/-- No identity index is negative as a signed word. -/
theorem slt_zero_eq (n : Nat) (h : n < 100000) : IntOp.cmpi .slt (BitVec.ofNat 32 n) (0#32) = 0#1 := by
  unfold IntOp.cmpi
  show BitVec.ofBool ((BitVec.ofNat 32 n).slt 0#32) = 0#1
  have h1 : (BitVec.ofNat 32 n).slt 0#32 = false := by
    rw [BitVec.slt, toInt_ofNat_lt n h]
    simp
  rw [h1]; rfl

/-- The wrap-around of negative indices leaves the identity indices alone. -/
theorem wrap_iota :
    select (cmpi .slt (iotaInDim S100000 32 0) (broadcastInDim S100000 ![] bcast_S_S100000 (constantI S_ 32 0#32)))
      (addi (iotaInDim S100000 32 0) (broadcastInDim S100000 ![] bcast_S_S100000 (constantI S_ 32 100000#32)))
      (iotaInDim S100000 32 0) = iotaInDim S100000 32 0 := by
  funext i
  rw [ValueIdx.select_apply]
  have hc : cmpi .slt (iotaInDim S100000 32 0) (broadcastInDim S100000 ![] bcast_S_S100000 (constantI S_ 32 0#32)) i = 0#1 :=
    slt_zero_eq (i 0).val (i 0).isLt
  rw [hc, ValueIdx.select_zero]

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- Whether each identity index lies in `[0, n − 1]`, as the bounds check spells it. -/
abbrev inBounds : IVec S100000x1 1 :=
  andi (cmpi .sge iotaCol (broadcastInDim S100000x1 ![] bcast_S_S100000x1 (constantI S_ 32 0#32)))
    (cmpi .sle iotaCol (broadcastInDim S100000x1 ![0, 1] bcast_S1x1_S100000x1_0_1
      (broadcastInDim S1x1 ![1] bcast_S1_S1x1_1 (constantI S1 32 99999#32))))

/-- Every identity index lies in `[0, n − 1]`. -/
theorem inBounds_apply (k : S100000x1.Idx) : inBounds k = 1#1 := by
  show IntOp.andi (IntOp.cmpi .sge (BitVec.ofNat 32 (k 0).val) 0#32)
    (IntOp.cmpi .sle (BitVec.ofNat 32 (k 0).val) (BitVec.ofNat 32 99999)) = 1#1
  have hk : (k 0).val < 100000 := (k 0).isLt
  rw [IntOp.andi_eq_one, IntOp.cmpi_sge, IntOp.cmpi_sle, toInt_ofNat_lt _ hk, toInt_ofNat_lt 99999 (by norm_num)]
  constructor
  · show (BitVec.ofNat 32 0).toInt ≤ _
    rw [toInt_ofNat_lt 0 (by norm_num)]; omega
  · omega

/-- The bounds mask per row: the `and` over each row's one index. -/
abbrev rowMask : IVec S100000 1 :=
  Host.reduce IntOp.andi inBounds (constantI S_ 1 1#1) reducesTo_S100000x1_S100000_d1 h_S_

/-- The bounds mask is true at every row. -/
theorem rowMask_apply (r : S100000.Idx) : rowMask r = 1#1 := by
  show Host.reduce IntOp.andi inBounds (constantI S_ 1 1#1) reducesTo_S100000x1_S100000_d1 h_S_ r = 1#1
  rw [Host.reduce_eq_foldl]
  exact foldl_andi_one _ _ _ rfl (fun n _ => inBounds_apply n)

/-- A gather of whole rows at the identity row indices is the array. -/
theorem gather_rows (x : FVec Ideal S100000x128 .f32) :
    Host.gather gather_S100000x128_S100000x1_S100000x128_1_0_n_n_0_1_1128 x
      (broadcastInDim S100000x1 ![0] bcast_S100000_S100000x1_0 (iotaInDim S100000 32 0)) = x := by
  funext j
  unfold Host.gather
  congr 1
  funext a
  refine Fin.ext ?_
  match a with
  | ⟨0, _⟩ =>
    show gather_S100000x128_S100000x1_S100000x128_1_0_n_n_0_1_1128.start j iotaCol 0
        + gather_S100000x128_S100000x1_S100000x128_1_0_n_n_0_1_1128.batchCoord j 0
        + gather_S100000x128_S100000x1_S100000x128_1_0_n_n_0_1_1128.offCoord j 0 = (j 0).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S100000x1_S100000x128_1_0_n_n_0_1_1128.startIndexMap from List.mem_singleton.mpr rfl)]
    rw [iotaCol_apply]
    have h : (gather_S100000x128_S100000x1_S100000x128_1_0_n_n_0_1_1128.siIdx j ⟨List.idxOf (0 : Fin 2) gather_S100000x128_S100000x1_S100000x128_1_0_n_n_0_1_1128.startIndexMap,
        List.idxOf_lt_length_iff.2 (List.mem_singleton.mpr rfl)⟩ 0).val = (j 0).val := rfl
    rw [h, toInt_ofNat_lt _ (j 0).isLt]
    have h0 : (j 0).val < 100000 := (j 0).isLt
    show min ((j 0).val : Int).toNat (100000 - 1) = (j 0).val
    simp only [Int.toNat_natCast]
    omega
  | ⟨1, _⟩ =>
    show gather_S100000x128_S100000x1_S100000x128_1_0_n_n_0_1_1128.start j iotaCol 1
        + gather_S100000x128_S100000x1_S100000x128_1_0_n_n_0_1_1128.batchCoord j 1
        + gather_S100000x128_S100000x1_S100000x128_1_0_n_n_0_1_1128.offCoord j 1 = (j 1).val
    rw [GatherDims.batchCoord_eq_zero _ _ _ List.not_mem_nil]
    have hs : gather_S100000x128_S100000x1_S100000x128_1_0_n_n_0_1_1128.start j iotaCol 1 = 0 := by
      unfold GatherDims.start
      rw [dif_neg]
      show (1 : Fin 2) ∉ [(0 : Fin 2)]
      decide
    have ho : gather_S100000x128_S100000x1_S100000x128_1_0_n_n_0_1_1128.offCoord j 1 = (j 1).val := by
      unfold GatherDims.offCoord
      have hm : (1 : Fin 2) ∈ gather_S100000x128_S100000x1_S100000x128_1_0_n_n_0_1_1128.sKept := by
        show (1 : Fin 2) ∈ Shape.kept S100000x128 ([0] ++ [])
        decide
      rw [dif_pos hm]
      rfl
    rw [hs, ho]
    omega

/-- The bounds-checked row lookup at the identity indices returns the array: the mask is true at every row, so the
    fill value is never read. -/
theorem take_rows (x : FVec Ideal S100000x128 .f32) :
    select
      (broadcastInDim S100000x128 ![0] bcast_S100000_S100000x128_0
        (Host.reduce IntOp.andi
          (andi
            (cmpi .sge (broadcastInDim S100000x1 ![0] bcast_S100000_S100000x1_0 (iotaInDim S100000 32 0))
              (broadcastInDim S100000x1 ![] bcast_S_S100000x1 (constantI S_ 32 0#32)))
            (cmpi .sle (broadcastInDim S100000x1 ![0] bcast_S100000_S100000x1_0 (iotaInDim S100000 32 0))
              (broadcastInDim S100000x1 ![0, 1] bcast_S1x1_S100000x1_0_1
                (broadcastInDim S1x1 ![1] bcast_S1_S1x1_1 (constantI S1 32 99999#32)))))
          (constantI S_ 1 1#1) reducesTo_S100000x1_S100000_d1 h_S_))
      (Host.gather gather_S100000x128_S100000x1_S100000x128_1_0_n_n_0_1_1128 x
        (broadcastInDim S100000x1 ![0] bcast_S100000_S100000x1_0 (iotaInDim S100000 32 0)))
      (broadcastInDim S100000x128 ![] bcast_S_S100000x128 (constant (F := Ideal) S_ .f32 0x7FC00000#32)) = x := by
  funext j
  rw [ValueIdx.select_apply]
  have hm : broadcastInDim S100000x128 ![0] bcast_S100000_S100000x128_0 rowMask j = 1#1 := rowMask_apply _
  rw [hm, ValueIdx.select_one, gather_rows]

/-- The 32-bit pattern `0x3F800000` denotes one. -/
theorem ofBits_one : Ideal.ofBits .f32 0x3F800000#32 = 1 := Ideal.ofBits_one_f32

/-- The 32-bit pattern `0x00000000` denotes zero. -/
theorem ofBits_zero : Ideal.ofBits .f32 0x00000000#32 = 0 := Ideal.ofBits_zero_f32

/-- The normalisation factor of the all-ones degree vector: `1 > 0`, and the reciprocal square root of one is one. -/
theorem ones_norm :
    select
      (cmpf .ogt (fun _ => (1 : EReal) : FVec Ideal S100000 .f32)
        (broadcastInDim S100000 ![] bcast_S_S100000 (constant (F := Ideal) S_ .f32 0x00000000#32)))
      (Host.rsqrt (fun _ => (1 : EReal) : FVec Ideal S100000 .f32))
      (broadcastInDim S100000 ![] bcast_S_S100000 (id (constant (F := Ideal) S_ .f32 0x00000000#32)))
      = (fun _ => (1 : EReal) : FVec Ideal S100000 .f32) := by
  funext i
  rw [ValueIdx.select_apply]
  have hc : cmpf .ogt (fun _ => (1 : EReal) : FVec Ideal S100000 .f32)
      (broadcastInDim S100000 ![] bcast_S_S100000 (constant (F := Ideal) S_ .f32 0x00000000#32)) i = 1#1 := by
    show Ideal.cmp .ogt (1 : EReal) (Ideal.ofBits .f32 0x00000000#32) = 1#1
    rw [Ideal.ofBits_zero_f32]
    unfold Ideal.cmp
    simp
  rw [hc, ValueIdx.select_one]
  show Ideal.rsqrt (((1 : ℝ) : EReal)) = 1
  rw [Ideal.rsqrt_coe]
  simp

end Cert.ReferenceIdeal.HostIdentity
end
-- ==== Proof.GraphIdentity.lean ====
/-
  The reference's two graph stages at identity indices, over the extended reals.

  A normalised graph convolution over the identity edge list: the degree of every node is one (a scatter-add of
  ones at `0 … n − 1`), its reciprocal square root is one, the edge weight is `1 · 1`, the looked-up rows are
  the rows themselves, and the scatter-add of the weighted rows into zeros returns them: `0 + (1 · 1) · m = m`.
  A mean pooling over the identity assignment: every count is one and the summed rows are the rows, `(0 + h) / 1 = h`.
  Both are spelt statement by statement as the reference states them.
-/
import proofs.«120503_g6854767805213_cont_sun_m_581_17_alg».proof.Proof.HostIdentity

noncomputable section

namespace Cert.ReferenceIdeal.GraphIdentity

open Cert.ReferenceIdeal Idealize.ShloMosaic Cert.ReferenceIdeal.HostIdentity

variable [Facts₀]
open Facts₀

/-- The all-ones vector. -/
abbrev onesVec : FVec Ideal S100000 .f32 := fun _ => (1 : EReal)

/-- The degree of every node under the identity edge list is one: zero plus the one update that lands there. -/
theorem deg_eq :
    Host.scatterAdd scatter_S100000_S100000x1_S100000_n_0_0_1
      (broadcastInDim S100000 ![] bcast_S_S100000 (constant (F := Ideal) S_ .f32 0x00000000#32))
      (broadcastInDim S100000x1 ![0] bcast_S100000_S100000x1_0 (iotaInDim S100000 32 0))
      (broadcastInDim S100000 ![] bcast_S_S100000 (constant (F := Ideal) S_ .f32 0x3F800000#32)) = onesVec := by
  rw [scatter_add_vec]
  funext i
  show Ideal.ofBits .f32 0x00000000#32 + Ideal.ofBits .f32 0x3F800000#32 = (1 : EReal)
  rw [ofBits_zero, ofBits_one, zero_add]

/-- The normalised graph convolution's aggregation of the rows `mrows`, statement by statement. -/
def convAgg (mrows : FVec Ideal S100000x128 .f32) : FVec Ideal S100000x128 .f32 :=
  have v5 : IVec S100000 32 := iotaInDim S100000 32 0
  have v6 : IVec S100000 32 := iotaInDim S100000 32 0
  have cst : FVec Ideal S_ .f32 := constant S_ .f32 0x3F800000#32
  have v9 : FVec Ideal S100000 .f32 := broadcastInDim S100000 ![] bcast_S_S100000 cst
  have cst_0 : FVec Ideal S_ .f32 := constant S_ .f32 0x00000000#32
  have v10 : FVec Ideal S100000 .f32 := broadcastInDim S100000 ![] bcast_S_S100000 cst_0
  have v11 : IVec S100000x1 32 := broadcastInDim S100000x1 ![0] bcast_S100000_S100000x1_0 v6
  have v12 : FVec Ideal S100000 .f32 := Host.scatterAdd scatter_S100000_S100000x1_S100000_n_0_0_1 v10 v11 v9
  have cst_1 : FVec Ideal S_ .f32 := constant S_ .f32 0x00000000#32
  have v13 : FVec Ideal S100000 .f32 := broadcastInDim S100000 ![] bcast_S_S100000 cst_1
  have v14 : IVec S100000 1 := cmpf .ogt v12 v13
  have v15 : FVec Ideal S100000 .f32 := Host.rsqrt v12
  have cst_2 : FVec Ideal S_ .f32 := constant S_ .f32 0x00000000#32
  have call0_v0 : FVec Ideal S_ .f32 := id cst_2
  have call0_v1 : FVec Ideal S100000 .f32 := broadcastInDim S100000 ![] bcast_S_S100000 call0_v0
  have v16 : FVec Ideal S100000 .f32 := select v14 v15 call0_v1
  have c : IVec S_ 32 := constantI S_ 32 0#32
  have v17 : IVec S100000 32 := broadcastInDim S100000 ![] bcast_S_S100000 c
  have v18 : IVec S100000 1 := cmpi .slt v5 v17
  have c_3 : IVec S_ 32 := constantI S_ 32 100000#32
  have v19 : IVec S100000 32 := broadcastInDim S100000 ![] bcast_S_S100000 c_3
  have v20 : IVec S100000 32 := addi v5 v19
  have v21 : IVec S100000 32 := select v18 v20 v5
  have v22 : IVec S100000x1 32 := broadcastInDim S100000x1 ![0] bcast_S100000_S100000x1_0 v21
  have v23 : FVec Ideal S100000 .f32 := Host.gather gather_S100000_S100000x1_S100000_n_0_n_n_0_1_1 v16 v22
  have c_4 : IVec S_ 32 := constantI S_ 32 0#32
  have v24 : IVec S100000 32 := broadcastInDim S100000 ![] bcast_S_S100000 c_4
  have v25 : IVec S100000 1 := cmpi .slt v6 v24
  have c_5 : IVec S_ 32 := constantI S_ 32 100000#32
  have v26 : IVec S100000 32 := broadcastInDim S100000 ![] bcast_S_S100000 c_5
  have v27 : IVec S100000 32 := addi v6 v26
  have v28 : IVec S100000 32 := select v25 v27 v6
  have v29 : IVec S100000x1 32 := broadcastInDim S100000x1 ![0] bcast_S100000_S100000x1_0 v28
  have v30 : FVec Ideal S100000 .f32 := Host.gather gather_S100000_S100000x1_S100000_n_0_n_n_0_1_1 v16 v29
  have v31 : FVec Ideal S100000 .f32 := mulf v23 v30
  have v32 : FVec Ideal S100000x1 .f32 := broadcastInDim S100000x1 ![0] bcast_S100000_S100000x1_0 v31
  have call1_c : IVec S_ 32 := constantI S_ 32 0#32
  have call1_v0 : IVec S100000 32 := broadcastInDim S100000 ![] bcast_S_S100000 call1_c
  have call1_v1 : IVec S100000 1 := cmpi .slt v5 call1_v0
  have call1_c_0 : IVec S_ 32 := constantI S_ 32 100000#32
  have call1_v2 : IVec S100000 32 := broadcastInDim S100000 ![] bcast_S_S100000 call1_c_0
  have call1_v3 : IVec S100000 32 := addi v5 call1_v2
  have call1_v4 : IVec S100000 32 := select call1_v1 call1_v3 v5
  have call1_v5 : IVec S100000x1 32 := broadcastInDim S100000x1 ![0] bcast_S100000_S100000x1_0 call1_v4
  have call1_c_1 : IVec S1 32 := constantI S1 32 99999#32
  have call1_c_2 : IVec S_ 32 := constantI S_ 32 0#32
  have call1_v6 : IVec S100000x1 32 := broadcastInDim S100000x1 ![] bcast_S_S100000x1 call1_c_2
  have call1_v7 : IVec S100000x1 1 := cmpi .sge call1_v5 call1_v6
  have call1_v8 : IVec S1x1 32 := broadcastInDim S1x1 ![1] bcast_S1_S1x1_1 call1_c_1
  have call1_v9 : IVec S100000x1 32 := broadcastInDim S100000x1 ![0, 1] bcast_S1x1_S100000x1_0_1 call1_v8
  have call1_v10 : IVec S100000x1 1 := cmpi .sle call1_v5 call1_v9
  have call1_v11 : IVec S100000x1 1 := andi call1_v7 call1_v10
  have call1_c_3 : IVec S_ 1 := constantI S_ 1 1#1
  have call1_v12 : IVec S100000 1 := Host.reduce IntOp.andi call1_v11 call1_c_3 reducesTo_S100000x1_S100000_d1 h_S_
  have call1_v13 : FVec Ideal S100000x128 .f32 := Host.gather gather_S100000x128_S100000x1_S100000x128_1_0_n_n_0_1_1128 mrows call1_v5
  have call1_v14 : IVec S100000x128 1 := broadcastInDim S100000x128 ![0] bcast_S100000_S100000x128_0 call1_v12
  have call1_cst : FVec Ideal S_ .f32 := constant S_ .f32 0x7FC00000#32
  have call1_v15 : FVec Ideal S100000x128 .f32 := broadcastInDim S100000x128 ![] bcast_S_S100000x128 call1_cst
  have v33 : FVec Ideal S100000x128 .f32 := select call1_v14 call1_v13 call1_v15
  have v34 : FVec Ideal S100000x128 .f32 := broadcastInDim S100000x128 ![0, 1] bcast_S100000x1_S100000x128_0_1 v32
  have v35 : FVec Ideal S100000x128 .f32 := mulf v34 v33
  have cst_6 : FVec Ideal S_ .f32 := constant S_ .f32 0x00000000#32
  have v36 : FVec Ideal S100000x128 .f32 := broadcastInDim S100000x128 ![] bcast_S_S100000x128 cst_6
  have v37 : IVec S100000x1 32 := broadcastInDim S100000x1 ![0] bcast_S100000_S100000x1_0 v6
  have v38 : FVec Ideal S100000x128 .f32 := Host.scatterAdd scatter_S100000x128_S100000x1_S100000x128_1_0_0_1 v36 v37 v35
  v38

/-- The aggregation over the identity edge list returns the rows. -/
theorem convAgg_eq (mrows : FVec Ideal S100000x128 .f32) : convAgg mrows = mrows := by
  unfold convAgg
  dsimp only
  rw [wrap_iota, deg_eq, ones_norm, gather_vec, take_rows, scatter_add_rows]
  funext j
  show Ideal.ofBits .f32 0x00000000#32 + ((1 : EReal) * 1) * mrows j = mrows j
  rw [ofBits_zero, zero_add, one_mul, one_mul]

/-- The mean pooling of the rows `h` over the identity assignment, statement by statement. -/
def poolAgg (h : FVec Ideal S100000x128 .f32) : FVec Ideal S100000x128 .f32 :=
  have v79 : IVec S100000 32 := iotaInDim S100000 32 0
  have cst_16 : FVec Ideal S_ .f32 := constant S_ .f32 0x3F800000#32
  have v80 : FVec Ideal S100000 .f32 := broadcastInDim S100000 ![] bcast_S_S100000 cst_16
  have cst_17 : FVec Ideal S_ .f32 := constant S_ .f32 0x00000000#32
  have v81 : FVec Ideal S100000 .f32 := broadcastInDim S100000 ![] bcast_S_S100000 cst_17
  have v82 : IVec S100000x1 32 := broadcastInDim S100000x1 ![0] bcast_S100000_S100000x1_0 v79
  have v83 : FVec Ideal S100000 .f32 := Host.scatterAdd scatter_S100000_S100000x1_S100000_n_0_0_1 v81 v82 v80
  have cst_18 : FVec Ideal S_ .f32 := constant S_ .f32 0x00000000#32
  have v84 : FVec Ideal S100000x128 .f32 := broadcastInDim S100000x128 ![] bcast_S_S100000x128 cst_18
  have v85 : IVec S100000x1 32 := broadcastInDim S100000x1 ![0] bcast_S100000_S100000x1_0 v79
  have v86 : FVec Ideal S100000x128 .f32 := Host.scatterAdd scatter_S100000x128_S100000x1_S100000x128_1_0_0_1 v84 v85 h
  have v87 : FVec Ideal S100000x1 .f32 := broadcastInDim S100000x1 ![0] bcast_S100000_S100000x1_0 v83
  have v88 : FVec Ideal S100000x128 .f32 := broadcastInDim S100000x128 ![0, 1] bcast_S100000x1_S100000x128_0_1 v87
  have v89 : FVec Ideal S100000x128 .f32 := Host.divf v86 v88
  v89

/-- The mean over the identity assignment returns the rows. -/
theorem poolAgg_eq (h : FVec Ideal S100000x128 .f32) : poolAgg h = h := by
  unfold poolAgg
  dsimp only
  rw [deg_eq, scatter_add_rows]
  funext j
  show Ideal.div (Ideal.ofBits .f32 0x00000000#32 + h j) (1 : EReal) = h j
  rw [ofBits_zero, zero_add]
  unfold Ideal.div
  rw [if_neg one_ne_zero, inv_one, mul_one]

end Cert.ReferenceIdeal.GraphIdentity
end
-- ==== Proof.RefArith.lean ====
/-
  The reference's arithmetic stages, each read at one entry over the extended reals.

  A matrix product on the host is the plain sum, over the contracted coordinate, of the products of the
  operands' entries; a transposed matrix reads the operand at the swapped entry; a vector broadcast along
  the rows reads the vector's entry; a scalar broadcast reads the scalar; a reduction over the lanes of a
  row is the sum over the lane coordinate.  Put together: the input map is `affine` of the row, a layer
  whose aggregation is the identity is `layer` of the row, and the normalising tail is `refHead` of the row.
-/
import proofs.«120503_g6854767805213_cont_sun_m_581_17_alg».proof.Proof.Gen.ReferenceIdeal
import proofs.«120503_g6854767805213_cont_sun_m_581_17_alg».proof.Proof.NormHead
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefArith

open Cert.ReferenceIdeal Idealize.ShloMosaic Idealize.ShloMosaic.ValueIdx Cert.NormHead
open Idealize.ShloMosaic.Pipeline

variable [Facts₀]
open Facts₀

/-! ## Layout steps read at an index -/

/-- A vector set as a one-row matrix: entry (u, c) is entry c. -/
theorem row_of_vec_apply {b : ℕ} {α : Type} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix repeated along the rows: entry (p, c) is the row's entry c. -/
theorem row_bcast_apply {a b : ℕ} {α : Type} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector set as a column: entry (p, u) is entry p. -/
theorem col_of_vec_apply {a : ℕ} {α : Type} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column repeated along the lanes: entry (p, c) is the column's entry p. -/
theorem col_bcast_apply {a b : ℕ} {α : Type} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar repeated over a whole array reads the scalar. -/
theorem scalar_bcast_apply {t : Shape} {α : Type} (v : S_.Idx → α)
    (h : S_.BroadcastsInDim t (![] : Fin 0 → Fin t.rank)) (j : t.Idx) :
    broadcastInDim t ![] h v j = v ix0 :=
  broadcastInDim_apply _ h v j ix0 fun ax => ax.elim0

/-- The scalar constant reads the extended real its pattern denotes. -/
theorem constant_apply (b : BitVec 32) (i : S_.Idx) : constant (F := Ideal) S_ .f32 b i = Ideal.ofBits .f32 b := rfl

/-! ## The two matrix products -/

theorem hid_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.2 rfl)]
  rfl
theorem hid_lhs1 (i : S100000x128.Idx) (q : dot_S100000x128_S128x128_S100000x128_1_0_0_1_n_n.contr.Idx) :
    (dot_S100000x128_S128x128_S100000x128_1_0_0_1_n_n.lhsIdx i q 1).val = (q ⟨0, Nat.zero_lt_one⟩).val :=
  dot_S100000x128_S128x128_S100000x128_1_0_0_1_n_n.lhsIdx_val_of_single rfl i q
theorem hid_rhs0 (i : S100000x128.Idx) (q : dot_S100000x128_S128x128_S100000x128_1_0_0_1_n_n.contr.Idx) :
    (dot_S100000x128_S128x128_S100000x128_1_0_0_1_n_n.rhsIdx i q 0).val = (q ⟨0, Nat.zero_lt_one⟩).val :=
  dot_S100000x128_S128x128_S100000x128_1_0_0_1_n_n.rhsIdx_val_of_single rfl i q
theorem hid_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.2 rfl)]
  rfl

/-- Rows against a square matrix: entry (p, q) is the sum over k of A (p, k) · B (k, q). -/
theorem rows_mul_square (A : FVec Ideal S100000x128 .f32) (B : FVec Ideal S128x128 .f32) (p : Fin 100000) (q : Fin 128) :
    Host.dotGeneral (F := Ideal) dot_S100000x128_S128x128_S100000x128_1_0_0_1_n_n none A B (ix2 p q) = ∑ k : Fin 128, A (ix2 p k) * B (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact hid_lhs0 _ _
    | ⟨1, _⟩ => exact (hid_lhs1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (hid_rhs0 _ _).trans hk
    | ⟨1, _⟩ => exact hid_rhs1 _ _)
  rw [el, er]

theorem proj_lhs0 (i : S100000x2.Idx) (q : dot_S100000x128_S128x2_S100000x2_1_0_0_1_n_n.contr.Idx) :
    (dot_S100000x128_S128x2_S100000x2_1_0_0_1_n_n.lhsIdx i q 0).val = (i 0).val := by
  unfold DotDims.lhsIdx
  rw [dif_neg (show ¬(0 : Fin S100000x128.rank) ∈ dot_S100000x128_S128x2_S100000x2_1_0_0_1_n_n.lhsBatch from List.not_mem_nil),
    dif_pos (show (0 : Fin S100000x128.rank) ∈ dot_S100000x128_S128x2_S100000x2_1_0_0_1_n_n.lhsNonContracting from List.mem_singleton.2 rfl)]
  rfl
theorem proj_lhs1 (i : S100000x2.Idx) (q : dot_S100000x128_S128x2_S100000x2_1_0_0_1_n_n.contr.Idx) :
    (dot_S100000x128_S128x2_S100000x2_1_0_0_1_n_n.lhsIdx i q 1).val = (q ⟨0, Nat.zero_lt_one⟩).val :=
  dot_S100000x128_S128x2_S100000x2_1_0_0_1_n_n.lhsIdx_val_of_single rfl i q
theorem proj_rhs0 (i : S100000x2.Idx) (q : dot_S100000x128_S128x2_S100000x2_1_0_0_1_n_n.contr.Idx) :
    (dot_S100000x128_S128x2_S100000x2_1_0_0_1_n_n.rhsIdx i q 0).val = (q ⟨0, Nat.zero_lt_one⟩).val :=
  dot_S100000x128_S128x2_S100000x2_1_0_0_1_n_n.rhsIdx_val_of_single rfl i q
theorem proj_rhs1 (i : S100000x2.Idx) (q : dot_S100000x128_S128x2_S100000x2_1_0_0_1_n_n.contr.Idx) :
    (dot_S100000x128_S128x2_S100000x2_1_0_0_1_n_n.rhsIdx i q 1).val = (i 1).val := by
  unfold DotDims.rhsIdx
  rw [dif_neg (show ¬(1 : Fin S128x2.rank) ∈ dot_S100000x128_S128x2_S100000x2_1_0_0_1_n_n.rhsBatch from List.not_mem_nil),
    dif_pos (show (1 : Fin S128x2.rank) ∈ dot_S100000x128_S128x2_S100000x2_1_0_0_1_n_n.rhsNonContracting from List.mem_singleton.2 rfl)]
  rfl

/-- Rows against a two-column matrix: entry (p, q) is the sum over k of A (p, k) · B (k, q). -/
theorem rows_mul_two_cols (A : FVec Ideal S100000x128 .f32) (B : FVec Ideal S128x2 .f32) (p : Fin 100000) (q : Fin 2) :
    Host.dotGeneral (F := Ideal) dot_S100000x128_S128x2_S100000x2_1_0_0_1_n_n none A B (ix2 p q) = ∑ k : Fin 128, A (ix2 p k) * B (ix2 k q) := by
  simp only [Host.dotGeneral]
  rw [Ideal.dotGeneral_apply, ← Equiv.sum_comp (contrEquiv1 dot_S100000x128_S128x2_S100000x2_1_0_0_1_n_n 128 rfl rfl).symm]
  refine Finset.sum_congr rfl fun k _ => ?_
  have hk := contrEquiv1_symm_val dot_S100000x128_S128x2_S100000x2_1_0_0_1_n_n 128 rfl rfl k
  have el : dot_S100000x128_S128x2_S100000x2_1_0_0_1_n_n.lhsIdx (ix2 p q) ((contrEquiv1 dot_S100000x128_S128x2_S100000x2_1_0_0_1_n_n 128 rfl rfl).symm k) = ix2 p k := funext fun a => Fin.ext (by
    match a with
    | ⟨0, _⟩ => exact proj_lhs0 _ _
    | ⟨1, _⟩ => exact (proj_lhs1 _ _).trans hk)
  have er : dot_S100000x128_S128x2_S100000x2_1_0_0_1_n_n.rhsIdx (ix2 p q) ((contrEquiv1 dot_S100000x128_S128x2_S100000x2_1_0_0_1_n_n 128 rfl rfl).symm k) = ix2 k q := funext fun a => Fin.ext (by
    match a with
    | ⟨0, _⟩ => exact (proj_rhs0 _ _).trans hk
    | ⟨1, _⟩ => exact proj_rhs1 _ _)
  rw [el, er]

/-! ## The input map and a layer -/

/-- A vector added to every row, as the reference spells it. -/
abbrev bias2 (b : FVec Ideal S128 .f32) : FVec Ideal S100000x128 .f32 :=
  broadcastInDim S100000x128 ![0, 1] bcast_S1x128_S100000x128_0_1 (broadcastInDim S1x128 ![1] bcast_S128_S1x128_1 b)

theorem bias2_apply (b : FVec Ideal S128 .f32) (n : Fin 100000) (k : Fin 128) : bias2 b (ix2 n k) = b (ix1 k) := by
  show broadcastInDim S100000x128 ![0, 1] bcast_S1x128_S100000x128_0_1 (broadcastInDim S1x128 ![1] bcast_S128_S1x128_1 b) (ix2 n k) = _
  rw [row_bcast_apply, row_of_vec_apply]

/-- Rows times the transposed weights plus the shift: entry (n, k) is `affine` of row n at k. -/
theorem affine_at (x : FVec Ideal S100000x128 .f32) (W : FVec Ideal S128x128 .f32) (b : FVec Ideal S128 .f32)
    (n : Fin 100000) (k : Fin 128) :
    addf (F := Ideal) (Host.dotGeneral (F := Ideal) dot_S100000x128_S128x128_S100000x128_1_0_0_1_n_n none x
        (transpose S128x128 [1, 0] W transposes_S128x128_S128x128_1_0)) (bias2 b) (ix2 n k)
      = affine (fun a i => W (ix2 a i)) (fun a => b (ix1 a)) (fun i => x (ix2 n i)) k := by
  show Host.dotGeneral (F := Ideal) dot_S100000x128_S128x128_S100000x128_1_0_0_1_n_n none x
        (transpose S128x128 [1, 0] W transposes_S128x128_S128x128_1_0) (ix2 n k) + bias2 b (ix2 n k) = _
  rw [rows_mul_square, bias2_apply]
  unfold affine
  refine congrArg (· + b (ix1 k)) (Finset.sum_congr rfl fun i _ => ?_)
  rw [transpose_ix2_apply]

/-- The same followed by the clamp at zero: entry (n, j) is `layer` of row n at j. -/
theorem layer_at (h : FVec Ideal S100000x128 .f32) (W : FVec Ideal S128x128 .f32) (b : FVec Ideal S128 .f32)
    (n : Fin 100000) (j : Fin 128) :
    maximumf (F := Ideal) (addf (F := Ideal) (Host.dotGeneral (F := Ideal) dot_S100000x128_S128x128_S100000x128_1_0_0_1_n_n none h
        (transpose S128x128 [1, 0] W transposes_S128x128_S128x128_1_0)) (bias2 b))
        (broadcastInDim S100000x128 ![] bcast_S_S100000x128 (constant (F := Ideal) S_ .f32 0x00000000#32)) (ix2 n j)
      = layer (fun a i => W (ix2 a i)) (fun a => b (ix1 a)) (fun i => h (ix2 n i)) j := by
  show max (addf (F := Ideal) (Host.dotGeneral (F := Ideal) dot_S100000x128_S128x128_S100000x128_1_0_0_1_n_n none h
        (transpose S128x128 [1, 0] W transposes_S128x128_S128x128_1_0)) (bias2 b) (ix2 n j))
      (broadcastInDim S100000x128 ![] bcast_S_S100000x128 (constant (F := Ideal) S_ .f32 0x00000000#32) (ix2 n j)) = _
  rw [affine_at, scalar_bcast_apply, constant_apply, Ideal.ofBits_zero_f32]
  rfl

/-! ## Elementwise operations read at an index -/

theorem addf_apply {s : Shape} (x y : FVec Ideal s .f32) (i : s.Idx) : addf (F := Ideal) x y i = x i + y i := rfl
theorem subf_apply {s : Shape} (x y : FVec Ideal s .f32) (i : s.Idx) : subf (F := Ideal) x y i = x i - y i := rfl
theorem mulf_apply {s : Shape} (x y : FVec Ideal s .f32) (i : s.Idx) : mulf (F := Ideal) x y i = x i * y i := rfl
theorem hostDivf_apply {s : Shape} (x y : FVec Ideal s .f32) (i : s.Idx) :
    Host.divf (F := Ideal) x y i = Ideal.div (x i) (y i) := rfl
theorem hostRsqrt_apply {s : Shape} (x : FVec Ideal s .f32) (i : s.Idx) :
    Host.rsqrt (F := Ideal) x i = Ideal.rsqrt (x i) := rfl

/-! ## The normalising tail -/

/-- The sum over the 128 lanes of a row, started from the constant 0. -/
theorem row_sum_at (H : FVec Ideal S100000x128 .f32) (n : Fin 100000) :
    Host.reduceAdd (F := Ideal) H (constant (F := Ideal) S_ .f32 0x00000000#32) reducesTo_S100000x128_S100000_d1 h_S_ (ix1 n)
      = ∑ k : Fin 128, H (ix2 n k) := by
  unfold Host.reduceAdd
  rw [Ideal.hostReduceAdd_def]
  refine (Ideal.hostReduceAdd_single reducesTo_S100000x128_S100000_d1 (by decide : S100000x128.Reduces [1] S100000) H _ (ix1 n)).trans ?_
  show Ideal.ofBits .f32 0x00000000#32 + _ = _
  rw [Ideal.ofBits_zero_f32, zero_add]
  refine Finset.sum_congr rfl fun k _ => congrArg H ?_
  funext a; apply Fin.ext
  match a with
  | ⟨0, _⟩ => rfl
  | ⟨1, _⟩ => rfl

/-- The column of lane sums divided by the broadcast width `128.0`. -/
abbrev meanCol (H : FVec Ideal S100000x128 .f32) : FVec Ideal S100000x1 .f32 :=
  Host.divf (F := Ideal)
    (broadcastInDim S100000x1 ![0] bcast_S100000_S100000x1_0
      (Host.reduceAdd (F := Ideal) H (constant (F := Ideal) S_ .f32 0x00000000#32) reducesTo_S100000x128_S100000_d1 h_S_))
    (broadcastInDim S100000x1 ![] bcast_S_S100000x1 (constant (F := Ideal) S_ .f32 0x43000000#32))

theorem meanCol_apply (H : FVec Ideal S100000x128 .f32) (n : Fin 100000) (u : Fin 1) :
    meanCol H (ix2 n u) = Ideal.div (∑ k : Fin 128, H (ix2 n k)) (Ideal.ofBits .f32 0x43000000#32) := by
  show Ideal.div
      (broadcastInDim S100000x1 ![0] bcast_S100000_S100000x1_0
        (Host.reduceAdd (F := Ideal) H (constant (F := Ideal) S_ .f32 0x00000000#32) reducesTo_S100000x128_S100000_d1 h_S_) (ix2 n u))
      (broadcastInDim S100000x1 ![] bcast_S_S100000x1 (constant (F := Ideal) S_ .f32 0x43000000#32) (ix2 n u)) = _
  rw [col_of_vec_apply, row_sum_at, scalar_bcast_apply, constant_apply]

/-- The rows centred at their means. -/
abbrev centred (P : FVec Ideal S100000x128 .f32) : FVec Ideal S100000x128 .f32 :=
  subf (F := Ideal) P (broadcastInDim S100000x128 ![0, 1] bcast_S100000x1_S100000x128_0_1 (meanCol P))

theorem centred_apply (P : FVec Ideal S100000x128 .f32) (n : Fin 100000) (j : Fin 128) :
    centred P (ix2 n j)
      = P (ix2 n j) - Ideal.div (∑ k : Fin 128, P (ix2 n k)) (Ideal.ofBits .f32 0x43000000#32) := by
  show P (ix2 n j) - broadcastInDim S100000x128 ![0, 1] bcast_S100000x1_S100000x128_0_1 (meanCol P) (ix2 n j) = _
  rw [col_bcast_apply, meanCol_apply]

/-- The column of reciprocal square roots of variance plus the small constant. -/
abbrev rsCol (P : FVec Ideal S100000x128 .f32) : FVec Ideal S100000x1 .f32 :=
  Host.rsqrt (F := Ideal) (addf (F := Ideal) (meanCol (mulf (F := Ideal) (centred P) (centred P)))
    (broadcastInDim S100000x1 ![] bcast_S_S100000x1 (constant (F := Ideal) S_ .f32 0x3727C5AC#32)))

theorem rsCol_apply (P : FVec Ideal S100000x128 .f32) (n : Fin 100000) (u : Fin 1) :
    rsCol P (ix2 n u)
      = Ideal.rsqrt (Ideal.div (∑ j : Fin 128,
            (P (ix2 n j) - Ideal.div (∑ k : Fin 128, P (ix2 n k)) (Ideal.ofBits .f32 0x43000000#32))
              * (P (ix2 n j) - Ideal.div (∑ k : Fin 128, P (ix2 n k)) (Ideal.ofBits .f32 0x43000000#32)))
          (Ideal.ofBits .f32 0x43000000#32) + Ideal.ofBits .f32 0x3727C5AC#32) := by
  show Ideal.rsqrt (meanCol (mulf (F := Ideal) (centred P) (centred P)) (ix2 n u)
      + broadcastInDim S100000x1 ![] bcast_S_S100000x1 (constant (F := Ideal) S_ .f32 0x3727C5AC#32) (ix2 n u)) = _
  rw [meanCol_apply, scalar_bcast_apply, constant_apply]
  refine congrArg (fun t => Ideal.rsqrt (Ideal.div t _ + _)) (Finset.sum_congr rfl fun j _ => ?_)
  show centred P (ix2 n j) * centred P (ix2 n j) = _
  rw [centred_apply]

/-- The normalising tail of the reference: its operations on the pooled rows `P`, in order. -/
def head (P : FVec Ideal S100000x128 .f32) (gam bet : FVec Ideal S128 .f32) (Wout : FVec Ideal S2x128 .f32)
    (bout : FVec Ideal S2 .f32) : FVec Ideal S100000x2 .f32 :=
  let cst_19 : FVec Ideal S_ .f32 := constant (F := Ideal) S_ .f32 0x00000000#32
  let v90 : FVec Ideal S100000 .f32 := Host.reduceAdd (F := Ideal) P cst_19 reducesTo_S100000x128_S100000_d1 h_S_
  let v91 : FVec Ideal S100000x1 .f32 := broadcastInDim S100000x1 ![0] bcast_S100000_S100000x1_0 v90
  let cst_20 : FVec Ideal S_ .f32 := constant (F := Ideal) S_ .f32 0x43000000#32
  let v92 : FVec Ideal S100000x1 .f32 := broadcastInDim S100000x1 ![] bcast_S_S100000x1 cst_20
  let v93 : FVec Ideal S100000x1 .f32 := Host.divf (F := Ideal) v91 v92
  let v94 : FVec Ideal S100000x128 .f32 := broadcastInDim S100000x128 ![0, 1] bcast_S100000x1_S100000x128_0_1 v93
  let v95 : FVec Ideal S100000x128 .f32 := subf (F := Ideal) P v94
  let v96 : FVec Ideal S100000x128 .f32 := mulf (F := Ideal) v95 v95
  let cst_21 : FVec Ideal S_ .f32 := constant (F := Ideal) S_ .f32 0x00000000#32
  let v97 : FVec Ideal S100000 .f32 := Host.reduceAdd (F := Ideal) v96 cst_21 reducesTo_S100000x128_S100000_d1 h_S_
  let v98 : FVec Ideal S100000x1 .f32 := broadcastInDim S100000x1 ![0] bcast_S100000_S100000x1_0 v97
  let cst_22 : FVec Ideal S_ .f32 := constant (F := Ideal) S_ .f32 0x43000000#32
  let v99 : FVec Ideal S100000x1 .f32 := broadcastInDim S100000x1 ![] bcast_S_S100000x1 cst_22
  let v100 : FVec Ideal S100000x1 .f32 := Host.divf (F := Ideal) v98 v99
  let v101 : FVec Ideal S100000x128 .f32 := broadcastInDim S100000x128 ![0, 1] bcast_S100000x1_S100000x128_0_1 v93
  let v102 : FVec Ideal S100000x128 .f32 := subf (F := Ideal) P v101
  let cst_23 : FVec Ideal S_ .f32 := constant (F := Ideal) S_ .f32 0x3727C5AC#32
  let v103 : FVec Ideal S100000x1 .f32 := broadcastInDim S100000x1 ![] bcast_S_S100000x1 cst_23
  let v104 : FVec Ideal S100000x1 .f32 := addf (F := Ideal) v100 v103
  let v105 : FVec Ideal S100000x1 .f32 := Host.rsqrt (F := Ideal) v104
  let v106 : FVec Ideal S100000x128 .f32 := broadcastInDim S100000x128 ![0, 1] bcast_S100000x1_S100000x128_0_1 v105
  let v107 : FVec Ideal S100000x128 .f32 := mulf (F := Ideal) v102 v106
  let v108 : FVec Ideal S1x128 .f32 := broadcastInDim S1x128 ![1] bcast_S128_S1x128_1 gam
  let v109 : FVec Ideal S100000x128 .f32 := broadcastInDim S100000x128 ![0, 1] bcast_S1x128_S100000x128_0_1 v108
  let v110 : FVec Ideal S100000x128 .f32 := mulf (F := Ideal) v107 v109
  let v111 : FVec Ideal S1x128 .f32 := broadcastInDim S1x128 ![1] bcast_S128_S1x128_1 bet
  let v112 : FVec Ideal S100000x128 .f32 := broadcastInDim S100000x128 ![0, 1] bcast_S1x128_S100000x128_0_1 v111
  let v113 : FVec Ideal S100000x128 .f32 := addf (F := Ideal) v110 v112
  let v114 : FVec Ideal S128x2 .f32 := transpose S128x2 [1, 0] Wout transposes_S2x128_S128x2_1_0
  let v115 : FVec Ideal S100000x2 .f32 := Host.dotGeneral (F := Ideal) dot_S100000x128_S128x2_S100000x2_1_0_0_1_n_n none v113 v114
  let v116 : FVec Ideal S1x2 .f32 := broadcastInDim S1x2 ![1] bcast_S2_S1x2_1 bout
  let v117 : FVec Ideal S100000x2 .f32 := broadcastInDim S100000x2 ![0, 1] bcast_S1x2_S100000x2_0_1 v116
  addf (F := Ideal) v115 v117

/-- The rows normalised, scaled by the gain and shifted. -/
abbrev normed (P : FVec Ideal S100000x128 .f32) (gam bet : FVec Ideal S128 .f32) : FVec Ideal S100000x128 .f32 :=
  addf (F := Ideal)
    (mulf (F := Ideal)
      (mulf (F := Ideal) (centred P) (broadcastInDim S100000x128 ![0, 1] bcast_S100000x1_S100000x128_0_1 (rsCol P)))
      (bias2 gam))
    (bias2 bet)

/-- Entry (n, c) of the tail is `refHead` of row n of the pooled rows at c. -/
theorem head_at (P : FVec Ideal S100000x128 .f32) (gam bet : FVec Ideal S128 .f32) (Wout : FVec Ideal S2x128 .f32)
    (bout : FVec Ideal S2 .f32) (n : Fin 100000) (c : Fin 2) :
    head P gam bet Wout bout (ix2 n c)
      = refHead (Ideal.ofBits .f32 0x43000000#32) (Ideal.ofBits .f32 0x3727C5AC#32) (fun a => gam (ix1 a))
          (fun a => bet (ix1 a)) (fun a i => Wout (ix2 a i)) (fun a => bout (ix1 a)) (fun j => P (ix2 n j)) c := by
  show Host.dotGeneral (F := Ideal) dot_S100000x128_S128x2_S100000x2_1_0_0_1_n_n none (normed P gam bet)
        (transpose S128x2 [1, 0] Wout transposes_S2x128_S128x2_1_0) (ix2 n c)
      + broadcastInDim S100000x2 ![0, 1] bcast_S1x2_S100000x2_0_1 (broadcastInDim S1x2 ![1] bcast_S2_S1x2_1 bout) (ix2 n c) = _
  rw [rows_mul_two_cols, row_bcast_apply, row_of_vec_apply]
  simp only [refHead]
  refine congrArg (· + bout (ix1 c)) (Finset.sum_congr rfl fun j _ => ?_)
  rw [transpose_ix2_apply]
  show ((centred P (ix2 n j) * broadcastInDim S100000x128 ![0, 1] bcast_S100000x1_S100000x128_0_1 (rsCol P) (ix2 n j))
        * bias2 gam (ix2 n j) + bias2 bet (ix2 n j)) * Wout (ix2 c j) = _
  rw [col_bcast_apply, rsCol_apply, bias2_apply, bias2_apply, centred_apply]

/-! ## Stages that are the identity -/

/-- Over the extended reals division by one changes nothing. -/
theorem div_one (x : EReal) : Ideal.div x 1 = x := by
  unfold Ideal.div
  rw [if_neg one_ne_zero, inv_one, mul_one]

/-- Every index of a matrix is a pair of coordinates. -/
theorem exists_ix2 {a b : ℕ} (i : (⟨2, ![a, b]⟩ : Shape).Idx) : ∃ (p : Fin a) (q : Fin b), i = ix2 p q :=
  ⟨i 0, i 1, eq_ix2 i⟩

/-- Dividing every row by the all-ones count leaves the rows as they are. -/
theorem pooled_at (h : FVec Ideal S100000x128 .f32) :
    Host.divf (F := Ideal) h (broadcastInDim S100000x128 ![0, 1] bcast_S100000x1_S100000x128_0_1
      (broadcastInDim S100000x1 ![0] bcast_S100000_S100000x1_0 ((fun _ => (1 : EReal)) : FVec Ideal S100000 .f32))) = h := by
  funext i
  obtain ⟨n, k, rfl⟩ : ∃ (n : Fin 100000) (k : Fin 128), i = ix2 n k := exists_ix2 i
  show Ideal.div (h (ix2 n k)) (broadcastInDim S100000x128 ![0, 1] bcast_S100000x1_S100000x128_0_1
      (broadcastInDim S100000x1 ![0] bcast_S100000_S100000x1_0 ((fun _ => (1 : EReal)) : FVec Ideal S100000 .f32)) (ix2 n k)) = _
  rw [col_bcast_apply, col_of_vec_apply, div_one]

/-- Scaling every row by the edge weight `1 · 1` leaves the rows as they are. -/
theorem unit_scale (h : FVec Ideal S100000x128 .f32) :
    mulf (F := Ideal) (broadcastInDim S100000x128 ![0, 1] bcast_S100000x1_S100000x128_0_1
      (broadcastInDim S100000x1 ![0] bcast_S100000_S100000x1_0
        (mulf (F := Ideal) ((fun _ => (1 : EReal)) : FVec Ideal S100000 .f32) ((fun _ => (1 : EReal)) : FVec Ideal S100000 .f32)))) h = h := by
  funext i
  obtain ⟨n, k, rfl⟩ : ∃ (n : Fin 100000) (k : Fin 128), i = ix2 n k := exists_ix2 i
  show broadcastInDim S100000x128 ![0, 1] bcast_S100000x1_S100000x128_0_1
      (broadcastInDim S100000x1 ![0] bcast_S100000_S100000x1_0
        (mulf (F := Ideal) ((fun _ => (1 : EReal)) : FVec Ideal S100000 .f32) ((fun _ => (1 : EReal)) : FVec Ideal S100000 .f32))) (ix2 n k)
      * h (ix2 n k) = _
  rw [col_bcast_apply, col_of_vec_apply]
  show (1 : EReal) * 1 * h (ix2 n k) = _
  rw [one_mul, one_mul]

/-- Adding the rows to the all-zero array leaves the rows as they are. -/
theorem zero_add_rows (h : FVec Ideal S100000x128 .f32) :
    addf (F := Ideal) (broadcastInDim S100000x128 ![] bcast_S_S100000x128 (constant (F := Ideal) S_ .f32 0x00000000#32)) h = h := by
  funext i
  show broadcastInDim S100000x128 ![] bcast_S_S100000x128 (constant (F := Ideal) S_ .f32 0x00000000#32) i + h i = _
  rw [scalar_bcast_apply, constant_apply, Ideal.ofBits_zero_f32, zero_add]

end Cert.ReferenceIdeal.RefArith

end
-- ==== Proof.RefOut.lean ====
/-
  The reference's whole result array as one function of the eleven argument arrays: row by row, `refRow`
  of the input's row, with the weights and shifts read entry by entry.
-/
import proofs.«120503_g6854767805213_cont_sun_m_581_17_alg».proof.Proof.Gen.ReferenceIdeal
import proofs.«120503_g6854767805213_cont_sun_m_581_17_alg».proof.Proof.NormHead
import Idealize.ShloMosaic.Lib.ValueIdx

noncomputable section

namespace Cert.ReferenceIdeal.RefRead

open Cert.ReferenceIdeal Idealize.ShloMosaic Idealize.ShloMosaic.ValueIdx

/-- Entry i = (row, class) of the reference's result. -/
def refOut (X : FVec Ideal S100000x128 .f32) (Win : FVec Ideal S128x128 .f32) (bin : FVec Ideal S128 .f32) (Wg1 : FVec Ideal S128x128 .f32)
    (bg1 : FVec Ideal S128 .f32) (Wg2 : FVec Ideal S128x128 .f32) (bg2 gam bet : FVec Ideal S128 .f32) (Wout : FVec Ideal S2x128 .f32)
    (bout : FVec Ideal S2 .f32) : FVec Ideal S100000x2 .f32 :=
  fun i => Cert.NormHead.refRow (Ideal.ofBits .f32 0x43000000#32) (Ideal.ofBits .f32 0x3727C5AC#32)
    (fun a b => Win (ix2 a b)) (fun a b => Wg1 (ix2 a b)) (fun a b => Wg2 (ix2 a b))
    (fun a => bin (ix1 a)) (fun a => bg1 (ix1 a)) (fun a => bg2 (ix1 a)) (fun a => gam (ix1 a)) (fun a => bet (ix1 a))
    (fun a b => Wout (ix2 a b)) (fun a => bout (ix1 a)) (fun k => X (ix2 (i 0) k)) (i 1)

end Cert.ReferenceIdeal.RefRead

end
-- ==== Proof.RefRead.lean ====
/-
  The reference's run read back as one function of its arguments.

  Both graph stages are identities at the identity edge list and the identity assignment, so the reference's result
  is: the input map of every row, two affine-then-clamp layers, and the normalising head — `refRow` of the row.
  The run of the program leaves that array in the output buffer and the arguments as they were.
-/
import proofs.«120503_g6854767805213_cont_sun_m_581_17_alg».proof.Proof.RefStages
import proofs.«120503_g6854767805213_cont_sun_m_581_17_alg».proof.Proof.GraphIdentity
import proofs.«120503_g6854767805213_cont_sun_m_581_17_alg».proof.Proof.RefArith
import proofs.«120503_g6854767805213_cont_sun_m_581_17_alg».proof.Proof.RefOut

noncomputable section

namespace Cert.ReferenceIdeal.RefRead

open Cert.ReferenceIdeal Cert.ReferenceIdeal.Gen Idealize.ShloMosaic Idealize.ShloMosaic.ValueIdx Idealize.ShloMosaic.TcCoe
  Idealize.SL.Sem Idealize.ShloMosaic.StableHlo
open Cert.ReferenceIdeal.RefRun Cert.ReferenceIdeal.GraphIdentity Cert.ReferenceIdeal.RefArith Cert.NormHead

section Stages

variable (X : FVec Ideal S100000x128 .f32) (Win : FVec Ideal S128x128 .f32) (bin : FVec Ideal S128 .f32)
  (Wg1 : FVec Ideal S128x128 .f32) (bg1 : FVec Ideal S128 .f32) (Wg2 : FVec Ideal S128x128 .f32)
  (bg2 gam bet : FVec Ideal S128 .f32) (Wout : FVec Ideal S2x128 .f32) (bout : FVec Ideal S2 .f32)

/-- The first layer's aggregation returns its product. -/
theorem v38_eq : res_v38 (F := Ideal) X Win bin Wg1 = res_v8 (F := Ideal) X Win bin Wg1 :=
  convAgg_eq (res_v8 (F := Ideal) X Win bin Wg1)

/-- The second layer's aggregation returns its product. -/
theorem v74_eq : res_v74 (F := Ideal) X Win bin Wg1 bg1 Wg2 = res_v44 (F := Ideal) X Win bin Wg1 bg1 Wg2 :=
  convAgg_eq (res_v44 (F := Ideal) X Win bin Wg1 bg1 Wg2)

/-- The pooling returns the second layer's output. -/
theorem v89_eq : res_v89 (F := Ideal) X Win bin Wg1 bg1 Wg2 bg2 = res_v78 (F := Ideal) X Win bin Wg1 bg1 Wg2 bg2 :=
  poolAgg_eq (res_v78 (F := Ideal) X Win bin Wg1 bg1 Wg2 bg2)

/-- Entry (n, k) of the input map. -/
theorem v4_at (n : Fin 100000) (k : Fin 128) :
    res_v4 (F := Ideal) X Win bin (ix2 n k)
      = affine (fun a i => Win (ix2 a i)) (fun a => bin (ix1 a)) (fun i => X (ix2 n i)) k :=
  affine_at X Win bin n k

/-- Entry (n, j) of the first layer. -/
theorem v42_at (n : Fin 100000) (j : Fin 128) :
    res_v42 (F := Ideal) X Win bin Wg1 bg1 (ix2 n j)
      = layer (fun a i => Wg1 (ix2 a i)) (fun a => bg1 (ix1 a))
          (affine (fun a i => Win (ix2 a i)) (fun a => bin (ix1 a)) (fun i => X (ix2 n i))) j := by
  unfold res_v42
  rw [v38_eq]
  unfold res_v8
  refine (layer_at (res_v4 (F := Ideal) X Win bin) Wg1 bg1 n j).trans ?_
  exact congrArg (fun h => layer (fun a i => Wg1 (ix2 a i)) (fun a => bg1 (ix1 a)) h j) (funext fun i => v4_at X Win bin n i)

/-- Entry (n, j) of the second layer. -/
theorem v78_at (n : Fin 100000) (j : Fin 128) :
    res_v78 (F := Ideal) X Win bin Wg1 bg1 Wg2 bg2 (ix2 n j)
      = layer (fun a i => Wg2 (ix2 a i)) (fun a => bg2 (ix1 a))
          (layer (fun a i => Wg1 (ix2 a i)) (fun a => bg1 (ix1 a))
            (affine (fun a i => Win (ix2 a i)) (fun a => bin (ix1 a)) (fun i => X (ix2 n i)))) j := by
  unfold res_v78
  rw [v74_eq]
  unfold res_v44
  refine (layer_at (res_v42 (F := Ideal) X Win bin Wg1 bg1) Wg2 bg2 n j).trans ?_
  exact congrArg (fun h => layer (fun a i => Wg2 (ix2 a i)) (fun a => bg2 (ix1 a)) h j) (funext fun i => v42_at X Win bin Wg1 bg1 n i)

/-- The output is the normalising tail of the pooled rows. -/
theorem v118_head :
    res_v118 (F := Ideal) X Win bin Wg1 bg1 Wg2 bg2 gam bet Wout bout
      = head (res_v89 (F := Ideal) X Win bin Wg1 bg1 Wg2 bg2) gam bet Wout bout := rfl

/-- Entry (n, c) of the reference's result is `refRow` of input row n at c. -/
theorem res_at (n : Fin 100000) (c : Fin 2) :
    res_v118 (F := Ideal) X Win bin Wg1 bg1 Wg2 bg2 gam bet Wout bout (ix2 n c)
      = refOut X Win bin Wg1 bg1 Wg2 bg2 gam bet Wout bout (ix2 n c) := by
  rw [v118_head, head_at, v89_eq]
  unfold refOut refRow
  exact congrArg
    (fun h => refHead (Ideal.ofBits .f32 0x43000000#32) (Ideal.ofBits .f32 0x3727C5AC#32) (fun a => gam (ix1 a))
      (fun a => bet (ix1 a)) (fun a i => Wout (ix2 a i)) (fun a => bout (ix1 a)) h c)
    (funext fun j => v78_at X Win bin Wg1 bg1 Wg2 bg2 n j)

/-- The reference's result is `refRow` of the input's rows. -/
theorem res_eq_refOut :
    res_v118 (F := Ideal) X Win bin Wg1 bg1 Wg2 bg2 gam bet Wout bout
      = refOut X Win bin Wg1 bg1 Wg2 bg2 gam bet Wout bout := by
  refine funext fun (i : (⟨2, ![100000, 2]⟩ : Shape).Idx) => ?_
  rw [eq_ix2 i]
  exact res_at X Win bin Wg1 bg1 Wg2 bg2 gam bet Wout bout (i 0) (i 1)

end Stages

/-- At the compiled mesh, from any memory with zero counters: every weakly fair execution of the reference terminates
    with the output buffer at `refOut` of the arguments' launch contents and every argument as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v118).trans ((result_eq (launchContents m c)).trans (res_eq_refOut _ _ _ _ _ _ _ _ _ _ _)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c)),
        (h c main_arg6).trans (arg6_eq (launchContents m c)),
        (h c main_arg7).trans (arg7_eq (launchContents m c)),
        (h c main_arg8).trans (arg8_eq (launchContents m c)),
        (h c main_arg9).trans (arg9_eq (launchContents m c)),
        (h c main_arg10).trans (arg10_eq (launchContents m c))⟩)
    (run_main m ρ)

end Cert.ReferenceIdeal.RefRead
end
-- ==== Proof.NormHeadLaw.lean ====
/-
  The two spellings of one input row agree over the extended reals when every datum is a real number.

  Both programs are then real arithmetic carried through the coercion of the reals into the extended reals:
  the first two affine maps compose into one by distributing a finite sum, and the normalising head is
  rewritten through the row sums `s1 = ∑ h` and `s2 = ∑ h²`, using `128·s2 − s1² = 128² · variance`.
-/
import proofs.«120503_g6854767805213_cont_sun_m_581_17_alg».proof.Proof.NormHead

noncomputable section

namespace Cert.NormHead

open Idealize.ShloMosaic

/-! ### Coercion of finite sums and of the clamp at zero -/

/-- A finite sum of coerced reals is the coercion of the real sum. -/
theorem sum_coe {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The clamp at zero of a coerced real is the coercion of the real clamp. -/
theorem max_coe_zero (a : ℝ) : max ((a : ℝ) : EReal) 0 = ((max a 0 : ℝ) : EReal) := by
  rcases le_total a 0 with h | h
  · have h' : ((a : ℝ) : EReal) ≤ 0 := by exact_mod_cast h
    rw [max_eq_right h, max_eq_right h', EReal.coe_zero]
  · have h' : (0 : EReal) ≤ ((a : ℝ) : EReal) := by exact_mod_cast h
    rw [max_eq_left h, max_eq_left h']

/-! ### The real twins of the row maps -/

/-- The affine map over the reals. -/
def affineR (W : Fin 128 → Fin 128 → ℝ) (b : Fin 128 → ℝ) (h : Fin 128 → ℝ) (k : Fin 128) : ℝ :=
  (∑ i, h i * W k i) + b k

/-- The affine map followed by the clamp at zero, over the reals. -/
def layerR (W : Fin 128 → Fin 128 → ℝ) (b : Fin 128 → ℝ) (h : Fin 128 → ℝ) (j : Fin 128) : ℝ :=
  max (affineR W b h j) 0

/-- The folded weights over the reals. -/
def foldWR (Wg1 Win : Fin 128 → Fin 128 → ℝ) (j i : Fin 128) : ℝ :=
  ∑ k, Wg1 j k * Win k i

/-- The folded shift over the reals. -/
def foldBR (Wg1 : Fin 128 → Fin 128 → ℝ) (bin bg1 : Fin 128 → ℝ) (j : Fin 128) : ℝ :=
  (∑ k, bin k * Wg1 j k) + bg1 j

theorem affine_coe (W : Fin 128 → Fin 128 → ℝ) (b h : Fin 128 → ℝ) :
    affine (fun k i => ((W k i : ℝ) : EReal)) (fun k => ((b k : ℝ) : EReal)) (fun i => ((h i : ℝ) : EReal))
      = fun k => ((affineR W b h k : ℝ) : EReal) := by
  funext k
  simp only [affine, affineR, ← EReal.coe_mul, sum_coe, ← EReal.coe_add]

theorem layer_coe (W : Fin 128 → Fin 128 → ℝ) (b h : Fin 128 → ℝ) :
    layer (fun k i => ((W k i : ℝ) : EReal)) (fun k => ((b k : ℝ) : EReal)) (fun i => ((h i : ℝ) : EReal))
      = fun j => ((layerR W b h j : ℝ) : EReal) := by
  funext j
  simp only [layer, layerR, affine_coe, max_coe_zero]

theorem foldW_coe (Wg1 Win : Fin 128 → Fin 128 → ℝ) :
    foldW (fun k i => ((Wg1 k i : ℝ) : EReal)) (fun k i => ((Win k i : ℝ) : EReal))
      = fun j i => ((foldWR Wg1 Win j i : ℝ) : EReal) := by
  funext j i
  simp only [foldW, foldWR, ← EReal.coe_mul, sum_coe]

theorem foldB_coe (Wg1 : Fin 128 → Fin 128 → ℝ) (bin bg1 : Fin 128 → ℝ) :
    foldB (fun k i => ((Wg1 k i : ℝ) : EReal)) (fun k => ((bin k : ℝ) : EReal)) (fun k => ((bg1 k : ℝ) : EReal))
      = fun j => ((foldBR Wg1 bin bg1 j : ℝ) : EReal) := by
  funext j
  simp only [foldB, foldBR, ← EReal.coe_mul, sum_coe, ← EReal.coe_add]

/-- The first two affine maps compose into the folded one. -/
theorem affineR_fold (Win Wg1 : Fin 128 → Fin 128 → ℝ) (bin bg1 x : Fin 128 → ℝ) :
    affineR (foldWR Wg1 Win) (foldBR Wg1 bin bg1) x = affineR Wg1 bg1 (affineR Win bin x) := by
  funext j
  simp only [affineR, foldWR, foldBR]
  have h1 : ∑ i, x i * ∑ k, Wg1 j k * Win k i = ∑ k, (∑ i, x i * Win k i) * Wg1 j k := by
    simp only [Finset.mul_sum, Finset.sum_mul]
    rw [Finset.sum_comm]
    refine Finset.sum_congr rfl fun k _ => Finset.sum_congr rfl fun i _ => ?_
    ring
  have h2 : ∑ k, ((∑ i, x i * Win k i) + bin k) * Wg1 j k
      = (∑ k, (∑ i, x i * Win k i) * Wg1 j k) + ∑ k, bin k * Wg1 j k := by
    rw [← Finset.sum_add_distrib]
    refine Finset.sum_congr rfl fun k _ => ?_
    ring
  rw [h1, h2]
  ring

theorem layerR_fold (Win Wg1 : Fin 128 → Fin 128 → ℝ) (bin bg1 x : Fin 128 → ℝ) :
    layerR (foldWR Wg1 Win) (foldBR Wg1 bin bg1) x = layerR Wg1 bg1 (affineR Win bin x) := by
  funext j
  simp only [layerR, affineR_fold]

/-! ### The normalising head over the reals -/

/-- The row sum `s1 = ∑ h`. -/
def s1R (h : Fin 128 → ℝ) : ℝ := ∑ j, h j

/-- The row sum of squares `s2 = ∑ h²`. -/
def s2R (h : Fin 128 → ℝ) : ℝ := ∑ j, h j * h j

/-- The mean of the row. -/
def muR (h : Fin 128 → ℝ) : ℝ := s1R h * (1 / 128)

/-- The variance of the row. -/
def varR (h : Fin 128 → ℝ) : ℝ := (∑ j, (h j - muR h) * (h j - muR h)) * (1 / 128)

/-- The argument of the kernel's reciprocal square root, `128·s2 − (s1² − 16384·e)`. -/
def XR (e : ℝ) (h : Fin 128 → ℝ) : ℝ := 128 * s2R h - (s1R h * s1R h - 16384 * e)

/-- The reference head over the reals. -/
def refHeadR (e : ℝ) (gam bet : Fin 128 → ℝ) (Wout : Fin 2 → Fin 128 → ℝ) (bout : Fin 2 → ℝ)
    (h : Fin 128 → ℝ) (c : Fin 2) : ℝ :=
  (∑ j, (((h j - muR h) * (Real.sqrt (varR h + e))⁻¹) * gam j + bet j) * Wout c j) + bout c

/-- The kernel head over the reals. -/
def kerHeadR (e : ℝ) (gam bet : Fin 128 → ℝ) (Wout : Fin 2 → Fin 128 → ℝ) (bout : Fin 2 → ℝ)
    (h : Fin 128 → ℝ) (c : Fin 2) : ℝ :=
  ((∑ j, h j * (Wout c j * (128 * gam j))) - s1R h * (∑ j, Wout c j * gam j)) * (Real.sqrt (XR e h))⁻¹
    + ((∑ j, bet j * Wout c j) + bout c)

/-- The sum of squared deviations from the mean is `s2 − s1²/128`. -/
theorem sum_sq_dev (h : Fin 128 → ℝ) :
    ∑ j, (h j - muR h) * (h j - muR h) = s2R h - s1R h * s1R h * (1 / 128) := by
  have h1 : ∀ j, (h j - muR h) * (h j - muR h) = h j * h j - 2 * muR h * h j + muR h * muR h := fun j => by ring
  simp only [h1, Finset.sum_add_distrib, Finset.sum_sub_distrib, ← Finset.mul_sum, Finset.sum_const,
    Finset.card_univ, Fintype.card_fin, nsmul_eq_mul]
  simp only [muR, s1R, s2R]
  push_cast
  ring

/-- The variance plus `e` is `X / 128²`. -/
theorem var_add (e : ℝ) (h : Fin 128 → ℝ) : varR h + e = XR e h / 128 ^ 2 := by
  rw [varR, sum_sq_dev, XR]
  ring

/-- `128·s2 − s1²` is `128` times a sum of squares, so `X` is positive when `e` is. -/
theorem XR_pos {e : ℝ} (he : 0 < e) (h : Fin 128 → ℝ) : 0 < XR e h := by
  have h0 : 0 ≤ ∑ j, (h j - muR h) * (h j - muR h) := Finset.sum_nonneg fun j _ => mul_self_nonneg _
  rw [sum_sq_dev] at h0
  rw [XR]
  linarith

theorem var_add_pos {e : ℝ} (he : 0 < e) (h : Fin 128 → ℝ) : 0 < varR h + e := by
  rw [var_add]
  exact div_pos (XR_pos he h) (by norm_num)

/-- The reference's reciprocal square root is `128` times the kernel's. -/
theorem rsqrt_var {e : ℝ} (he : 0 < e) (h : Fin 128 → ℝ) :
    (Real.sqrt (varR h + e))⁻¹ = 128 * (Real.sqrt (XR e h))⁻¹ := by
  rw [var_add, Real.sqrt_div' _ (by positivity), Real.sqrt_sq (by norm_num), inv_div, div_eq_mul_inv]

/-- The two heads agree over the reals. -/
theorem refHeadR_eq_kerHeadR {e : ℝ} (he : 0 < e) (gam bet : Fin 128 → ℝ) (Wout : Fin 2 → Fin 128 → ℝ)
    (bout : Fin 2 → ℝ) (h : Fin 128 → ℝ) (c : Fin 2) :
    refHeadR e gam bet Wout bout h c = kerHeadR e gam bet Wout bout h c := by
  rw [refHeadR, kerHeadR, rsqrt_var he]
  have h1 : ∀ j, (((h j - muR h) * (128 * (Real.sqrt (XR e h))⁻¹)) * gam j + bet j) * Wout c j
      = (h j * (Wout c j * (128 * gam j))) * (Real.sqrt (XR e h))⁻¹
        - (s1R h * (Real.sqrt (XR e h))⁻¹) * (Wout c j * gam j) + bet j * Wout c j := fun j => by
    rw [muR]; ring
  simp only [h1, Finset.sum_add_distrib, Finset.sum_sub_distrib, ← Finset.mul_sum, ← Finset.sum_mul]
  ring

/-! ### The heads at coerced inputs -/

/-- The reciprocal square root of a positive coerced real. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

theorem mu_coe (h : Fin 128 → ℝ) :
    Ideal.div (∑ j, ((h j : ℝ) : EReal)) ((128 : ℝ) : EReal) = ((muR h : ℝ) : EReal) := by
  have h128 : (128 : ℝ) ≠ 0 := by norm_num
  rw [sum_coe, Ideal.div_coe h128, ← EReal.coe_mul]
  rfl

theorem var_coe (h : Fin 128 → ℝ) :
    Ideal.div (∑ j, (((h j : ℝ) : EReal) - ((muR h : ℝ) : EReal)) * (((h j : ℝ) : EReal) - ((muR h : ℝ) : EReal)))
      ((128 : ℝ) : EReal) = ((varR h : ℝ) : EReal) := by
  have h128 : (128 : ℝ) ≠ 0 := by norm_num
  simp only [← EReal.coe_sub, ← EReal.coe_mul, sum_coe]
  rw [Ideal.div_coe h128, ← EReal.coe_mul]
  rfl

theorem refHead_coe {e : ℝ} (he : 0 < e) (gam bet : Fin 128 → ℝ) (Wout : Fin 2 → Fin 128 → ℝ)
    (bout : Fin 2 → ℝ) (h : Fin 128 → ℝ) :
    refHead ((128 : ℝ) : EReal) ((e : ℝ) : EReal) (fun j => ((gam j : ℝ) : EReal)) (fun j => ((bet j : ℝ) : EReal))
        (fun c j => ((Wout c j : ℝ) : EReal)) (fun c => ((bout c : ℝ) : EReal)) (fun j => ((h j : ℝ) : EReal))
      = fun c => ((refHeadR e gam bet Wout bout h c : ℝ) : EReal) := by
  funext c
  simp only [refHead, mu_coe, var_coe]
  rw [← EReal.coe_add, rsqrt_coe_pos (var_add_pos he h)]
  simp only [← EReal.coe_sub, ← EReal.coe_mul, ← EReal.coe_add, sum_coe]
  rfl

theorem kerHead_coe {e : ℝ} (he : 0 < e) (gam bet : Fin 128 → ℝ) (Wout : Fin 2 → Fin 128 → ℝ)
    (bout : Fin 2 → ℝ) (h : Fin 128 → ℝ) :
    kerHead ((128 : ℝ) : EReal) ((16384 * e : ℝ) : EReal) (fun j => ((gam j : ℝ) : EReal))
        (fun j => ((bet j : ℝ) : EReal)) (fun c j => ((Wout c j : ℝ) : EReal)) (fun c => ((bout c : ℝ) : EReal))
        (fun j => ((h j : ℝ) : EReal))
      = fun c => ((kerHeadR e gam bet Wout bout h c : ℝ) : EReal) := by
  funext c
  simp only [kerHead, ← EReal.coe_mul, sum_coe, ← EReal.coe_sub]
  rw [rsqrt_coe_pos]
  · simp only [← EReal.coe_mul, ← EReal.coe_sub, ← EReal.coe_add]
    rfl
  · exact XR_pos he h

/-! ### The rows -/

/-- With every datum a real number, the kernel's row is the reference's row. -/
theorem kerRow_eq_refRow {e : ℝ} (he : 0 < e)
    (Win Wg1 Wg2 : Fin 128 → Fin 128 → EReal) (bin bg1 bg2 gam bet : Fin 128 → EReal)
    (Wout : Fin 2 → Fin 128 → EReal) (bout : Fin 2 → EReal) (xr : Fin 128 → EReal)
    (hWin : ∀ k i, ∃ r : ℝ, Win k i = (r : EReal)) (hWg1 : ∀ k i, ∃ r : ℝ, Wg1 k i = (r : EReal))
    (hWg2 : ∀ k i, ∃ r : ℝ, Wg2 k i = (r : EReal))
    (hbin : ∀ k, ∃ r : ℝ, bin k = (r : EReal)) (hbg1 : ∀ k, ∃ r : ℝ, bg1 k = (r : EReal))
    (hbg2 : ∀ k, ∃ r : ℝ, bg2 k = (r : EReal))
    (hgam : ∀ k, ∃ r : ℝ, gam k = (r : EReal)) (hbet : ∀ k, ∃ r : ℝ, bet k = (r : EReal))
    (hWout : ∀ c j, ∃ r : ℝ, Wout c j = (r : EReal)) (hbout : ∀ c, ∃ r : ℝ, bout c = (r : EReal))
    (hx : ∀ i, ∃ r : ℝ, xr i = (r : EReal)) :
    kerRow ((128 : ℝ) : EReal) ((16384 * e : ℝ) : EReal) Win Wg1 Wg2 bin bg1 bg2 gam bet Wout bout xr
      = refRow ((128 : ℝ) : EReal) (e : EReal) Win Wg1 Wg2 bin bg1 bg2 gam bet Wout bout xr := by
  choose Win' hWin using hWin
  choose Wg1' hWg1 using hWg1
  choose Wg2' hWg2 using hWg2
  choose bin' hbin using hbin
  choose bg1' hbg1 using hbg1
  choose bg2' hbg2 using hbg2
  choose gam' hgam using hgam
  choose bet' hbet using hbet
  choose Wout' hWout using hWout
  choose bout' hbout using hbout
  choose x' hx using hx
  obtain rfl : Win = fun k i => ((Win' k i : ℝ) : EReal) := funext fun k => funext fun i => hWin k i
  obtain rfl : Wg1 = fun k i => ((Wg1' k i : ℝ) : EReal) := funext fun k => funext fun i => hWg1 k i
  obtain rfl : Wg2 = fun k i => ((Wg2' k i : ℝ) : EReal) := funext fun k => funext fun i => hWg2 k i
  obtain rfl : bin = fun k => ((bin' k : ℝ) : EReal) := funext hbin
  obtain rfl : bg1 = fun k => ((bg1' k : ℝ) : EReal) := funext hbg1
  obtain rfl : bg2 = fun k => ((bg2' k : ℝ) : EReal) := funext hbg2
  obtain rfl : gam = fun k => ((gam' k : ℝ) : EReal) := funext hgam
  obtain rfl : bet = fun k => ((bet' k : ℝ) : EReal) := funext hbet
  obtain rfl : Wout = fun c j => ((Wout' c j : ℝ) : EReal) := funext fun c => funext fun j => hWout c j
  obtain rfl : bout = fun c => ((bout' c : ℝ) : EReal) := funext hbout
  obtain rfl : xr = fun i => ((x' i : ℝ) : EReal) := funext hx
  simp only [kerRow, refRow]
  rw [foldW_coe, foldB_coe, affine_coe, layer_coe, layer_coe, layer_coe, layer_coe, kerHead_coe he, refHead_coe he]
  funext c
  rw [refHeadR_eq_kerHeadR he, layerR_fold]

end Cert.NormHead

end
-- ==== Proof.Consts.lean ====
/-
  The float constants the two programs spell, as the extended reals their bit patterns denote.

  A 32-bit pattern with sign bit 0, exponent field `E` (neither 0 nor 255) and trailing significand `T`
  denotes the real `(2^23 + T) · 2^(E − 127 − 23)`.
-/
import Idealize.ShloMosaic.PureOps.Ideal

noncomputable section

namespace Cert.Consts

open Idealize.ShloMosaic

/-- The small constant added to the variance: exponent field 110, significand `0x27C5AC = 2606508`, so
    `(2^23 + 2606508) · 2^(110 − 150) = 10995116 / 2^40` (about `1.0e-5`). -/
def eps : ℝ := 10995116 / 2 ^ 40

theorem eps_pos : 0 < eps := by
  unfold eps
  positivity

/-- The pattern `0x3727C5AC` denotes `eps`. -/
theorem ofBits_eps : Ideal.ofBits .f32 0x3727C5AC#32 = ((eps : ℝ) : EReal) := by
  simp [Ideal.ofBits, Ideal.ieee, eps, -EReal.coe_mul]; norm_num

/-- The pattern `0x3E27C5AC` has the same significand and exponent field `124 = 110 + 14`, so it denotes
    `2^14 · eps = 16384 · eps`. -/
theorem ofBits_fold : Ideal.ofBits .f32 0x3E27C5AC#32 = ((16384 * eps : ℝ) : EReal) := by
  simp [Ideal.ofBits, Ideal.ieee, eps, -EReal.coe_mul]; norm_num

/-- The pattern `0x43000000` (exponent field 134, significand 0) denotes `2^23 · 2^(134 − 150) = 128`. -/
theorem ofBits_128 : Ideal.ofBits .f32 0x43000000#32 = ((128 : ℝ) : EReal) := by
  simp [Ideal.ofBits, Ideal.ieee, -EReal.coe_mul]; norm_num

/-- The pattern `0x3F800000` (exponent field 127, significand 0) denotes `1`. -/
theorem ofBits_one : Ideal.ofBits .f32 0x3F800000#32 = 1 := by
  simp [Ideal.ofBits, Ideal.ieee, -EReal.coe_mul]; norm_num

end Cert.Consts

end
-- ==== Proof.Finite.lean ====
/-
  From the precondition to "every entry of every argument is a real number".

  The precondition is the conjunction, over the eleven arguments, of "all entries have absolute value below
  +∞".  Over the extended reals `|x| = max x (−x)` is `⊤` at both infinities, so `|x| < ⊤` leaves exactly the
  real numbers.
-/
import proofs.«120503_g6854767805213_cont_sun_m_581_17_alg».proof.Proof.Gen.Pre_finite_inputs
import Idealize.ShloMosaic.Lib.ValueIdx
import Idealize.ShloMosaic.Lib.ReduceAll

noncomputable section

namespace Cert.Finite

open Idealize.ShloMosaic Cert.Pre_finite_inputs

/-- The rank-0 shape has one index. -/
instance : Subsingleton S_.Idx := ⟨fun a b => funext fun d => d.elim0⟩

/-- The pattern `0x7F800000` (exponent field all ones, significand 0, sign 0) denotes `+∞`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "less than" of extended reals returns the word 1 exactly when it holds. -/
theorem cmp_olt_eq_one (x y : EReal) : Ideal.cmp .olt x y = 1#1 ↔ x < y := by
  by_cases hxy : x < y <;> simp [Ideal.cmp, hxy]

/-- One argument: if "all entries have absolute value below +∞" reduces to 1, every entry is real. -/
theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  have hi' : Ideal.cmp .olt (max (a i) (-(a i))) (Ideal.ofBits .f32 0x7F800000#32) = 1#1 := hi
  rw [ofBits_inf, cmp_olt_eq_one] at hi'
  exact real_of_abs_lt_top (a i) hi'

/-- The conjunction of two one-bit vectors, read at an index. -/
theorem andi_apply {s : Shape} (x y : IVec s 1) (i : s.Idx) : andi x y i = IntOp.andi (x i) (y i) := rfl

/-- Under the precondition every entry of every argument is a real number. -/
theorem reals_of_pre (a0 : FVec Ideal S100000x128 .f32) (a1 : FVec Ideal S128x128 .f32) (a2 : FVec Ideal S128 .f32)
    (a3 : FVec Ideal S128x128 .f32) (a4 : FVec Ideal S128 .f32) (a5 : FVec Ideal S128x128 .f32)
    (a6 a7 a8 : FVec Ideal S128 .f32) (a9 : FVec Ideal S2x128 .f32) (a10 : FVec Ideal S2 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) := by
  have h0 := congrFun h ValueIdx.ix0
  dsimp only [fn, fn_part1, fn_part2, fn_part3] at h0
  simp only [andi_apply, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨reals_of_all a0 _ _ _ e0, reals_of_all a1 _ _ _ e1, reals_of_all a2 _ _ _ e2, reals_of_all a3 _ _ _ e3,
    reals_of_all a4 _ _ _ e4, reals_of_all a5 _ _ _ e5, reals_of_all a6 _ _ _ e6, reals_of_all a7 _ _ _ e7,
    reals_of_all a8 _ _ _ e8, reals_of_all a9 _ _ _ e9, reals_of_all a10 _ _ _ e10⟩

end Cert.Finite

end
-- ==== Proof.Bridge.lean ====
/-
  The two result arrays are one function of finite arguments.  Row by row the kernel's array is `kerRow`
  and the reference's is `refRow` of the same data; the three float words involved denote 128, a positive
  real ε and exactly 16384·ε = 128²·ε, so the row law applies: folding the two affine maps is
  distributivity, and the normalising head is the identity d·∑h² − (∑h)² = d²·variance under the
  reciprocal square root.  Finiteness of every entry is what lets the extended reals distribute.
-/
import proofs.«120503_g6854767805213_cont_sun_m_581_17_alg».proof.Proof.Blocks
import proofs.«120503_g6854767805213_cont_sun_m_581_17_alg».proof.Proof.RefOut
import proofs.«120503_g6854767805213_cont_sun_m_581_17_alg».proof.Proof.NormHeadLaw
import proofs.«120503_g6854767805213_cont_sun_m_581_17_alg».proof.Proof.Consts
import proofs.«120503_g6854767805213_cont_sun_m_581_17_alg».proof.Proof.Finite

noncomputable section

namespace Cert.Bridge

open Idealize.ShloMosaic Idealize.ShloMosaic.ValueIdx

/-- With every entry of every argument a real, the kernel's result array is the reference's. -/
theorem kerOut_eq_refOut (a0 : FVec Ideal Cert.KernelIdeal.S100000x128 .f32) (a1 : FVec Ideal Cert.KernelIdeal.S128x128 .f32) (a2 : FVec Ideal Cert.KernelIdeal.S128 .f32)
    (a3 : FVec Ideal Cert.KernelIdeal.S128x128 .f32) (a4 : FVec Ideal Cert.KernelIdeal.S128 .f32) (a5 : FVec Ideal Cert.KernelIdeal.S128x128 .f32)
    (a6 a7 a8 : FVec Ideal Cert.KernelIdeal.S128 .f32) (a9 : FVec Ideal Cert.KernelIdeal.S2x128 .f32) (a10 : FVec Ideal Cert.KernelIdeal.S2 .f32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) (h8 : ∀ i, ∃ r : ℝ, a8 i = (r : EReal))
    (h9 : ∀ i, ∃ r : ℝ, a9 i = (r : EReal)) (h10 : ∀ i, ∃ r : ℝ, a10 i = (r : EReal)) :
    Cert.KernelIdeal.Blocks.kerOut a0 a1 a2 a3 a4 a5 a6 a7 a8 a9 a10
      = Cert.ReferenceIdeal.RefRead.refOut a0 a1 a2 a3 a4 a5 a6 a7 a8 a9 a10 := by
  funext i
  unfold Cert.KernelIdeal.Blocks.kerOut Cert.ReferenceIdeal.RefRead.refOut
  rw [Cert.Consts.ofBits_128, Cert.Consts.ofBits_fold, Cert.Consts.ofBits_eps]
  exact congrFun (Cert.NormHead.kerRow_eq_refRow Cert.Consts.eps_pos _ _ _ _ _ _ _ _ _ _ _
    (fun _ _ => h1 _) (fun _ _ => h3 _) (fun _ _ => h5 _) (fun _ => h2 _) (fun _ => h4 _) (fun _ => h6 _) (fun _ => h7 _) (fun _ => h8 _)
    (fun _ _ => h9 _) (fun _ => h10 _) (fun _ => h0 _)) (i 1)

end Cert.Bridge

end
-- ==== Proof.lean ====
/-
  A fused two-layer perceptron with a normalising head, against the same network written with identity
  graph convolutions.

  The kernel, one block of 10000 input rows per grid point, folds the first affine map into the first
  layer (weights Wg1 · Win, shift bin · Wg1ᵀ + bg1), applies the two affine-then-clamp layers, and writes
  (p − s1 · s) · rsqrt(d · s2 − (s1² − C)) + b2 from the row sums s1 = ∑ h and s2 = ∑ h², with the gain
  pre-multiplied by the width d = 128 and C the float word for d² · 1e-5.  The reference applies the
  three maps in turn — its graph convolutions aggregate over self-loops only, so each scatter-add, gather
  and bounds-checked row lookup at the indices 0 … n−1 is the identity —, pools each node by itself, and
  normalises with the mean, the variance and rsqrt(variance + ε), ε the float word for 1e-5.

  Over the extended reals the two agree on finite inputs: folding the affine maps is distributivity, and
  d · s2 − s1² = d² · variance, so rsqrt(variance + ε) = d · rsqrt(d · s2 − s1² + d² · ε); the word C
  denotes exactly 2¹⁴ times the real ε denotes, so the two constants match without rounding.  Finiteness
  of every input entry is what lets products distribute over sums.

  The kernel's frames are the generated ones; its value is read off the generated block-by-block run; the
  reference's run is the fold of its 197 host operations, read stage by stage.
-/
import proofs.«120503_g6854767805213_cont_sun_m_581_17_alg».proof.Defs
import proofs.«120503_g6854767805213_cont_sun_m_581_17_alg».proof.Proof.Gen.Kernel
import proofs.«120503_g6854767805213_cont_sun_m_581_17_alg».proof.Proof.Gen.Kernel.Skeleton
import proofs.«120503_g6854767805213_cont_sun_m_581_17_alg».proof.Proof.Gen.Kernel.Launch
import proofs.«120503_g6854767805213_cont_sun_m_581_17_alg».proof.Proof.Gen.Kernel.Points
import proofs.«120503_g6854767805213_cont_sun_m_581_17_alg».proof.Proof.Gen.Kernel.Frame
import proofs.«120503_g6854767805213_cont_sun_m_581_17_alg».proof.Proof.Gen.KernelIdeal
import proofs.«120503_g6854767805213_cont_sun_m_581_17_alg».proof.Proof.Gen.KernelIdeal.Skeleton
import proofs.«120503_g6854767805213_cont_sun_m_581_17_alg».proof.Proof.Gen.KernelIdeal.Launch
import proofs.«120503_g6854767805213_cont_sun_m_581_17_alg».proof.Proof.Gen.KernelIdeal.Points
import proofs.«120503_g6854767805213_cont_sun_m_581_17_alg».proof.Proof.Gen.KernelIdeal.Frame
import proofs.«120503_g6854767805213_cont_sun_m_581_17_alg».proof.Proof.Gen.KernelIdeal.Value
import proofs.«120503_g6854767805213_cont_sun_m_581_17_alg».proof.Proof.Gen.ReferenceIdeal
import proofs.«120503_g6854767805213_cont_sun_m_581_17_alg».proof.Proof.Gen.Pre_finite_inputs
import proofs.«120503_g6854767805213_cont_sun_m_581_17_alg».proof.Proof.Rows
import proofs.«120503_g6854767805213_cont_sun_m_581_17_alg».proof.Proof.RefRead
import proofs.«120503_g6854767805213_cont_sun_m_581_17_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.RefRead.run m ρ)

/-- The kernel's text is read over the extended reals as it stands: nothing was rewritten. -/
theorem preserves : Cert.preserves_Kernel_KernelIdeal := trivial

/-- On finite inputs the two programs end with the same result array: the kernel's is `kerOut` of the
    arguments, the reference's is `refOut` of arguments that agree, and the two are one function. -/
theorem algebraic : Cert.algebraic_KernelIdeal_ReferenceIdeal := by
  intro m ρ m' ρ' hpre hagree
  refine ⟨fun c => Cert.KernelIdeal.Blocks.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Rows.run m ρ, ?_⟩
  refine (θ_run Cert.ReferenceIdeal.defs _ _).mono (fun _ h c => ⟨(h c).1.trans ?_, (h c).2⟩)
    (Cert.ReferenceIdeal.RefRead.run m' ρ')
  obtain ⟨e0, e1, e2, e3, e4, e5, e6, e7, e8, e9, e10⟩ := hagree c
  rw [e0, e1, e2, e3, e4, e5, e6, e7, e8, e9, e10]
  obtain ⟨r0, r1, r2, r3, r4, r5, r6, r7, r8, r9, r10⟩ := Cert.Finite.reals_of_pre _ _ _ _ _ _ _ _ _ _ _ (hpre c)
  exact (Cert.Bridge.kerOut_eq_refOut _ _ _ _ _ _ _ _ _ _ _ r0 r1 r2 r3 r4 r5 r6 r7 r8 r9 r10).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
